-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096x2x8 : Shape := ⟨3, ![4096, 2, 8]⟩
abbrev S4096x2 : Shape := ⟨2, ![4096, 2]⟩
abbrev S8x3072x768 : Shape := ⟨3, ![8, 3072, 768]⟩
abbrev S8x768x3072 : Shape := ⟨3, ![8, 768, 3072]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x3072x768 : S_.BroadcastsInDim S8x3072x768 (![] : Fin 0 → Fin S8x3072x768.rank)
  reducesTo_S8x3072x768_S_d0_1_2 : S8x3072x768.ReducesTo [0, 1, 2] S_
  bcast_S_S8x768x3072 : S_.BroadcastsInDim S8x768x3072 (![] : Fin 0 → Fin S8x768x3072.rank)
  reducesTo_S8x768x3072_S_d0_1_2 : S8x768x3072.ReducesTo [0, 1, 2] S_

variable [Facts]

def fn_part1 {F : FTy → Type} [FloatOps F] (main_v13 : IVec S_ 1) (main_v16 : IVec S8x768x3072 1) : IVec S_ 1 :=
  let main_c_5 : IVec S_ 1 := constantI S_ 1 1#1
  let main_v17 : IVec S_ 1 := (fun x v => Host.reduce IntOp.andi x v reducesTo_S8x768x3072_S_d0_1_2 h_S_) main_v16 main_c_5
  let main_v18 : IVec S_ 1 := andi main_v13 main_v17
  main_v18

def fn {F : FTy → Type} [FloatOps F] (main_arg0 : FVec F S4096x768 .f32) (main_arg1 : IVec S4096x2x8 32) (main_arg2 : FVec F S4096x2 .f32) (main_arg3 : FVec F S8x3072x768 .f32) (main_arg4 : FVec F S8x768x3072 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x3072x768 .f32 := Host.absf main_arg3
  let main_cst_2 : FVec F S_ .f32 := constant S_ .f32 0x7F800000#32
  let main_v10 : FVec F S8x3072x768 .f32 := broadcastInDim S8x3072x768 ![] bcast_S_S8x3072x768 main_cst_2
  let main_v11 : IVec S8x3072x768 1 := cmpf .olt main_v9 main_v10
  let main_c_3 : IVec S_ 1 := constantI S_ 1 1#1
  let main_v12 : IVec S_ 1 := (fun x v => Host.reduce IntOp.andi x v reducesTo_S8x3072x768_S_d0_1_2 h_S_) main_v11 main_c_3
  let main_v13 : IVec S_ 1 := andi main_v8 main_v12
  let main_v14 : FVec F S8x768x3072 .f32 := Host.absf main_arg4
  let main_cst_4 : FVec F S_ .f32 := constant S_ .f32 0x7F800000#32
  let main_v15 : FVec F S8x768x3072 .f32 := broadcastInDim S8x768x3072 ![] bcast_S_S8x768x3072 main_cst_4
  let main_v16 : IVec S8x768x3072 1 := cmpf .olt main_v14 main_v15
  fn_part1 (F := F) main_v13 main_v16
-- ==== Kernel.lean ====
abbrev S4096x768 : Shape := ⟨2, ![4096, 768]⟩
abbrev S4096x2x8 : Shape := ⟨3, ![4096, 2, 8]⟩
abbrev S4096x2 : Shape := ⟨2, ![4096, 2]⟩
abbrev S8x3072x768 : Shape := ⟨3, ![8, 3072, 768]⟩
abbrev S8x768x3072 : Shape := ⟨3, ![8, 768, 3072]⟩
abbrev S4096x1x8 : Shape := ⟨3, ![4096, 1, 8]⟩
abbrev S4096x8 : Shape := ⟨2, ![4096, 8]⟩
abbrev S4096x1 : Shape := ⟨2, ![4096, 1]⟩
abbrev S1x1536x768 : Shape := ⟨3, ![1, 1536, 768]⟩
abbrev S1x768x1536 : Shape := ⟨3, ![1, 768, 1536]⟩
abbrev S1536x768 : Shape := ⟨2, ![1536, 768]⟩
abbrev S1024x768 : Shape := ⟨2, ![1024, 768]⟩
abbrev S1024x1536 : Shape := ⟨2, ![1024, 1536]⟩
abbrev S768x1536 : Shape := ⟨2, ![768, 1536]⟩
abbrev S1024x8 : Shape := ⟨2, ![1024, 8]⟩
abbrev S1024 : Shape := ⟨1, ![1024]⟩
abbrev S1024x1 : Shape := ⟨2, ![1024, 1]⟩

abbrev nBuf : Space → Nat
  | .hbm => 19
  | .vmem => 7
  | .smem => 0
  | _ => 0

abbrev bufTy : (tb : Table) → Fin (tcTables nBuf tb) → BufTy
  | .hbm, ⟨0, _⟩ => ⟨S4096x768, .f32⟩
  | .hbm, ⟨1, _⟩ => ⟨S4096x2x8, .i32⟩
  | .hbm, ⟨2, _⟩ => ⟨S4096x2, .f32⟩
  | .hbm, ⟨3, _⟩ => ⟨S8x3072x768, .f32⟩
  | .hbm, ⟨4, _⟩ => ⟨S8x768x3072, .f32⟩
  | .hbm, ⟨5, _⟩ => ⟨S4096x768, .bf16⟩
  | .hbm, ⟨6, _⟩ => ⟨S4096x2x8, .f32⟩
  | .hbm, ⟨7, _⟩ => ⟨S4096x1x8, .f32⟩
  | .hbm, ⟨8, _⟩ => ⟨S4096x8, .f32⟩
  | .hbm, ⟨9, _⟩ => ⟨S4096x1, .f32⟩
  | .hbm, ⟨10, _⟩ => ⟨S4096x8, .f32⟩
  | .hbm, ⟨11, _⟩ => ⟨S4096x8, .f32⟩
  | .hbm, ⟨12, _⟩ => ⟨S4096x1x8, .f32⟩
  | .hbm, ⟨13, _⟩ => ⟨S4096x8, .f32⟩
  | .hbm, ⟨14, _⟩ => ⟨S4096x1, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x768, .f32⟩
  | .local _ .vmem, ⟨0, _⟩ => ⟨S4096x768, .bf16⟩
  | .local _ .vmem, ⟨1, _⟩ => ⟨S1x1536x768, .f32⟩
  | .local _ .vmem, ⟨2, _⟩ => ⟨S1x1536x768, .f32⟩
  | .local _ .vmem, ⟨3, _⟩ => ⟨S1x768x1536, .f32⟩
  | .local _ .vmem, ⟨4, _⟩ => ⟨S1x768x1536, .f32⟩
  | .local _ .vmem, ⟨5, _⟩ => ⟨S4096x8, .f32⟩
  | .local _ .vmem, ⟨6, _⟩ => ⟨S4096x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1536x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bitsLt_bf16_f32 : FTy.bits .bf16 < FTy.bits .f32
  slices_S4096x2x8_S4096x1x8_0_0_0 : S4096x2x8.Slices ![0, 0, 0] S4096x1x8
  shapeCasts_S4096x1x8_S4096x8 : S4096x1x8.ShapeCasts S4096x8
  slices_S4096x2_S4096x1_0_0 : S4096x2.Slices ![0, 0] S4096x1
  bcast_S4096x1_S4096x8_0_1 : S4096x1.BroadcastsInDim S4096x8 (![0, 1] : Fin 2 → Fin S4096x8.rank)
  slices_S4096x2x8_S4096x1x8_0_1_0 : S4096x2x8.Slices ![0, 1, 0] S4096x1x8
  slices_S4096x2_S4096x1_0_1 : S4096x2.Slices ![0, 1] S4096x1
  inb_S4096x768_S4096x768_0_0 : ∀ a, (![0, 0] : Fin 2 → Nat) a + S4096x768.size a ≤ S4096x768.size a
  h_S4096x768 : 0 < S4096x768.numel
  inb_S1x1536x768_S1x1536x768_0_0_0 : ∀ a, (![0, 0, 0] : Fin 3 → Nat) a + S1x1536x768.size a ≤ S1x1536x768.size a
  h_S1x1536x768 : 0 < S1x1536x768.numel
  shapeCasts_S1x1536x768_S1536x768 : S1x1536x768.ShapeCasts S1536x768
  inb_S4096x768_S1024x768_0_0 : ∀ a, (![0, 0] : Fin 2 → Nat) a + S1024x768.size a ≤ S4096x768.size a
  h_S1024x768 : 0 < S1024x768.numel
  shapeCasts_S1024x768_S1024x768 : S1024x768.ShapeCasts S1024x768
  inb_S1x768x1536_S1x768x1536_0_0_0 : ∀ a, (![0, 0, 0] : Fin 3 → Nat) a + S1x768x1536.size a ≤ S1x768x1536.size a
  h_S1x768x1536 : 0 < S1x768x1536.numel
  shapeCasts_S1x768x1536_S768x1536 : S1x768x1536.ShapeCasts S768x1536
  inb_S4096x768_S1024x768_1024_0 : ∀ a, (![1024, 0] : Fin 2 → Nat) a + S1024x768.size a ≤ S4096x768.size a
  inb_S4096x8_S1024x8_0_0 : ∀ a, (![0, 0] : Fin 2 → Nat) a + S1024x8.size a ≤ S4096x8.size a
  h_S1024x8 : 0 < S1024x8.numel
  shapeCasts_S1024x8_S1024x8 : S1024x8.ShapeCasts S1024x8
  iota_S1024x8_d1_w32 : S1024x8.Iotas .tc 32 [1]
  reduces_S1024x8_S1024 : S1024x8.Reduces [1] S1024
  shapeCasts_S1024_S1024x1 : S1024.ShapeCasts S1024x1
  broadcasts_S1024x1_S1024x768 : S1024x1.Broadcasts S1024x768
  inb_S4096x768_S1024x768_2048_0 : ∀ a, (![2048, 0] : Fin 2 → Nat) a + S1024x768.size a ≤ S4096x768.size a
  inb_S4096x8_S1024x8_1024_0 : ∀ a, (![1024, 0] : Fin 2 → Nat) a + S1024x8.size a ≤ S4096x8.size a
  inb_S4096x768_S1024x768_3072_0 : ∀ a, (![3072, 0] : Fin 2 → Nat) a + S1024x768.size a ≤ S4096x768.size a
  inb_S4096x8_S1024x8_2048_0 : ∀ a, (![2048, 0] : Fin 2 → Nat) a + S1024x8.size a ≤ S4096x8.size a
  inb_S4096x8_S1024x8_3072_0 : ∀ a, (![3072, 0] : Fin 2 → Nat) a + S1024x8.size a ≤ S4096x8.size a
  dot_S1024x768_S1536x768_S1024x1536_1_1_0_0_n_n_wf : DotDims.WF S1024x768 S1536x768 S1024x1536 [1] [1] [0] [0] [] []
  dot_S1024x1536_S768x1536_S1024x768_1_1_0_0_n_n_wf : DotDims.WF S1024x1536 S768x1536 S1024x768 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S4096x768.size a
  hwx0_0 : ∀ i : grid0.Coords, EltTy.bits .bf16 = 32 ∨ (Rect.block (s := S4096x768) S4096x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1536x768.size a ≤ S8x3072x768.size a
  hwx0_1 : ∀ i : grid0.Coords, EltTy.bits .f32 = 32 ∨ (Rect.block (s := S8x3072x768) S1x1536x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x1536.size a ≤ S8x768x3072.size a
  hwx0_2 : ∀ i : grid0.Coords, EltTy.bits .f32 = 32 ∨ (Rect.block (s := S8x768x3072) S1x768x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x8.size a ≤ S4096x8.size a
  hwx0_3 : ∀ i : grid0.Coords, EltTy.bits .f32 = 32 ∨ (Rect.block (s := S4096x8) S4096x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x768.size a ≤ S4096x768.size a
  hwx0_4 : ∀ i : grid0.Coords, EltTy.bits .f32 = 32 ∨ (Rect.block (s := S4096x768) S4096x768.size (cc0_transform_4 i) (hinb0_4 i)).WholeWords (EltTy.packing .f32)

variable [Facts₀]

def dot_S1024x768_S1536x768_S1024x1536_1_1_0_0_n_n : DotDims S1024x768 S1536x768 S1024x1536 where
  lhsContracting := [1]
  rhsContracting := [1]
  lhsNonContracting := [0]
  rhsNonContracting := [0]
  lhsBatch := []
  rhsBatch := []
  wf := dot_S1024x768_S1536x768_S1024x1536_1_1_0_0_n_n_wf
def dot_S1024x1536_S768x1536_S1024x768_1_1_0_0_n_n : DotDims S1024x1536 S768x1536 S1024x768 where
  lhsContracting := [1]
  rhsContracting := [1]
  lhsNonContracting := [0]
  rhsNonContracting := [0]
  lhsBatch := []
  rhsBatch := []
  wf := dot_S1024x1536_S768x1536_S1024x768_1_1_0_0_n_n_wf

abbrev win0_0 : Pipeline.Window sig grid0 :=
  Pipeline.Window.ofSpec (Memref.whole main_v0) S4096x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1536x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x768x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S4096x768.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x768 : Shape := ⟨2, ![4096, 768]⟩
abbrev S4096x2x8 : Shape := ⟨3, ![4096, 2, 8]⟩
abbrev S4096x2 : Shape := ⟨2, ![4096, 2]⟩
abbrev S8x3072x768 : Shape := ⟨3, ![8, 3072, 768]⟩
abbrev S8x768x3072 : Shape := ⟨3, ![8, 768, 3072]⟩
abbrev S_ : Shape := ⟨0, ![]⟩
abbrev S8x2x4096 : Shape := ⟨3, ![8, 2, 4096]⟩
abbrev S1x3072x768 : Shape := ⟨3, ![1, 3072, 768]⟩
abbrev S3072x768 : Shape := ⟨2, ![3072, 768]⟩
abbrev S768x3072 : Shape := ⟨2, ![768, 3072]⟩
abbrev S4096x3072 : Shape := ⟨2, ![4096, 3072]⟩
abbrev S1x768x3072 : Shape := ⟨3, ![1, 768, 3072]⟩
abbrev S1x1x4096 : Shape := ⟨3, ![1, 1, 4096]⟩
abbrev S4096 : Shape := ⟨1, ![4096]⟩
abbrev S4096x1 : Shape := ⟨2, ![4096, 1]⟩

abbrev nBuf : Space → Nat
  | .hbm => 256
  | .vmem => 0
  | .smem => 0
  | _ => 0

abbrev hbmTy0_0 (i : Nat) : BufTy := match i % 128 with
  | 0 => ⟨S4096x768, .f32⟩
  | 1 => ⟨S4096x2x8, .i32⟩
  | 2 => ⟨S4096x2, .f32⟩
  | 3 => ⟨S8x3072x768, .f32⟩
  | 4 => ⟨S8x768x3072, .f32⟩
  | 5 => ⟨S_, .f32⟩
  | 6 => ⟨S4096x768, .f32⟩
  | 7 => ⟨S8x2x4096, .i32⟩
  | 8 => ⟨S1x3072x768, .f32⟩
  | 9 => ⟨S3072x768, .f32⟩
  | 10 => ⟨S768x3072, .f32⟩
  | 11 => ⟨S4096x3072, .f32⟩
  | 12 => ⟨S_, .f32⟩
  | 13 => ⟨S4096x3072, .f32⟩
  | 14 => ⟨S4096x3072, .f32⟩
  | 15 => ⟨S1x768x3072, .f32⟩
  | 16 => ⟨S768x3072, .f32⟩
  | 17 => ⟨S3072x768, .f32⟩
  | 18 => ⟨S4096x768, .f32⟩
  | 19 => ⟨S1x1x4096, .i32⟩
  | 20 => ⟨S4096, .i32⟩
  | 21 => ⟨S4096, .f32⟩
  | 22 => ⟨S4096x1, .f32⟩
  | 23 => ⟨S4096, .f32⟩
  | 24 => ⟨S4096, .f32⟩
  | 25 => ⟨S4096x1, .f32⟩
  | 26 => ⟨S4096x768, .f32⟩
  | 27 => ⟨S4096x768, .f32⟩
  | 28 => ⟨S4096x768, .f32⟩
  | 29 => ⟨S1x1x4096, .i32⟩
  | 30 => ⟨S4096, .i32⟩
  | 31 => ⟨S4096, .f32⟩
  | 32 => ⟨S4096x1, .f32⟩
  | 33 => ⟨S4096, .f32⟩
  | 34 => ⟨S4096, .f32⟩
  | 35 => ⟨S4096x1, .f32⟩
  | 36 => ⟨S4096x768, .f32⟩
  | 37 => ⟨S4096x768, .f32⟩
  | 38 => ⟨S4096x768, .f32⟩
  | 39 => ⟨S1x3072x768, .f32⟩
  | 40 => ⟨S3072x768, .f32⟩
  | 41 => ⟨S768x3072, .f32⟩
  | 42 => ⟨S4096x3072, .f32⟩
  | 43 => ⟨S_, .f32⟩
  | 44 => ⟨S4096x3072, .f32⟩
  | 45 => ⟨S4096x3072, .f32⟩
  | 46 => ⟨S1x768x3072, .f32⟩
  | 47 => ⟨S768x3072, .f32⟩
  | 48 => ⟨S3072x768, .f32⟩
  | 49 => ⟨S4096x768, .f32⟩
  | 50 => ⟨S1x1x4096, .i32⟩
  | 51 => ⟨S4096, .i32⟩
  | 52 => ⟨S4096, .f32⟩
  | 53 => ⟨S4096x1, .f32⟩
  | 54 => ⟨S4096, .f32⟩
  | 55 => ⟨S4096, .f32⟩
  | 56 => ⟨S4096x1, .f32⟩
  | 57 => ⟨S4096x768, .f32⟩
  | 58 => ⟨S4096x768, .f32⟩
  | 59 => ⟨S4096x768, .f32⟩
  | 60 => ⟨S1x1x4096, .i32⟩
  | 61 => ⟨S4096, .i32⟩
  | 62 => ⟨S4096, .f32⟩
  | 63 => ⟨S4096x1, .f32⟩
  | 64 => ⟨S4096, .f32⟩
  | 65 => ⟨S4096, .f32⟩
  | 66 => ⟨S4096x1, .f32⟩
  | 67 => ⟨S4096x768, .f32⟩
  | 68 => ⟨S4096x768, .f32⟩
  | 69 => ⟨S4096x768, .f32⟩
  | 70 => ⟨S1x3072x768, .f32⟩
  | 71 => ⟨S3072x768, .f32⟩
  | 72 => ⟨S768x3072, .f32⟩
  | 73 => ⟨S4096x3072, .f32⟩
  | 74 => ⟨S_, .f32⟩
  | 75 => ⟨S4096x3072, .f32⟩
  | 76 => ⟨S4096x3072, .f32⟩
  | 77 => ⟨S1x768x3072, .f32⟩
  | 78 => ⟨S768x3072, .f32⟩
  | 79 => ⟨S3072x768, .f32⟩
  | 80 => ⟨S4096x768, .f32⟩
  | 81 => ⟨S1x1x4096, .i32⟩
  | 82 => ⟨S4096, .i32⟩
  | 83 => ⟨S4096, .f32⟩
  | 84 => ⟨S4096x1, .f32⟩
  | 85 => ⟨S4096, .f32⟩
  | 86 => ⟨S4096, .f32⟩
  | 87 => ⟨S4096x1, .f32⟩
  | 88 => ⟨S4096x768, .f32⟩
  | 89 => ⟨S4096x768, .f32⟩
  | 90 => ⟨S4096x768, .f32⟩
  | 91 => ⟨S1x1x4096, .i32⟩
  | 92 => ⟨S4096, .i32⟩
  | 93 => ⟨S4096, .f32⟩
  | 94 => ⟨S4096x1, .f32⟩
  | 95 => ⟨S4096, .f32⟩
  | 96 => ⟨S4096, .f32⟩
  | 97 => ⟨S4096x1, .f32⟩
  | 98 => ⟨S4096x768, .f32⟩
  | 99 => ⟨S4096x768, .f32⟩
  | 100 => ⟨S4096x768, .f32⟩
  | 101 => ⟨S1x3072x768, .f32⟩
  | 102 => ⟨S3072x768, .f32⟩
  | 103 => ⟨S768x3072, .f32⟩
  | 104 => ⟨S4096x3072, .f32⟩
  | 105 => ⟨S_, .f32⟩
  | 106 => ⟨S4096x3072, .f32⟩
  | 107 => ⟨S4096x3072, .f32⟩
  | 108 => ⟨S1x768x3072, .f32⟩
  | 109 => ⟨S768x3072, .f32⟩
  | 110 => ⟨S3072x768, .f32⟩
  | 111 => ⟨S4096x768, .f32⟩
  | 112 => ⟨S1x1x4096, .i32⟩
  | 113 => ⟨S4096, .i32⟩
  | 114 => ⟨S4096, .f32⟩
  | 115 => ⟨S4096x1, .f32⟩
  | 116 => ⟨S4096, .f32⟩
  | 117 => ⟨S4096, .f32⟩
  | 118 => ⟨S4096x1, .f32⟩
  | 119 => ⟨S4096x768, .f32⟩
  | 120 => ⟨S4096x768, .f32⟩
  | 121 => ⟨S4096x768, .f32⟩
  | 122 => ⟨S1x1x4096, .i32⟩
  | 123 => ⟨S4096, .i32⟩
  | 124 => ⟨S4096, .f32⟩
  | 125 => ⟨S4096x1, .f32⟩
  | 126 => ⟨S4096, .f32⟩
  | 127 => ⟨S4096, .f32⟩
  | _ => ⟨S4096x768, .f32⟩

abbrev hbmTy0_1 (i : Nat) : BufTy := match i % 128 with
  | 0 => ⟨S4096x1, .f32⟩
  | 1 => ⟨S4096x768, .f32⟩
  | 2 => ⟨S4096x768, .f32⟩
  | 3 => ⟨S4096x768, .f32⟩
  | 4 => ⟨S1x3072x768, .f32⟩
  | 5 => ⟨S3072x768, .f32⟩
  | 6 => ⟨S768x3072, .f32⟩
  | 7 => ⟨S4096x3072, .f32⟩
  | 8 => ⟨S_, .f32⟩
  | 9 => ⟨S4096x3072, .f32⟩
  | 10 => ⟨S4096x3072, .f32⟩
  | 11 => ⟨S1x768x3072, .f32⟩
  | 12 => ⟨S768x3072, .f32⟩
  | 13 => ⟨S3072x768, .f32⟩
  | 14 => ⟨S4096x768, .f32⟩
  | 15 => ⟨S1x1x4096, .i32⟩
  | 16 => ⟨S4096, .i32⟩
  | 17 => ⟨S4096, .f32⟩
  | 18 => ⟨S4096x1, .f32⟩
  | 19 => ⟨S4096, .f32⟩
  | 20 => ⟨S4096, .f32⟩
  | 21 => ⟨S4096x1, .f32⟩
  | 22 => ⟨S4096x768, .f32⟩
  | 23 => ⟨S4096x768, .f32⟩
  | 24 => ⟨S4096x768, .f32⟩
  | 25 => ⟨S1x1x4096, .i32⟩
  | 26 => ⟨S4096, .i32⟩
  | 27 => ⟨S4096, .f32⟩
  | 28 => ⟨S4096x1, .f32⟩
  | 29 => ⟨S4096, .f32⟩
  | 30 => ⟨S4096, .f32⟩
  | 31 => ⟨S4096x1, .f32⟩
  | 32 => ⟨S4096x768, .f32⟩
  | 33 => ⟨S4096x768, .f32⟩
  | 34 => ⟨S4096x768, .f32⟩
  | 35 => ⟨S1x3072x768, .f32⟩
  | 36 => ⟨S3072x768, .f32⟩
  | 37 => ⟨S768x3072, .f32⟩
  | 38 => ⟨S4096x3072, .f32⟩
  | 39 => ⟨S_, .f32⟩
  | 40 => ⟨S4096x3072, .f32⟩
  | 41 => ⟨S4096x3072, .f32⟩
  | 42 => ⟨S1x768x3072, .f32⟩
  | 43 => ⟨S768x3072, .f32⟩
  | 44 => ⟨S3072x768, .f32⟩
  | 45 => ⟨S4096x768, .f32⟩
  | 46 => ⟨S1x1x4096, .i32⟩
  | 47 => ⟨S4096, .i32⟩
  | 48 => ⟨S4096, .f32⟩
  | 49 => ⟨S4096x1, .f32⟩
  | 50 => ⟨S4096, .f32⟩
  | 51 => ⟨S4096, .f32⟩
  | 52 => ⟨S4096x1, .f32⟩
  | 53 => ⟨S4096x768, .f32⟩
  | 54 => ⟨S4096x768, .f32⟩
  | 55 => ⟨S4096x768, .f32⟩
  | 56 => ⟨S1x1x4096, .i32⟩
  | 57 => ⟨S4096, .i32⟩
  | 58 => ⟨S4096, .f32⟩
  | 59 => ⟨S4096x1, .f32⟩
  | 60 => ⟨S4096, .f32⟩
  | 61 => ⟨S4096, .f32⟩
  | 62 => ⟨S4096x1, .f32⟩
  | 63 => ⟨S4096x768, .f32⟩
  | 64 => ⟨S4096x768, .f32⟩
  | 65 => ⟨S4096x768, .f32⟩
  | 66 => ⟨S1x3072x768, .f32⟩
  | 67 => ⟨S3072x768, .f32⟩
  | 68 => ⟨S768x3072, .f32⟩
  | 69 => ⟨S4096x3072, .f32⟩
  | 70 => ⟨S_, .f32⟩
  | 71 => ⟨S4096x3072, .f32⟩
  | 72 => ⟨S4096x3072, .f32⟩
  | 73 => ⟨S1x768x3072, .f32⟩
  | 74 => ⟨S768x3072, .f32⟩
  | 75 => ⟨S3072x768, .f32⟩
  | 76 => ⟨S4096x768, .f32⟩
  | 77 => ⟨S1x1x4096, .i32⟩
  | 78 => ⟨S4096, .i32⟩
  | 79 => ⟨S4096, .f32⟩
  | 80 => ⟨S4096x1, .f32⟩
  | 81 => ⟨S4096, .f32⟩
  | 82 => ⟨S4096, .f32⟩
  | 83 => ⟨S4096x1, .f32⟩
  | 84 => ⟨S4096x768, .f32⟩
  | 85 => ⟨S4096x768, .f32⟩
  | 86 => ⟨S4096x768, .f32⟩
  | 87 => ⟨S1x1x4096, .i32⟩
  | 88 => ⟨S4096, .i32⟩
  | 89 => ⟨S4096, .f32⟩
  | 90 => ⟨S4096x1, .f32⟩
  | 91 => ⟨S4096, .f32⟩
  | 92 => ⟨S4096, .f32⟩
  | 93 => ⟨S4096x1, .f32⟩
  | 94 => ⟨S4096x768, .f32⟩
  | 95 => ⟨S4096x768, .f32⟩
  | 96 => ⟨S4096x768, .f32⟩
  | 97 => ⟨S1x3072x768, .f32⟩
  | 98 => ⟨S3072x768, .f32⟩
  | 99 => ⟨S768x3072, .f32⟩
  | 100 => ⟨S4096x3072, .f32⟩
  | 101 => ⟨S_, .f32⟩
  | 102 => ⟨S4096x3072, .f32⟩
  | 103 => ⟨S4096x3072, .f32⟩
  | 104 => ⟨S1x768x3072, .f32⟩
  | 105 => ⟨S768x3072, .f32⟩
  | 106 => ⟨S3072x768, .f32⟩
  | 107 => ⟨S4096x768, .f32⟩
  | 108 => ⟨S1x1x4096, .i32⟩
  | 109 => ⟨S4096, .i32⟩
  | 110 => ⟨S4096, .f32⟩
  | 111 => ⟨S4096x1, .f32⟩
  | 112 => ⟨S4096, .f32⟩
  | 113 => ⟨S4096, .f32⟩
  | 114 => ⟨S4096x1, .f32⟩
  | 115 => ⟨S4096x768, .f32⟩
  | 116 => ⟨S4096x768, .f32⟩
  | 117 => ⟨S4096x768, .f32⟩
  | 118 => ⟨S1x1x4096, .i32⟩
  | 119 => ⟨S4096, .i32⟩
  | 120 => ⟨S4096, .f32⟩
  | 121 => ⟨S4096x1, .f32⟩
  | 122 => ⟨S4096, .f32⟩
  | 123 => ⟨S4096, .f32⟩
  | 124 => ⟨S4096x1, .f32⟩
  | 125 => ⟨S4096x768, .f32⟩
  | 126 => ⟨S4096x768, .f32⟩
  | 127 => ⟨S4096x768, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call1_cst : Ref sig .tc := ⟨.hbm, 43, rfl⟩
abbrev main_call1_v0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_call2_cst : Ref sig .tc := ⟨.hbm, 74, rfl⟩
abbrev main_call2_v0 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_call3_cst : Ref sig .tc := ⟨.hbm, 105, rfl⟩
abbrev main_call3_v0 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_call4_cst : Ref sig .tc := ⟨.hbm, 136, rfl⟩
abbrev main_call4_v0 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_call5_cst : Ref sig .tc := ⟨.hbm, 167, rfl⟩
abbrev main_call5_v0 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_call6_cst : Ref sig .tc := ⟨.hbm, 198, rfl⟩
abbrev main_call6_v0 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_call7_cst : Ref sig .tc := ⟨.hbm, 229, rfl⟩
abbrev main_call7_v0 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩

abbrev nD : Nat := 1
abbrev τ : Topo := Topo.v7x

variable {F : FTy → Type} [FloatOps F]

class Facts₀ : Prop where
  bcast_S_S4096x768 : S_.BroadcastsInDim S4096x768 (![] : Fin 0 → Fin S4096x768.rank)
  transposes_S4096x2x8_S8x2x4096_2_1_0 : S4096x2x8.Transposes [2, 1, 0] S8x2x4096
  slices_S8x3072x768_S1x3072x768_0_0_0 : S8x3072x768.Slices ![0, 0, 0] S1x3072x768
  shapeCasts_S1x3072x768_S3072x768 : S1x3072x768.ShapeCasts S3072x768
  transposes_S3072x768_S768x3072_1_0 : S3072x768.Transposes [1, 0] S768x3072
  bcast_S_S4096x3072 : S_.BroadcastsInDim S4096x3072 (![] : Fin 0 → Fin S4096x3072.rank)
  slices_S8x768x3072_S1x768x3072_0_0_0 : S8x768x3072.Slices ![0, 0, 0] S1x768x3072
  shapeCasts_S1x768x3072_S768x3072 : S1x768x3072.ShapeCasts S768x3072
  transposes_S768x3072_S3072x768_1_0 : S768x3072.Transposes [1, 0] S3072x768
  slices_S8x2x4096_S1x1x4096_0_0_0 : S8x2x4096.Slices ![0, 0, 0] S1x1x4096
  shapeCasts_S1x1x4096_S4096 : S1x1x4096.ShapeCasts S4096
  slices_S4096x2_S4096x1_0_0 : S4096x2.Slices ![0, 0] S4096x1
  shapeCasts_S4096x1_S4096 : S4096x1.ShapeCasts S4096
  bcast_S4096_S4096x1_0 : S4096.BroadcastsInDim S4096x1 (![0] : Fin 1 → Fin S4096x1.rank)
  bcast_S4096x1_S4096x768_0_1 : S4096x1.BroadcastsInDim S4096x768 (![0, 1] : Fin 2 → Fin S4096x768.rank)
  slices_S8x2x4096_S1x1x4096_0_1_0 : S8x2x4096.Slices ![0, 1, 0] S1x1x4096
  slices_S4096x2_S4096x1_0_1 : S4096x2.Slices ![0, 1] S4096x1
  slices_S8x3072x768_S1x3072x768_1_0_0 : S8x3072x768.Slices ![1, 0, 0] S1x3072x768
  slices_S8x768x3072_S1x768x3072_1_0_0 : S8x768x3072.Slices ![1, 0, 0] S1x768x3072
  slices_S8x2x4096_S1x1x4096_1_0_0 : S8x2x4096.Slices ![1, 0, 0] S1x1x4096
  slices_S8x2x4096_S1x1x4096_1_1_0 : S8x2x4096.Slices ![1, 1, 0] S1x1x4096
  slices_S8x3072x768_S1x3072x768_2_0_0 : S8x3072x768.Slices ![2, 0, 0] S1x3072x768
  slices_S8x768x3072_S1x768x3072_2_0_0 : S8x768x3072.Slices ![2, 0, 0] S1x768x3072
  slices_S8x2x4096_S1x1x4096_2_0_0 : S8x2x4096.Slices ![2, 0, 0] S1x1x4096
  slices_S8x2x4096_S1x1x4096_2_1_0 : S8x2x4096.Slices ![2, 1, 0] S1x1x4096
  slices_S8x3072x768_S1x3072x768_3_0_0 : S8x3072x768.Slices ![3, 0, 0] S1x3072x768
  slices_S8x768x3072_S1x768x3072_3_0_0 : S8x768x3072.Slices ![3, 0, 0] S1x768x3072
  slices_S8x2x4096_S1x1x4096_3_0_0 : S8x2x4096.Slices ![3, 0, 0] S1x1x4096
  slices_S8x2x4096_S1x1x4096_3_1_0 : S8x2x4096.Slices ![3, 1, 0] S1x1x4096
  slices_S8x3072x768_S1x3072x768_4_0_0 : S8x3072x768.Slices ![4, 0, 0] S1x3072x768
  slices_S8x768x3072_S1x768x3072_4_0_0 : S8x768x3072.Slices ![4, 0, 0] S1x768x3072
  slices_S8x2x4096_S1x1x4096_4_0_0 : S8x2x4096.Slices ![4, 0, 0] S1x1x4096
  slices_S8x2x4096_S1x1x4096_4_1_0 : S8x2x4096.Slices ![4, 1, 0] S1x1x4096
  slices_S8x3072x768_S1x3072x768_5_0_0 : S8x3072x768.Slices ![5, 0, 0] S1x3072x768
  slices_S8x768x3072_S1x768x3072_5_0_0 : S8x768x3072.Slices ![5, 0, 0] S1x768x3072
  slices_S8x2x4096_S1x1x4096_5_0_0 : S8x2x4096.Slices ![5, 0, 0] S1x1x4096
  slices_S8x2x4096_S1x1x4096_5_1_0 : S8x2x4096.Slices ![5, 1, 0] S1x1x4096
  slices_S8x3072x768_S1x3072x768_6_0_0 : S8x3072x768.Slices ![6, 0, 0] S1x3072x768
  slices_S8x768x3072_S1x768x3072_6_0_0 : S8x768x3072.Slices ![6, 0, 0] S1x768x3072
  slices_S8x2x4096_S1x1x4096_6_0_0 : S8x2x4096.Slices ![6, 0, 0] S1x1x4096
  slices_S8x2x4096_S1x1x4096_6_1_0 : S8x2x4096.Slices ![6, 1, 0] S1x1x4096
  slices_S8x3072x768_S1x3072x768_7_0_0 : S8x3072x768.Slices ![7, 0, 0] S1x3072x768
  slices_S8x768x3072_S1x768x3072_7_0_0 : S8x768x3072.Slices ![7, 0, 0] S1x768x3072
  slices_S8x2x4096_S1x1x4096_7_0_0 : S8x2x4096.Slices ![7, 0, 0] S1x1x4096
  slices_S8x2x4096_S1x1x4096_7_1_0 : S8x2x4096.Slices ![7, 1, 0] S1x1x4096
  dot_S4096x768_S768x3072_S4096x3072_1_0_0_1_n_n_wf : DotDims.WF S4096x768 S768x3072 S4096x3072 [1] [0] [0] [1] [] []
  dot_S4096x3072_S3072x768_S4096x768_1_0_0_1_n_n_wf : DotDims.WF S4096x3072 S3072x768 S4096x768 [1] [0] [0] [1] [] []

variable [Facts₀]

def dot_S4096x768_S768x3072_S4096x3072_1_0_0_1_n_n : DotDims S4096x768 S768x3072 S4096x3072 where
  lhsContracting := [1]
  rhsContracting := [0]
  lhsNonContracting := [0]
  rhsNonContracting := [1]
  lhsBatch := []
  rhsBatch := []
  wf := dot_S4096x768_S768x3072_S4096x3072_1_0_0_1_n_n_wf
def dot_S4096x3072_S3072x768_S4096x768_1_0_0_1_n_n : DotDims S4096x3072 S3072x768 S4096x768 where
  lhsContracting := [1]
  rhsContracting := [0]
  lhsNonContracting := [0]
  rhsNonContracting := [1]
  lhsBatch := []
  rhsBatch := []
  wf := dot_S4096x3072_S3072x768_S4096x768_1_0_0_1_n_n_wf

class Facts : Prop extends Facts₀ where

variable [Facts]
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.Columns

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Columns

end
-- ==== Proof.Chunk.lean ====
import proofs.«158283_g1726576853152_cont_sun_c4_190_44_alg».proof.Proof.Gen.KernelIdeal.Skeleton
import proofs.«158283_g1726576853152_cont_sun_c4_190_44_alg».proof.Proof.LibColumns
import Idealize.ShloMosaic.Lib.Pipeline.Value
import Idealize.ShloMosaic.Lib.ValueIdx
import Idealize.ShloMosaic.PureOps.Ideal.Laws

/-! One row chunk of the kernel body, read at an index.

    The body handles the 4096 tokens in four chunks of 1024 rows. For each chunk it stores, over what the output block held (old),
    old + (relu (xc · w1ᵀ) · w2ᵀ) * c, where xc is the chunk's rows of the activations, w1 and w2 the point's blocks of the two
    weight arrays, and c the column of routing coefficients: the row sum of the chunk's rows of the coefficient array with
    every lane but the expert's own replaced by zero. The four stores' payloads are one term (chunk); read at row p and
    column q it is old p q + (∑ j, max (∑ k, xc p k * w1 j k) 0 * w2 q j) * (∑ l, [l is the expert's lane] cs p l). -/

noncomputable section

open Idealize.ShloMosaic Idealize.ShloMosaic.ValueIdx

namespace Cert.KernelIdeal.Chunk

open Cert.KernelIdeal Cert.KernelIdeal.Gen

section AnyInstance

variable {F : FTy → Type} [FloatOps F]

/-- One chunk's store payload as one term of the expert's number, the chunk's activations, the two weight blocks, the
    chunk's coefficients and the chunk's old contents. -/
def chunk (e : BitVec 32) (xc : Vec F S1024x768 .bf16) (w1 : Vec F S1x1536x768 .f32) (w2 : Vec F S1x768x1536 .f32)
    (cs : Vec F S1024x8 .f32) (old : Vec F S1024x768 .f32) : FVec F S1024x768 .f32 :=
  k0_pay10 e (k0_pay5 w2) (k0_pay6 w1 xc) cs old

/-- The first chunk's payload is that term. -/
theorem pay_rows0 (i : grid0.Coords) (v5 : Vec F S1x1536x768 .f32) (v8 : Vec F S1024x768 .bf16) (v14 : Vec F S1x768x1536 .f32)
    (v24 : Vec F S1024x8 .f32) (v33 : Vec F S1024x768 .f32) :
    k0_pay9 (k0_pay7 v5 v8 v14) (k0_pay8 i v24) v33 = chunk (BitVec.ofNat 32 (i 0).val) v8 v5 v14 v24 v33 := rfl

/-- The second chunk's payload is that term. -/
theorem pay_rows1 (e : BitVec 32) (v5 : Vec F S1x1536x768 .f32) (v17 : Vec F S1024x768 .bf16) (v14 : Vec F S1x768x1536 .f32)
    (v46 : Vec F S1024x8 .f32) (v55 : Vec F S1024x768 .f32) :
    k0_pay10 e (k0_pay5 v14) (k0_pay6 v5 v17) v46 v55 = chunk e v17 v5 v14 v46 v55 := rfl

/-- The third chunk's payload is that term. -/
theorem pay_rows2 (e : BitVec 32) (v5 : Vec F S1x1536x768 .f32) (v39 : Vec F S1024x768 .bf16) (v14 : Vec F S1x768x1536 .f32)
    (v68 : Vec F S1024x8 .f32) (v77 : Vec F S1024x768 .f32) :
    k0_pay1 e (k0_pay12 (k0_pay4 v5) (k0_pay5 v14) v39) v68 v77 = chunk e v39 v5 v14 v68 v77 := rfl

/-- The fourth chunk's payload is that term. -/
theorem pay_rows3 (e : BitVec 32) (v5 : Vec F S1x1536x768 .f32) (v61 : Vec F S1024x768 .bf16) (v14 : Vec F S1x768x1536 .f32)
    (v84 : Vec F S1024x8 .f32) (v93 : Vec F S1024x768 .f32) :
    k0_pay2 e (k0_pay5 v14) (k0_pay11 (k0_pay4 v5) v61) v84 v93 = chunk e v61 v5 v14 v84 v93 := rfl

end AnyInstance

/-! ## At the ideal values -/

/-- The bf16 zero word is the number zero. -/
theorem ofBits_zero_bf16 : Ideal.ofBits .bf16 0x0000#16 = 0 := by simp [Ideal.ofBits, Ideal.ieee]

/-! The operand indices of the two products: the output's row on the left operand's axis 0, the output's column on the
    right operand's axis 0, the contracted coordinate on axis 1 of both. -/

theorem d1_lhs0 (i : S1024x1536.Idx) (q : dot_S1024x768_S1536x768_S1024x1536_1_1_0_0_n_n.contr.Idx) : (dot_S1024x768_S1536x768_S1024x1536_1_1_0_0_n_n.lhsIdx i q 0).val = (i 0).val := by
  unfold DotDims.lhsIdx
  rw [dif_neg (show ¬(0 : Fin S1024x768.rank) ∈ dot_S1024x768_S1536x768_S1024x1536_1_1_0_0_n_n.lhsBatch by decide), dif_pos (show (0 : Fin S1024x768.rank) ∈ dot_S1024x768_S1536x768_S1024x1536_1_1_0_0_n_n.lhsNonContracting by decide)]
  rfl
theorem d1_lhs1 (i : S1024x1536.Idx) (q : dot_S1024x768_S1536x768_S1024x1536_1_1_0_0_n_n.contr.Idx) : (dot_S1024x768_S1536x768_S1024x1536_1_1_0_0_n_n.lhsIdx i q 1).val = (q ⟨0, by decide⟩).val :=
  dot_S1024x768_S1536x768_S1024x1536_1_1_0_0_n_n.lhsIdx_val_of_single rfl i q
theorem d1_rhs0 (i : S1024x1536.Idx) (q : dot_S1024x768_S1536x768_S1024x1536_1_1_0_0_n_n.contr.Idx) : (dot_S1024x768_S1536x768_S1024x1536_1_1_0_0_n_n.rhsIdx i q 0).val = (i 1).val := by
  unfold DotDims.rhsIdx
  rw [dif_neg (show ¬(0 : Fin S1536x768.rank) ∈ dot_S1024x768_S1536x768_S1024x1536_1_1_0_0_n_n.rhsBatch by decide), dif_pos (show (0 : Fin S1536x768.rank) ∈ dot_S1024x768_S1536x768_S1024x1536_1_1_0_0_n_n.rhsNonContracting by decide)]
  rfl
theorem d1_rhs1 (i : S1024x1536.Idx) (q : dot_S1024x768_S1536x768_S1024x1536_1_1_0_0_n_n.contr.Idx) : (dot_S1024x768_S1536x768_S1024x1536_1_1_0_0_n_n.rhsIdx i q 1).val = (q ⟨0, by decide⟩).val :=
  dot_S1024x768_S1536x768_S1024x1536_1_1_0_0_n_n.rhsIdx_val_of_single rfl i q

theorem d2_lhs0 (i : S1024x768.Idx) (q : dot_S1024x1536_S768x1536_S1024x768_1_1_0_0_n_n.contr.Idx) : (dot_S1024x1536_S768x1536_S1024x768_1_1_0_0_n_n.lhsIdx i q 0).val = (i 0).val := by
  unfold DotDims.lhsIdx
  rw [dif_neg (show ¬(0 : Fin S1024x1536.rank) ∈ dot_S1024x1536_S768x1536_S1024x768_1_1_0_0_n_n.lhsBatch by decide), dif_pos (show (0 : Fin S1024x1536.rank) ∈ dot_S1024x1536_S768x1536_S1024x768_1_1_0_0_n_n.lhsNonContracting by decide)]
  rfl
theorem d2_lhs1 (i : S1024x768.Idx) (q : dot_S1024x1536_S768x1536_S1024x768_1_1_0_0_n_n.contr.Idx) : (dot_S1024x1536_S768x1536_S1024x768_1_1_0_0_n_n.lhsIdx i q 1).val = (q ⟨0, by decide⟩).val :=
  dot_S1024x1536_S768x1536_S1024x768_1_1_0_0_n_n.lhsIdx_val_of_single rfl i q
theorem d2_rhs0 (i : S1024x768.Idx) (q : dot_S1024x1536_S768x1536_S1024x768_1_1_0_0_n_n.contr.Idx) : (dot_S1024x1536_S768x1536_S1024x768_1_1_0_0_n_n.rhsIdx i q 0).val = (i 1).val := by
  unfold DotDims.rhsIdx
  rw [dif_neg (show ¬(0 : Fin S768x1536.rank) ∈ dot_S1024x1536_S768x1536_S1024x768_1_1_0_0_n_n.rhsBatch by decide), dif_pos (show (0 : Fin S768x1536.rank) ∈ dot_S1024x1536_S768x1536_S1024x768_1_1_0_0_n_n.rhsNonContracting by decide)]
  rfl
theorem d2_rhs1 (i : S1024x768.Idx) (q : dot_S1024x1536_S768x1536_S1024x768_1_1_0_0_n_n.contr.Idx) : (dot_S1024x1536_S768x1536_S1024x768_1_1_0_0_n_n.rhsIdx i q 1).val = (q ⟨0, by decide⟩).val :=
  dot_S1024x1536_S768x1536_S1024x768_1_1_0_0_n_n.rhsIdx_val_of_single rfl i q

/-- The first product at (p, j): row p of the left operand against row j of the right one. -/
theorem mm1_apply (a : FVec Ideal S1024x768 .bf16) (b : FVec Ideal S1536x768 .bf16) (p : Fin 1024) (j : Fin 1536) :
    matmul dot_S1024x768_S1536x768_S1024x1536_1_1_0_0_n_n none a b (constant S1024x1536 .f32 0x00000000#32) (ix2 p j)
      = ∑ k : Fin 768, a (ix2 p k) * b (ix2 j k) := by
  refine (Ideal.matmul_constant_zero_apply dot_S1024x768_S1536x768_S1024x1536_1_1_0_0_n_n none a b (ix2 p j)).trans ?_
  rw [← Equiv.sum_comp (contrEquiv1 dot_S1024x768_S1536x768_S1024x1536_1_1_0_0_n_n 768 rfl rfl).symm]
  refine Finset.sum_congr rfl fun k _ => ?_
  have hk := contrEquiv1_symm_val dot_S1024x768_S1536x768_S1024x1536_1_1_0_0_n_n 768 rfl rfl k
  have el : dot_S1024x768_S1536x768_S1024x1536_1_1_0_0_n_n.lhsIdx (ix2 p j) ((contrEquiv1 dot_S1024x768_S1536x768_S1024x1536_1_1_0_0_n_n 768 rfl rfl).symm k) = ix2 p k := funext fun ax => Fin.ext (by
    match ax with
    | ⟨0, _⟩ => exact d1_lhs0 _ _
    | ⟨1, _⟩ => exact (d1_lhs1 _ _).trans hk)
  have er : dot_S1024x768_S1536x768_S1024x1536_1_1_0_0_n_n.rhsIdx (ix2 p j) ((contrEquiv1 dot_S1024x768_S1536x768_S1024x1536_1_1_0_0_n_n 768 rfl rfl).symm k) = ix2 j k := funext fun ax => Fin.ext (by
    match ax with
    | ⟨0, _⟩ => exact d1_rhs0 _ _
    | ⟨1, _⟩ => exact (d1_rhs1 _ _).trans hk)
  rw [el, er]

/-- The second product at (p, q): row p of the left operand against row q of the right one. -/
theorem mm2_apply (a : FVec Ideal S1024x1536 .bf16) (b : FVec Ideal S768x1536 .bf16) (p : Fin 1024) (q : Fin 768) :
    matmul dot_S1024x1536_S768x1536_S1024x768_1_1_0_0_n_n none a b (constant S1024x768 .f32 0x00000000#32) (ix2 p q)
      = ∑ k : Fin 1536, a (ix2 p k) * b (ix2 q k) := by
  refine (Ideal.matmul_constant_zero_apply dot_S1024x1536_S768x1536_S1024x768_1_1_0_0_n_n none a b (ix2 p q)).trans ?_
  rw [← Equiv.sum_comp (contrEquiv1 dot_S1024x1536_S768x1536_S1024x768_1_1_0_0_n_n 1536 rfl rfl).symm]
  refine Finset.sum_congr rfl fun k _ => ?_
  have hk := contrEquiv1_symm_val dot_S1024x1536_S768x1536_S1024x768_1_1_0_0_n_n 1536 rfl rfl k
  have el : dot_S1024x1536_S768x1536_S1024x768_1_1_0_0_n_n.lhsIdx (ix2 p q) ((contrEquiv1 dot_S1024x1536_S768x1536_S1024x768_1_1_0_0_n_n 1536 rfl rfl).symm k) = ix2 p k := funext fun ax => Fin.ext (by
    match ax with
    | ⟨0, _⟩ => exact d2_lhs0 _ _
    | ⟨1, _⟩ => exact (d2_lhs1 _ _).trans hk)
  have er : dot_S1024x1536_S768x1536_S1024x768_1_1_0_0_n_n.rhsIdx (ix2 p q) ((contrEquiv1 dot_S1024x1536_S768x1536_S1024x768_1_1_0_0_n_n 1536 rfl rfl).symm k) = ix2 q k := funext fun ax => Fin.ext (by
    match ax with
    | ⟨0, _⟩ => exact d2_rhs0 _ _
    | ⟨1, _⟩ => exact (d2_rhs1 _ _).trans hk)
  rw [el, er]

/-- A [1, 1536, 768] block viewed [1536, 768] reads (j, k) at (0, j, k). -/
theorem w1_cast_apply (w1 : FVec Ideal S1x1536x768 .f32) (j : Fin 1536) (k : Fin 768) :
    shapeCast S1536x768 w1 shapeCasts_S1x1536x768_S1536x768 (ix2 j k) = w1 (ix3 (0 : Fin 1) j k) :=
  (shapeCast_dropUnit_apply ![1536, 768] w1 shapeCasts_S1x1536x768_S1536x768 (ix2 j k)).trans
    (congrArg w1 (funext fun a => by match a with | ⟨0, _⟩ => rfl | ⟨1, _⟩ => rfl | ⟨2, _⟩ => rfl))

/-- A [1, 768, 1536] block viewed [768, 1536] reads (q, j) at (0, q, j). -/
theorem w2_cast_apply (w2 : FVec Ideal S1x768x1536 .f32) (q : Fin 768) (j : Fin 1536) :
    shapeCast S768x1536 w2 shapeCasts_S1x768x1536_S768x1536 (ix2 q j) = w2 (ix3 (0 : Fin 1) q j) :=
  (shapeCast_dropUnit_apply ![768, 1536] w2 shapeCasts_S1x768x1536_S768x1536 (ix2 q j)).trans
    (congrArg w2 (funext fun a => by match a with | ⟨0, _⟩ => rfl | ⟨1, _⟩ => rfl | ⟨2, _⟩ => rfl))

/-- The row sum of a [1024, 8] array at row p is the sum of its eight lanes. -/
theorem rowsum_apply (v : FVec Ideal S1024x8 .f32) (p : Fin 1024) :
    multiReduction .add [1] S1024 v 0x00000000#32 reduces_S1024x8_S1024 (.inl rfl) rfl (ix1 p) = ∑ l : Fin 8, v (ix2 p l) := by
  refine (Ideal.multiReduction_add_single v 0x00000000#32 reduces_S1024x8_S1024 (.inl rfl) rfl (ix1 p)).trans ?_
  refine Finset.sum_congr rfl fun l _ => congrArg v (funext fun a => Fin.ext ?_)
  match a with
  | ⟨0, _⟩ => rfl
  | ⟨1, _⟩ => rfl

/-- The chunk's term at row p and column q. -/
theorem chunk_apply (e : BitVec 32) (xc : Vec Ideal S1024x768 .bf16) (w1 : Vec Ideal S1x1536x768 .f32) (w2 : Vec Ideal S1x768x1536 .f32)
    (cs : Vec Ideal S1024x8 .f32) (old : Vec Ideal S1024x768 .f32) (p : Fin 1024) (q : Fin 768) :
    chunk (F := Ideal) e xc w1 w2 cs old (ix2 p q)
      = old (ix2 p q) + (∑ j : Fin 1536, max (∑ k : Fin 768, xc (ix2 p k) * w1 (ix3 (0 : Fin 1) j k)) 0 * w2 (ix3 (0 : Fin 1) q j))
          * (∑ l : Fin 8, Scalar.select (IntOp.cmpi .eq (BitVec.ofNat 32 l.val) e) (cs (ix2 p l)) 0) := by
  unfold chunk k0_pay10 k0_pay6 k0_pay5 k0_pay4
  dsimp only
  rw [addf_apply, mulf_apply, shapeCast_self, Cert.Columns.broadcastTo_a1_ab_apply, Cert.Columns.shapeCast_a_a1_apply, rowsum_apply, mm2_apply]
  refine congrArg₂ (· + ·) rfl (congrArg₂ (· * ·) (Finset.sum_congr rfl fun j _ => ?_) (Finset.sum_congr rfl fun l _ => ?_))
  · rw [maximumf_apply, truncf_apply, truncf_apply, mm1_apply, w2_cast_apply, broadcast_apply]
    refine congrArg₂ (· * ·) (congrArg₂ max (Finset.sum_congr rfl fun k _ => ?_) ofBits_zero_bf16) rfl
    rw [shapeCast_self, truncf_apply, w1_cast_apply]
  · show Scalar.select (IntOp.cmpi .eq (iota .tc S1024x8 32 [1] iota_S1024x8_d1_w32 (ix2 p l)) e)
        (shapeCast S1024x8 cs shapeCasts_S1024x8_S1024x8 (ix2 p l)) (Ideal.ofBits .f32 0x00000000#32) = _
    rw [iota_single_apply, shapeCast_self, Ideal.ofBits_zero_f32]

end Cert.KernelIdeal.Chunk

end
-- ==== Proof.Body.lean ====
import proofs.«158283_g1726576853152_cont_sun_c4_190_44_alg».proof.Proof.Gen.KernelIdeal.Frame
import proofs.«158283_g1726576853152_cont_sun_c4_190_44_alg».proof.Proof.Chunk
import Idealize.ShloMosaic.Lib.Pipeline.Value
import Idealize.ShloMosaic.Lib.Tactic

/-! What one grid point leaves in the output block, at the ideal values.

    At grid point (e, f) the body runs over the whole [4096, 768] output block in four chunks of 1024 rows; over what the
    block held (xo) it leaves, at row r and column d,
      xo r d + (∑ j, max (∑ k, x0 r k * x1 j k) 0 * x2 d j) * (∑ l, [l is lane e] x3 r l)
    (step), where x0 is the activations, x1 and x2 the point's blocks of the two weight arrays and x3 the coefficient array.
    At the first grid point the block is first filled with zeros, so there xo is the zero block. Each of the four stores
    writes the rows of step that its rectangle names, and the four rectangles cover the block. -/

noncomputable section

open Idealize.ShloMosaic Idealize.ShloMosaic.TcCoe Idealize.SL.Sem Idealize.ShloMosaic.ValueIdx

namespace Cert.KernelIdeal.Body

open Cert.KernelIdeal Cert.KernelIdeal.Gen Cert.KernelIdeal.Chunk

/-- What a grid point of expert number e leaves at row r and column d, over the old contents xo. -/
def stepAt (e : BitVec 32) (x0 : Vec Ideal S4096x768 .bf16) (x1 : Vec Ideal S1x1536x768 .f32) (x2 : Vec Ideal S1x768x1536 .f32)
    (x3 : Vec Ideal S4096x8 .f32) (xo : Vec Ideal S4096x768 .f32) (r : Fin 4096) (d : Fin 768) : EReal :=
  xo (ix2 r d) + (∑ j : Fin 1536, max (∑ k : Fin 768, x0 (ix2 r k) * x1 (ix3 (0 : Fin 1) j k)) 0 * x2 (ix3 (0 : Fin 1) d j))
    * (∑ l : Fin 8, Scalar.select (IntOp.cmpi .eq (BitVec.ofNat 32 l.val) e) (x3 (ix2 r l)) 0)

/-- The same as a block. -/
def step (e : BitVec 32) (x0 : Vec Ideal S4096x768 .bf16) (x1 : Vec Ideal S1x1536x768 .f32) (x2 : Vec Ideal S1x768x1536 .f32)
    (x3 : Vec Ideal S4096x8 .f32) (xo : Vec Ideal S4096x768 .f32) : Vec Ideal S4096x768 .f32 :=
  fun y => stepAt e x0 x1 x2 x3 xo (y 0) (y 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block the first grid point fills the output with. -/
abbrev zeroBlock : Vec Ideal S4096x768 .f32 := k0_pay3 (F := Ideal)

/-- Rows o … o + 1023 of the block: the rectangle's element (p, q) is element (o + p, q) of the block. -/
theorem rows_idx (o : ℕ) (inb : ∀ a, (![o, 0] : Fin 2 → ℕ) a + (![1024, 768] : Fin 2 → ℕ) a ≤ S4096x768.size a)
    (p : Fin 1024) (q : Fin 768) (r : Fin 4096) (hr : r.val = o + p.val) :
    (Rect.unit (s := S4096x768) ![o, 0] ![1024, 768] inb).idx (ix2 p q) = ix2 r q := funext fun a => Fin.ext (by
  match a with
  | ⟨0, _⟩ => show o + 1 * p.val = r.val; omega
  | ⟨1, _⟩ => show 0 + 1 * q.val = q.val; omega)

/-- The same rows of the coefficient array. -/
theorem rows_idx8 (o : ℕ) (inb : ∀ a, (![o, 0] : Fin 2 → ℕ) a + (![1024, 8] : Fin 2 → ℕ) a ≤ S4096x8.size a)
    (p : Fin 1024) (l : Fin 8) (r : Fin 4096) (hr : r.val = o + p.val) :
    (Rect.unit (s := S4096x8) ![o, 0] ![1024, 8] inb).idx (ix2 p l) = ix2 r l := funext fun a => Fin.ext (by
  match a with
  | ⟨0, _⟩ => show o + 1 * p.val = r.val; omega
  | ⟨1, _⟩ => show 0 + 1 * l.val = l.val; omega)

/-- A chunk's term over the chunk's rows of the arrays is the chunk's rows of step. -/
theorem chunk_block (e : BitVec 32) (x0 : Vec Ideal S4096x768 .bf16) (x1 : Vec Ideal S1x1536x768 .f32) (x2 : Vec Ideal S1x768x1536 .f32)
    (x3 : Vec Ideal S4096x8 .f32) (xo : Vec Ideal S4096x768 .f32) (o : ℕ) (ho : o + 1024 ≤ 4096)
    (inb0 inb : ∀ a, (![o, 0] : Fin 2 → ℕ) a + (![1024, 768] : Fin 2 → ℕ) a ≤ S4096x768.size a)
    (inb3 : ∀ a, (![o, 0] : Fin 2 → ℕ) a + (![1024, 8] : Fin 2 → ℕ) a ≤ S4096x8.size a)
    (inb1 : ∀ a, (![0, 0, 0] : Fin 3 → ℕ) a + S1x1536x768.size a ≤ S1x1536x768.size a)
    (inb2 : ∀ a, (![0, 0, 0] : Fin 3 → ℕ) a + S1x768x1536.size a ≤ S1x768x1536.size a)
    (x : S1024x768.Idx) :
    chunk (F := Ideal) e (View.ld x0 (Rect.unit (s := S4096x768) ![o, 0] ![1024, 768] inb0))
        (View.ld x1 (Rect.unit (s := S1x1536x768) ![0, 0, 0] S1x1536x768.size inb1))
        (View.ld x2 (Rect.unit (s := S1x768x1536) ![0, 0, 0] S1x768x1536.size inb2))
        (View.ld x3 (Rect.unit (s := S4096x8) ![o, 0] ![1024, 8] inb3))
        (View.ld xo (Rect.unit (s := S4096x768) ![o, 0] ![1024, 768] inb)) x
      = step e x0 x1 x2 x3 xo ((Rect.unit (s := S4096x768) ![o, 0] ![1024, 768] inb).emb x) := by
  obtain ⟨p, q, rfl⟩ : ∃ (p : Fin 1024) (q : Fin 768), x = ix2 p q := ⟨x 0, x 1, eq_ix2 x⟩
  have hp := p.isLt
  let r : Fin 4096 := ⟨o + p.val, by omega⟩
  have hxo : (Rect.unit (s := S4096x768) ![o, 0] ![1024, 768] inb).idx (ix2 p q) = ix2 r q := rows_idx o inb p q r rfl
  have hx0 : ∀ k : Fin 768, (Rect.unit (s := S4096x768) ![o, 0] ![1024, 768] inb0).idx (ix2 p k) = ix2 r k :=
    fun k => rows_idx o inb0 p k r rfl
  have hx3 : ∀ l : Fin 8, (Rect.unit (s := S4096x8) ![o, 0] ![1024, 8] inb3).idx (ix2 p l) = ix2 r l :=
    fun l => rows_idx8 o inb3 p l r rfl
  rw [chunk_apply, View.ld_unit_zero (S := S1x1536x768) hz3, View.ld_unit_zero (S := S1x768x1536) hz3]
  show xo ((Rect.unit (s := S4096x768) ![o, 0] ![1024, 768] inb).idx (ix2 p q))
      + (∑ j : Fin 1536, max (∑ k : Fin 768, x0 ((Rect.unit (s := S4096x768) ![o, 0] ![1024, 768] inb0).idx (ix2 p k)) * x1 (ix3 (0 : Fin 1) j k)) 0
          * x2 (ix3 (0 : Fin 1) q j))
        * (∑ l : Fin 8, Scalar.select (IntOp.cmpi .eq (BitVec.ofNat 32 l.val) e) (x3 ((Rect.unit (s := S4096x8) ![o, 0] ![1024, 8] inb3).idx (ix2 p l))) 0)
    = stepAt e x0 x1 x2 x3 xo (((Rect.unit (s := S4096x768) ![o, 0] ![1024, 768] inb).idx (ix2 p q)) 0)
        (((Rect.unit (s := S4096x768) ![o, 0] ![1024, 768] inb).idx (ix2 p q)) 1)
  rw [hxo]
  simp only [hx0, hx3]
  rfl

/-- Rows o … o + 1023 of the block are in the rectangle that names them. -/
theorem mem_rows (o : ℕ) (inb : ∀ a, (![o, 0] : Fin 2 → ℕ) a + (![1024, 768] : Fin 2 → ℕ) a ≤ S4096x768.size a)
    (y : S4096x768.Idx) (h1 : o ≤ (y 0).val) (h2 : (y 0).val < o + 1024) :
    y ∈ (Rect.unit (s := S4096x768) ![o, 0] ![1024, 768] inb).set := by
  rw [Rect.mem_set_unit]
  intro a
  match a with
  | ⟨0, _⟩ => exact ⟨h1, h2⟩
  | ⟨1, _⟩ => exact ⟨Nat.zero_le _, by show (y 1).val < 0 + 768; have := idx2_lt1 y; omega⟩

/-- Elements of rows o' … o' + 1023 are outside the rectangle of rows o … o + 1023 when the two row ranges are apart. -/
theorem rows_not_mem (o o' : ℕ) (inb : ∀ a, (![o, 0] : Fin 2 → ℕ) a + (![1024, 768] : Fin 2 → ℕ) a ≤ S4096x768.size a)
    (inb' : ∀ a, (![o', 0] : Fin 2 → ℕ) a + (![1024, 768] : Fin 2 → ℕ) a ≤ S4096x768.size a)
    (h : o + 1024 ≤ o' ∨ o' + 1024 ≤ o) (j : S1024x768.Idx) :
    (Rect.unit (s := S4096x768) ![o', 0] ![1024, 768] inb').toLoadRect.idx j ∉ (Rect.unit (s := S4096x768) ![o, 0] ![1024, 768] inb).set := by
  rw [Rect.mem_set_unit]
  intro hm
  have h0 := hm 0
  have e0 : ((Rect.unit (s := S4096x768) ![o', 0] ![1024, 768] inb').toLoadRect.idx j 0).val = o' + 1 * (j 0).val := rfl
  have hj := idx2_lt0 j
  rw [e0] at h0
  have h00 : (![o, 0] : Fin 2 → ℕ) 0 = o := rfl
  have h01 : (![1024, 768] : Fin 2 → ℕ) 0 = 1024 := rfl
  rw [h00, h01] at h0
  omega

/-- The canon of a list of stores whose last made store writes a block of G is G wherever the rest of the list gives G
    outside that store's rectangle. -/
theorem canon_cons_block {Val : EltTy → Type} [∀ e, Nonempty (Val e)] {S : Shape} {e : EltTy} (G : S.Idx → Val e)
    (r : Rect S) (w : r.shape.Idx → Val e) (L : List (View.Piece Val S e)) (y : S.Idx)
    (hp : ∀ x, w x = G (r.emb x)) (hrest : y ∉ r.set → View.canon L y = G y) : View.canon (⟨r, w⟩ :: L) y = G y := by
  by_cases hm : y ∈ r.set
  · obtain ⟨x, rfl⟩ := r.exists_idx_of_mem hm
    rw [show r.idx x = r.emb x from rfl, View.canon_cons_emb]
    exact hp x
  · rw [View.canon_cons_of_not_mem _ _ hm]
    exact hrest hm

/-- A load that misses the last made store reads what the earlier stores left. -/
theorem readCov_cons_skip {Val : EltTy → Type} [∀ e, Nonempty (Val e)] {sig : RefSig} {κ : Kind} {sp : Space} {S : Shape} {e : EltTy}
    (v : View sig κ sp S e) (r : Rect S) (w : r.shape.Idx → Val e) (L : List (View.Piece Val S e)) (B : LoadRect S)
    (h : ∀ j, B.idx j ∉ r.set) : v.readCov (⟨r, w⟩ :: L) B = v.readCov L B := by
  rw [View.readCov_eq_canon', View.readCov_eq_canon']
  funext j
  exact View.canon_cons_of_not_mem _ L (h j)

/-- A load after only the whole-block store of z reads z through the load's rectangle. -/
theorem readCov_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (z : S.Idx → Val e) (r : Rect S) :
    v.readCov [(⟨Rect.unit off S.size inb, z⟩ : View.Piece Val S e)] r.toLoadRect = View.ld z r := by
  rw [View.readCov_eq_canon_ld _ _ _ (fun y => ⟨_, List.mem_singleton_self _, View.mem_set_unit_zero h inb y⟩), View.canon_unit_zero h]

/-- Every element of the block is in one of the four row rectangles. -/
theorem rows_cover (y : S4096x768.Idx)
    (i0 : ∀ a, (![0, 0] : Fin 2 → ℕ) a + (![1024, 768] : Fin 2 → ℕ) a ≤ S4096x768.size a)
    (i1 : ∀ a, (![1024, 0] : Fin 2 → ℕ) a + (![1024, 768] : Fin 2 → ℕ) a ≤ S4096x768.size a)
    (i2 : ∀ a, (![2048, 0] : Fin 2 → ℕ) a + (![1024, 768] : Fin 2 → ℕ) a ≤ S4096x768.size a)
    (i3 : ∀ a, (![3072, 0] : Fin 2 → ℕ) a + (![1024, 768] : Fin 2 → ℕ) a ≤ S4096x768.size a)
    (h3 : y ∉ (Rect.unit (s := S4096x768) ![3072, 0] ![1024, 768] i3).set)
    (h2 : y ∉ (Rect.unit (s := S4096x768) ![2048, 0] ![1024, 768] i2).set)
    (h1 : y ∉ (Rect.unit (s := S4096x768) ![1024, 0] ![1024, 768] i1).set)
    (h0 : y ∉ (Rect.unit (s := S4096x768) ![0, 0] ![1024, 768] i0).set) : False := by
  have hy := idx2_lt0 y
  rcases (show (y 0).val < 1024 ∨ (1024 ≤ (y 0).val ∧ (y 0).val < 2048) ∨ (2048 ≤ (y 0).val ∧ (y 0).val < 3072) ∨ 3072 ≤ (y 0).val by omega)
    with h | h | h | h
  · exact h0 (mem_rows 0 i0 y (by omega) (by omega))
  · exact h1 (mem_rows 1024 i1 y (by omega) (by omega))
  · exact h2 (mem_rows 2048 i2 y (by omega) (by omega))
  · exact h3 (mem_rows 3072 i3 y (by omega) (by omega))

/-- Away from the first grid point the body leaves step over the block's old contents. -/
theorem out_B (c : Dev nD) (i : grid0.Coords) (arg2 : Memref sig .tc .vmem S4096x768 .bf16) (harg2 : arg2.IsWhole) (arg3 : Memref sig .tc .vmem S1x1536x768 .f32) (harg3 : arg3.IsWhole) (arg4 : Memref sig .tc .vmem S1x768x1536 .f32) (harg4 : arg4.IsWhole) (arg5 : Memref sig .tc .vmem S4096x8 .f32) (harg5 : arg5.IsWhole) (arg6 : Memref sig .tc .vmem S4096x768 .f32) (harg6 : arg6.IsWhole) (hc0 : ¬cond0_0 i)
    (x0 : Vec Ideal S4096x768 .bf16) (x1 : Vec Ideal S1x1536x768 .f32) (x2 : Vec Ideal S1x768x1536 .f32) (x3 : Vec Ideal S4096x8 .f32) (xo4 : Vec Ideal S4096x768 .f32) :
    out0_B_4 c i arg2 harg2 arg3 harg3 arg4 harg4 arg5 harg5 arg6 harg6 hc0 x0 x1 x2 x3 xo4 = step (BitVec.ofNat 32 (i 0).val) x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  funext y
  simp only [View.readAt_eq_ld, harg2.read_unread, harg3.read_unread, harg4.read_unread, harg5.read_unread, harg6.read_unread,
    pay_rows0, pay_rows1, pay_rows2, pay_rows3]
  refine canon_cons_block (step (BitVec.ofNat 32 (i 0).val) x0 x1 x2 x3 xo4) _ _ _ y
    (fun x => chunk_block _ x0 x1 x2 x3 xo4 3072 (by omega) _ _ _ _ _ x) fun h3 => ?_
  refine canon_cons_block (step (BitVec.ofNat 32 (i 0).val) x0 x1 x2 x3 xo4) _ _ _ y
    (fun x => chunk_block _ x0 x1 x2 x3 xo4 2048 (by omega) _ _ _ _ _ x) fun h2 => ?_
  refine canon_cons_block (step (BitVec.ofNat 32 (i 0).val) x0 x1 x2 x3 xo4) _ _ _ y
    (fun x => chunk_block _ x0 x1 x2 x3 xo4 1024 (by omega) _ _ _ _ _ x) fun h1 => ?_
  refine canon_cons_block (step (BitVec.ofNat 32 (i 0).val) x0 x1 x2 x3 xo4) _ _ _ y
    (fun x => chunk_block _ x0 x1 x2 x3 xo4 0 (by omega) _ _ _ _ _ x) fun h0 => ?_
  exact (rows_cover y _ _ _ _ h3 h2 h1 h0).elim

/-- At the first grid point the body fills the block with zeros and leaves step over the zero block. -/
theorem out_A (c : Dev nD) (i : grid0.Coords) (arg2 : Memref sig .tc .vmem S4096x768 .bf16) (harg2 : arg2.IsWhole) (arg3 : Memref sig .tc .vmem S1x1536x768 .f32) (harg3 : arg3.IsWhole) (arg4 : Memref sig .tc .vmem S1x768x1536 .f32) (harg4 : arg4.IsWhole) (arg5 : Memref sig .tc .vmem S4096x8 .f32) (harg5 : arg5.IsWhole) (arg6 : Memref sig .tc .vmem S4096x768 .f32) (harg6 : arg6.IsWhole) (hc0 : cond0_0 i)
    (x0 : Vec Ideal S4096x768 .bf16) (x1 : Vec Ideal S1x1536x768 .f32) (x2 : Vec Ideal S1x768x1536 .f32) (x3 : Vec Ideal S4096x8 .f32) :
    out0_A_4 c i arg2 harg2 arg3 harg3 arg4 harg4 arg5 harg5 arg6 harg6 hc0 x0 x1 x2 x3 = step (BitVec.ofNat 32 (i 0).val) x0 x1 x2 x3 zeroBlock := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  funext y
  have s32 := fun w L => readCov_cons_skip (Val := Elt Ideal) arg6.view (Rect.unit (s := S4096x768) ![2048, 0] ![1024, 768] Facts₀.inb_S4096x768_S1024x768_2048_0) w L
    (Rect.unit (s := S4096x768) ![3072, 0] ![1024, 768] Facts₀.inb_S4096x768_S1024x768_3072_0).toLoadRect (rows_not_mem 2048 3072 _ _ (by omega))
  have s31 := fun w L => readCov_cons_skip (Val := Elt Ideal) arg6.view (Rect.unit (s := S4096x768) ![1024, 0] ![1024, 768] Facts₀.inb_S4096x768_S1024x768_1024_0) w L
    (Rect.unit (s := S4096x768) ![3072, 0] ![1024, 768] Facts₀.inb_S4096x768_S1024x768_3072_0).toLoadRect (rows_not_mem 1024 3072 _ _ (by omega))
  have s30 := fun w L => readCov_cons_skip (Val := Elt Ideal) arg6.view (Rect.unit (s := S4096x768) ![0, 0] ![1024, 768] Facts₀.inb_S4096x768_S1024x768_0_0) w L
    (Rect.unit (s := S4096x768) ![3072, 0] ![1024, 768] Facts₀.inb_S4096x768_S1024x768_3072_0).toLoadRect (rows_not_mem 0 3072 _ _ (by omega))
  have s21 := fun w L => readCov_cons_skip (Val := Elt Ideal) arg6.view (Rect.unit (s := S4096x768) ![1024, 0] ![1024, 768] Facts₀.inb_S4096x768_S1024x768_1024_0) w L
    (Rect.unit (s := S4096x768) ![2048, 0] ![1024, 768] Facts₀.inb_S4096x768_S1024x768_2048_0).toLoadRect (rows_not_mem 1024 2048 _ _ (by omega))
  have s20 := fun w L => readCov_cons_skip (Val := Elt Ideal) arg6.view (Rect.unit (s := S4096x768) ![0, 0] ![1024, 768] Facts₀.inb_S4096x768_S1024x768_0_0) w L
    (Rect.unit (s := S4096x768) ![2048, 0] ![1024, 768] Facts₀.inb_S4096x768_S1024x768_2048_0).toLoadRect (rows_not_mem 0 2048 _ _ (by omega))
  have s10 := fun w L => readCov_cons_skip (Val := Elt Ideal) arg6.view (Rect.unit (s := S4096x768) ![0, 0] ![1024, 768] Facts₀.inb_S4096x768_S1024x768_0_0) w L
    (Rect.unit (s := S4096x768) ![1024, 0] ![1024, 768] Facts₀.inb_S4096x768_S1024x768_1024_0).toLoadRect (rows_not_mem 0 1024 _ _ (by omega))
  have sz := readCov_whole (Val := Elt Ideal) arg6.view hz2 Facts₀.inb_S4096x768_S4096x768_0_0 (k0_pay3 (F := Ideal))
  simp only [View.readAt_eq_ld, harg2.read_unread, harg3.read_unread, harg4.read_unread, harg5.read_unread, harg6.read_unread,
    pay_rows0, pay_rows1, pay_rows2, pay_rows3, s32, s31, s30, s21, s20, s10, sz]
  refine canon_cons_block (step (BitVec.ofNat 32 (i 0).val) x0 x1 x2 x3 zeroBlock) _ _ _ y
    (fun x => chunk_block _ x0 x1 x2 x3 zeroBlock 3072 (by omega) _ _ _ _ _ x) fun h3 => ?_
  refine canon_cons_block (step (BitVec.ofNat 32 (i 0).val) x0 x1 x2 x3 zeroBlock) _ _ _ y
    (fun x => chunk_block _ x0 x1 x2 x3 zeroBlock 2048 (by omega) _ _ _ _ _ x) fun h2 => ?_
  refine canon_cons_block (step (BitVec.ofNat 32 (i 0).val) x0 x1 x2 x3 zeroBlock) _ _ _ y
    (fun x => chunk_block _ x0 x1 x2 x3 zeroBlock 1024 (by omega) _ _ _ _ _ x) fun h1 => ?_
  refine canon_cons_block (step (BitVec.ofNat 32 (i 0).val) x0 x1 x2 x3 zeroBlock) _ _ _ y
    (fun x => chunk_block _ x0 x1 x2 x3 zeroBlock 0 (by omega) _ _ _ _ _ x) fun h0 => ?_
  exact (rows_cover y _ _ _ _ h3 h2 h1 h0).elim

end Cert.KernelIdeal.Body

end
-- ==== Proof.Accum.lean ====
import proofs.«158283_g1726576853152_cont_sun_c4_190_44_alg».proof.Proof.Gen.KernelIdeal.Value
import proofs.«158283_g1726576853152_cont_sun_c4_190_44_alg».proof.Proof.Body
import Idealize.ShloMosaic.Lib.Pipeline.Value

/-! The output block over the sixteen grid points, and the result array.

    The output window's block is the whole [4096, 768] array; its index never moves, it is filled at the first grid point
    and written back once, after the last. What it holds after point n is step of point n over what it held after point
    n - 1, from the zero block at point 0 (acc); the result array ends holding acc at point 15. -/

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Body

variable (m : (ℓ : Loc nD τ sig) → Buf (Elt Ideal) ℓ) (ρ : Dev nD → PrngReg)

/-- The output block after grid point n: the points' steps in order, from the zero block. -/
def acc (c : Dev nD) : (n : ℕ) → n < cfg0.N → Vec Ideal S4096x768 .f32
  | 0, h => step (BitVec.ofNat 32 (grid0.coords ⟨0, h⟩ 0).val) (iblk m c 0 ⟨0, h⟩) (iblk m c 1 ⟨0, h⟩) (iblk m c 2 ⟨0, h⟩) (iblk m c 3 ⟨0, h⟩) zeroBlock
  | n + 1, h => step (BitVec.ofNat 32 (grid0.coords ⟨n + 1, h⟩ 0).val) (iblk m c 0 ⟨n + 1, h⟩) (iblk m c 1 ⟨n + 1, h⟩) (iblk m c 2 ⟨n + 1, h⟩) (iblk m c 3 ⟨n + 1, h⟩) (acc c n (Nat.lt_of_succ_lt h))

/-- What the frame's run finds in the output's staging buffer after point n is that chain: by induction on the point. -/
theorem outsAt_eq (c : Dev nD) : ∀ (n : ℕ) (h : n < cfg0.N), outsAt0 m c n h = acc m c n h
  | 0, h => (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
        (iblk m c 0 ⟨0, h⟩) (iblk m c 1 ⟨0, h⟩) (iblk m c 2 ⟨0, h⟩) (iblk m c 3 ⟨0, h⟩))
  | n + 1, h => by
    have hN : cfg0.N = 16 := N_0
    have hB : ¬(⟨n + 1, h⟩ : Fin cfg0.N).val % 16 = 0 := by dsimp only; omega
    refine (outsAt0_B m c ⟨n + 1, h⟩ hB).trans ?_
    refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h' => hB ((hcond0_0 ⟨n + 1, h⟩).mp h'))
      (iblk m c 0 ⟨n + 1, h⟩) (iblk m c 1 ⟨n + 1, h⟩) (iblk m c 2 ⟨n + 1, h⟩) (iblk m c 3 ⟨n + 1, h⟩) _).trans ?_
    exact congrArg (step (BitVec.ofNat 32 (grid0.coords ⟨n + 1, h⟩ 0).val) (iblk m c 0 ⟨n + 1, h⟩) (iblk m c 1 ⟨n + 1, h⟩) (iblk m c 2 ⟨n + 1, h⟩) (iblk m c 3 ⟨n + 1, h⟩)) (outsAt_eq c n _)

/-- The result: the block after the last point, as contents of the result array (the one block is the array). -/
abbrev result (c : Dev nD) : Buf (Elt Ideal) ((c : Thread nD τ).loc main_v13) :=
  acc m c 15 (by rw [show cfg0.N = 16 from N_0]; decide)

/-- The one write-back, after point 15, writes it: block (0, 0) of the array read through zero offsets is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4, outsAt_eq]
  have hz' : (fun a => win0_4.index t0_15 a * main_v13.ty.shape.size a) = fun _ => 0 := funext fun a => by fin_cases a <;> decide
  exact (Memref.read_access_unit_zero (Elt Ideal) main_v13 hz' (fun a => by rw [congrFun hz' a]; simp) (result m c)).symm

/-- So the result array ends holding the block after point 15: that point's block covers the array. -/
theorem final_out (c : Dev nD) : (dats m 0 c).arrAt 4 cfg0.N = result m c :=
  (dats m 0 c).arrAt_eq_of_cover 4 (result m c) (flushed_eq m c) fun i =>
    ⟨t0_15, (flush0_4 t0_15).mpr rfl, by
      show i ∈ ((View.whole main_v13).slice (win0_4.rect t0_15)).set
      rw [View.set_slice_whole, Rect.mem_set_unit]
      intro a
      have h0 : (i 0 : Nat) < 4096 := (i 0).isLt
      have h1 : (i 1 : Nat) < 768 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 4096 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 768 from by decide +kernel]; omega⟩

/-- The kernel's run, read: the result array at the block after point 15, the five arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2⟩)
    (Cert.KernelIdeal.Value.run_blocks m ρ)

end Cert.KernelIdeal.Accum

end
-- ==== Proof.Reals.lean ====
import Mathlib.Data.EReal.Basic
import Mathlib.Data.EReal.Operations
import Mathlib.Algebra.BigOperators.Fin
import Mathlib.Tactic.Ring

/-! Extended reals that are real numbers. They are closed under sums, products, finite sums and max; on them
    multiplication distributes over addition, which it does not on all of the extended reals. -/

namespace Cert.Reals

/-- An extended real that is (the coercion of) a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self _ _)).add (ih fun i hi => h i (Finset.mem_insert_of_mem hi))

/-- One expert's contribution, spelt two ways: the whole hidden layer (the two halves p0 + p1 of its sum) weighted by the
    two routing coefficients one after the other, or each half weighted by the sum of the two coefficients. Equal where all
    four numbers are real (distributivity). -/
theorem expert_step (acc : EReal) {p0 p1 a b : EReal} (h0 : IsReal p0) (h1 : IsReal p1) (ha : IsReal a) (hb : IsReal b) :
    (acc + (p0 + p1) * a) + (p0 + p1) * b = (acc + p0 * (a + b)) + p1 * (a + b) := by
  obtain ⟨p0, rfl⟩ := h0; obtain ⟨p1, rfl⟩ := h1; obtain ⟨a, rfl⟩ := ha; obtain ⟨b, rfl⟩ := hb
  rw [add_assoc, add_assoc]
  congr 1
  simp only [← EReal.coe_add, ← EReal.coe_mul]
  congr 1
  ring

end Cert.Reals
-- ==== Proof.Spec.lean ====
import Idealize.ShloMosaic.PureOps.Ideal
import Idealize.ShloMosaic.PureOps.Ideal.Laws
import Idealize.ShloMosaic.Lib.ValueIdx
import proofs.«158283_g1726576853152_cont_sun_c4_190_44_alg».proof.Proof.Reals

/-! The mixture-of-experts layer as one function of the five argument arrays, index by index, over the extended reals.

    For token r, expert e and hidden unit j the activation is hid e r j = max (∑ k, X r k * Wi e j k) 0; expert e's output at
    (r, d) is expertOut e r d = ∑ j, hid e r j * Wo e d j over all 3072 hidden units, and halfOut e f r d is the same sum
    over the 1536 units of half f. The routing coefficient coef k e r is the dispatch mask entry (r, k, e), as a real
    number, times the routing weight (r, k).

    The reference adds expertOut e * coef 0 e and then expertOut e * coef 1 e, expert after expert (refOut); the kernel adds
    halfOut e 0 * (coef 0 e + coef 1 e) and then halfOut e 1 * (coef 0 e + coef 1 e) (kerOut). They agree where every
    float input is a real number: the two halves add up to the whole sum, and on real numbers multiplication
    distributes over addition. -/

noncomputable section

namespace Cert.Spec

open Idealize.ShloMosaic Idealize.ShloMosaic.ValueIdx Cert.Reals

abbrev SX : Shape := ⟨2, ![4096, 768]⟩
abbrev SSel : Shape := ⟨3, ![4096, 2, 8]⟩
abbrev SRw : Shape := ⟨2, ![4096, 2]⟩
abbrev SWi : Shape := ⟨3, ![8, 3072, 768]⟩
abbrev SWo : Shape := ⟨3, ![8, 768, 3072]⟩

variable (X : SX.Idx → EReal) (Sel : SSel.Idx → BitVec 32) (Rw : SRw.Idx → EReal) (Wi : SWi.Idx → EReal) (Wo : SWo.Idx → EReal)

/-- Hidden unit j of expert e at token r, after the relu. -/
def hid (e : Fin 8) (r : Fin 4096) (j : Fin 3072) : EReal := max (∑ k : Fin 768, X (ix2 r k) * Wi (ix3 e j k)) 0

/-- Expert e's output at (r, d): all 3072 hidden units through the second weight matrix. -/
def expertOut (e : Fin 8) (r : Fin 4096) (d : Fin 768) : EReal := ∑ j : Fin 3072, hid X Wi e r j * Wo (ix3 e d j)

/-- Hidden unit j of half f, as one of the 3072. -/
def col (f : Fin 2) (j : Fin 1536) : Fin 3072 := ⟨f.val * 1536 + j.val, by have := f.isLt; have := j.isLt; omega⟩

/-- The part of expert e's output at (r, d) that comes from the 1536 hidden units of half f. -/
def halfOut (e : Fin 8) (f : Fin 2) (r : Fin 4096) (d : Fin 768) : EReal :=
  ∑ j : Fin 1536, hid X Wi e r (col f j) * Wo (ix3 e d (col f j))

/-- A sum over the 3072 hidden units is the sum over the first half plus the sum over the second. -/
theorem sum_halves (g : Fin 3072 → EReal) : ∑ j, g j = ∑ j : Fin 1536, g (col 0 j) + ∑ j : Fin 1536, g (col 1 j) := by
  have h := Fin.sum_univ_add (M := EReal) (a := 1536) (b := 1536) (fun j : Fin (1536 + 1536) => g j)
  refine h.trans ?_
  refine congrArg₂ (· + ·) (Finset.sum_congr rfl fun j _ => congrArg g (Fin.ext ?_))
    (Finset.sum_congr rfl fun j _ => congrArg g (Fin.ext ?_))
  · show j.val = 0 * 1536 + j.val; omega
  · show 1536 + j.val = 1 * 1536 + j.val; omega

theorem expertOut_split (e : Fin 8) (r : Fin 4096) (d : Fin 768) :
    expertOut X Wi Wo e r d = halfOut X Wi Wo e 0 r d + halfOut X Wi Wo e 1 r d := by
  unfold expertOut halfOut
  exact sum_halves _

/-- The routing coefficient of slot k for expert e at token r: the mask entry as a real number times the routing weight. -/
def coef (k : Fin 2) (e : Fin 8) (r : Fin 4096) : EReal :=
  FloatOps.sitofp (F := Ideal) .f32 (Sel (ix3 r k e)) * Rw (ix2 r k)

/-- The reference's order: expert after expert, the expert's whole output weighted by slot 0's coefficient, then by slot 1's. -/
def refOut (r : Fin 4096) (d : Fin 768) : EReal :=
  ([0, 1, 2, 3, 4, 5, 6, 7] : List (Fin 8)).foldl
    (fun acc e => (acc + expertOut X Wi Wo e r d * coef Sel Rw 0 e r) + expertOut X Wi Wo e r d * coef Sel Rw 1 e r) 0

/-- The kernel's order: expert after expert, each half of the expert's output weighted by the sum of its two coefficients. -/
def kerOut (r : Fin 4096) (d : Fin 768) : EReal :=
  ([0, 1, 2, 3, 4, 5, 6, 7] : List (Fin 8)).foldl
    (fun acc e => (acc + halfOut X Wi Wo e 0 r d * (coef Sel Rw 0 e r + coef Sel Rw 1 e r))
      + halfOut X Wi Wo e 1 r d * (coef Sel Rw 0 e r + coef Sel Rw 1 e r)) 0

section Finite

variable {X Sel Rw Wi Wo}
variable (hX : ∀ i, IsReal (X i)) (hRw : ∀ i, IsReal (Rw i)) (hWi : ∀ i, IsReal (Wi i)) (hWo : ∀ i, IsReal (Wo i))

include hX hWi in
theorem isReal_hid (e : Fin 8) (r : Fin 4096) (j : Fin 3072) : IsReal (hid X Wi e r j) :=
  (isReal_sum _ _ fun k _ => (hX _).mul (hWi _)).max isReal_zero

include hX hWi hWo in
theorem isReal_halfOut (e : Fin 8) (f : Fin 2) (r : Fin 4096) (d : Fin 768) : IsReal (halfOut X Wi Wo e f r d) :=
  isReal_sum _ _ fun j _ => (isReal_hid hX hWi e r _).mul (hWo _)

/-- A signed integer read as a float is a real number. -/
theorem sitofp_real (b : BitVec 32) : FloatOps.sitofp (F := Ideal) .f32 b = (((b.toInt : ℤ) : ℝ) : EReal) := rfl

include hRw in
theorem isReal_coef (k : Fin 2) (e : Fin 8) (r : Fin 4096) : IsReal (coef Sel Rw k e r) := by
  unfold coef
  rw [sitofp_real]
  exact (isReal_coe _).mul (hRw _)

include hX hRw hWi hWo in
/-- On real inputs the reference's order and the kernel's order give the same number. -/
theorem refOut_eq_kerOut (r : Fin 4096) (d : Fin 768) : refOut X Sel Rw Wi Wo r d = kerOut X Sel Rw Wi Wo r d := by
  unfold refOut kerOut
  apply List.foldl_ext
  intro acc e _
  rw [expertOut_split]
  exact expert_step acc (isReal_halfOut hX hWi hWo e 0 r d) (isReal_halfOut hX hWi hWo e 1 r d)
    (isReal_coef hRw 0 e r) (isReal_coef hRw 1 e r)

end Finite

end Cert.Spec

end
-- ==== Proof.Blocks.lean ====
import proofs.«158283_g1726576853152_cont_sun_c4_190_44_alg».proof.Proof.Gen.KernelIdeal.Frame
import proofs.«158283_g1726576853152_cont_sun_c4_190_44_alg».proof.Proof.Spec
import Idealize.ShloMosaic.Lib.Pipeline.Value
import Idealize.ShloMosaic.Lib.StableHlo.Run
import Idealize.ShloMosaic.Lib.ValueIdx

/-! The four input windows' blocks at a grid point, read at an index of the argument arrays.

    Grid point t is (expert e, half f) with e = t / 2 and f = t % 2. The activations' window is the whole array, rounded to
    bf16 by the host before the call (no change at the ideal values); the first weight array's block is rows
    f * 1536 … f * 1536 + 1535 of expert e's [3072, 768] matrix, the second's the same columns of expert e's [768, 3072]
    matrix; the coefficient window is the whole [4096, 8] array the host computes before the call: at (r, l) the mask
    entry (r, 0, l) times the weight (r, 0) plus the mask entry (r, 1, l) times the weight (r, 1). -/

noncomputable section

open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen Cert.Spec

variable (m : (ℓ : Loc nD τ sig) → Buf (Elt Ideal) ℓ)

/-- Where each window's block sits at grid point t, decided over the sixteen points. -/
theorem pt_facts : ∀ t : Fin cfg0.N, (grid0.coords t 0).val = t.val / 2
    ∧ win0_0.index t 0 = 0 ∧ win0_0.index t 1 = 0
    ∧ win0_1.index t 0 = t.val / 2 ∧ win0_1.index t 1 = t.val % 2 ∧ win0_1.index t 2 = 0
    ∧ win0_2.index t 0 = t.val / 2 ∧ win0_2.index t 1 = 0 ∧ win0_2.index t 2 = t.val % 2
    ∧ win0_3.index t 0 = 0 ∧ win0_3.index t 1 = 0 :=
  (by decide +kernel : ∀ t : Fin grid0.N, (grid0.coords t 0).val = t.val / 2
    ∧ win0_0.index t 0 = 0 ∧ win0_0.index t 1 = 0
    ∧ win0_1.index t 0 = t.val / 2 ∧ win0_1.index t 1 = t.val % 2 ∧ win0_1.index t 2 = 0
    ∧ win0_2.index t 0 = t.val / 2 ∧ win0_2.index t 1 = 0 ∧ win0_2.index t 2 = t.val % 2
    ∧ win0_3.index t 0 = 0 ∧ win0_3.index t 1 = 0)

/-- The host's rounding of the activations to bf16: no change at the ideal values. -/
def xTerm (x : FVec Ideal S4096x768 .f32) : S4096x768.Idx → EReal := truncf .bf16 x bitsLt_bf16_f32

theorem xTerm_apply (x : FVec Ideal S4096x768 .f32) (i : S4096x768.Idx) : xTerm x i = x i := rfl

/-- The activations as the call finds them: the argument, rounded to bf16. -/
theorem V_x (c : Dev nD) : (V m c main_v0 : S4096x768.Idx → EReal) = xTerm (m ((c : Thread nD τ).loc main_arg0)) := by
  dsimp only [Gen.V, Gen.hostOps0]
  after_results
  rfl

/-- The coefficient array the host computes from the mask sel and the routing weights rw. -/
def csTerm (sel : S4096x2x8.Idx → BitVec 32) (rw : S4096x2.Idx → EReal) : S4096x8.Idx → EReal :=
  addf (F := Ideal)
    (mulf (shapeCast S4096x8 (extractStridedSlice S4096x1x8 ![0, 0, 0] (sitofp (F := Ideal) .f32 sel) slices_S4096x2x8_S4096x1x8_0_0_0) shapeCasts_S4096x1x8_S4096x8)
      (broadcastInDim S4096x8 ![0, 1] bcast_S4096x1_S4096x8_0_1 (extractStridedSlice S4096x1 ![0, 0] rw slices_S4096x2_S4096x1_0_0)))
    (mulf (shapeCast S4096x8 (extractStridedSlice S4096x1x8 ![0, 1, 0] (sitofp (F := Ideal) .f32 sel) slices_S4096x2x8_S4096x1x8_0_1_0) shapeCasts_S4096x1x8_S4096x8)
      (broadcastInDim S4096x8 ![0, 1] bcast_S4096x1_S4096x8_0_1 (extractStridedSlice S4096x1 ![0, 1] rw slices_S4096x2_S4096x1_0_1)))

/-- The coefficient array as the call finds it. -/
theorem V_cs (c : Dev nD) : (V m c main_v12 : S4096x8.Idx → EReal)
    = csTerm (m ((c : Thread nD τ).loc main_arg1)) (m ((c : Thread nD τ).loc main_arg2)) := by
  dsimp only [Gen.V, Gen.hostOps0]
  after_results
  rfl

section Layout

variable {α : Type}

/-- A [4096, 1, 8] array viewed [4096, 8] reads (r, l) at (r, 0, l). -/
theorem cast_mask (Y : S4096x1x8.Idx → α) (r : Fin 4096) (l : Fin 8) :
    shapeCast S4096x8 Y shapeCasts_S4096x1x8_S4096x8 (ix2 r l) = Y (ix3 r (0 : Fin 1) l) :=
  shapeCast_apply Y _ (ix2 r l) (ix3 r (0 : Fin 1) l) (by
    rw [Shape.rowMajor_val_three, Shape.rowMajor_val_two]
    show (r.val * 1 + 0) * 8 + l.val = r.val * 8 + l.val
    omega)

/-- Slot k of the mask, sliced out along the middle axis, reads (r, 0, l) at (r, k, l). -/
theorem slice_mask (o : ℕ) (k : Fin 2) (hk : k.val = o) (Z : S4096x2x8.Idx → α) (h : S4096x2x8.Slices ![0, o, 0] S4096x1x8)
    (r : Fin 4096) (l : Fin 8) :
    extractStridedSlice S4096x1x8 ![0, o, 0] Z h (ix3 r (0 : Fin 1) l) = Z (ix3 r k l) :=
  extractStridedSlice_apply _ Z h _ _ (fun a => by
    match a with
    | ⟨0, _⟩ => show r.val = 0 + r.val; omega
    | ⟨1, _⟩ => show k.val = o + 0; omega
    | ⟨2, _⟩ => show l.val = 0 + l.val; omega)

/-- Slot k of the routing weights, sliced out as a column, reads (r, 0) at (r, k). -/
theorem slice_rw (o : ℕ) (k : Fin 2) (hk : k.val = o) (W : S4096x2.Idx → α) (h : S4096x2.Slices ![0, o] S4096x1) (r : Fin 4096) :
    extractStridedSlice S4096x1 ![0, o] W h (ix2 r (0 : Fin 1)) = W (ix2 r k) :=
  extractStridedSlice_apply _ W h _ _ (fun a => by
    match a with
    | ⟨0, _⟩ => show r.val = 0 + r.val; omega
    | ⟨1, _⟩ => show k.val = o + 0; omega)

/-- A [4096, 1] column broadcast along the eight lanes reads (r, l) at (r, 0). -/
theorem bcast_col (W : S4096x1.Idx → α) (r : Fin 4096) (l : Fin 8) :
    broadcastInDim S4096x8 ![0, 1] bcast_S4096x1_S4096x8_0_1 W (ix2 r l) = W (ix2 r (0 : Fin 1)) :=
  broadcastInDim_apply _ bcast_S4096x1_S4096x8_0_1 W (ix2 r l) (ix2 r (0 : Fin 1)) (fun a => by
    match a with
    | ⟨0, _⟩ => show r.val = if (4096 : ℕ) = 1 then 0 else r.val; rw [if_neg (by norm_num)]
    | ⟨1, _⟩ => rfl)

end Layout

/-- The coefficient array at (r, l): slot 0's coefficient for expert l plus slot 1's. -/
theorem csTerm_apply (sel : S4096x2x8.Idx → BitVec 32) (rw : S4096x2.Idx → EReal) (r : Fin 4096) (l : Fin 8) :
    csTerm sel rw (ix2 r l) = coef sel rw 0 l r + coef sel rw 1 l r := by
  unfold csTerm coef
  rw [addf_apply, mulf_apply, mulf_apply, cast_mask, cast_mask, slice_mask 0 0 rfl, slice_mask 1 1 rfl, bcast_col, bcast_col,
    slice_rw 0 0 rfl, slice_rw 1 1 rfl]
  rfl

/-- The activations' block at any point is the whole argument array. -/
theorem iblk0_apply (c : Dev nD) (t : Fin cfg0.N) (r : Fin 4096) (k : Fin 768) :
    iblk m c 0 t (ix2 r k) = m ((c : Thread nD τ).loc main_arg0) (ix2 r k) := by
  obtain ⟨-, h00, h01, -⟩ := pt_facts t
  unfold iblk
  rw [View.read_apply]
  show V m c main_v0 _ = _
  rw [V_x, xTerm_apply]
  refine congrArg _ (funext fun a => Fin.ext ?_)
  match a with
  | ⟨0, _⟩ => show win0_0.index t 0 * 4096 + 1 * r.val = r.val; omega
  | ⟨1, _⟩ => show win0_0.index t 1 * 768 + 1 * k.val = k.val; omega

/-- The first weight array's block at point (e, f) is half f of expert e's rows. -/
theorem iblk1_apply (c : Dev nD) (t : Fin cfg0.N) (e : Fin 8) (f : Fin 2) (he : t.val / 2 = e.val) (hf : t.val % 2 = f.val)
    (j : Fin 1536) (k : Fin 768) :
    iblk m c 1 t (ix3 (0 : Fin 1) j k) = m ((c : Thread nD τ).loc main_arg3) (ix3 e (col f j) k) := by
  obtain ⟨-, -, -, h10, h11, h12, -⟩ := pt_facts t
  unfold iblk
  rw [View.read_apply]
  show V m c main_arg3 _ = _
  rw [V_main_arg3]
  refine congrArg _ (funext fun a => Fin.ext ?_)
  match a with
  | ⟨0, _⟩ => show win0_1.index t 0 * 1 + 1 * 0 = e.val; omega
  | ⟨1, _⟩ => show win0_1.index t 1 * 1536 + 1 * j.val = f.val * 1536 + j.val; rw [h11, hf]; omega
  | ⟨2, _⟩ => show win0_1.index t 2 * 768 + 1 * k.val = k.val; omega

/-- The second weight array's block at point (e, f) is half f of expert e's columns. -/
theorem iblk2_apply (c : Dev nD) (t : Fin cfg0.N) (e : Fin 8) (f : Fin 2) (he : t.val / 2 = e.val) (hf : t.val % 2 = f.val)
    (d : Fin 768) (j : Fin 1536) :
    iblk m c 2 t (ix3 (0 : Fin 1) d j) = m ((c : Thread nD τ).loc main_arg4) (ix3 e d (col f j)) := by
  obtain ⟨-, -, -, -, -, -, h20, h21, h22, -⟩ := pt_facts t
  unfold iblk
  rw [View.read_apply]
  show V m c main_arg4 _ = _
  rw [V_main_arg4]
  refine congrArg _ (funext fun a => Fin.ext ?_)
  match a with
  | ⟨0, _⟩ => show win0_2.index t 0 * 1 + 1 * 0 = e.val; omega
  | ⟨1, _⟩ => show win0_2.index t 1 * 768 + 1 * d.val = d.val; omega
  | ⟨2, _⟩ => show win0_2.index t 2 * 1536 + 1 * j.val = f.val * 1536 + j.val; rw [h22, hf]; omega

/-- The coefficient window's block at any point is the whole coefficient array. -/
theorem iblk3_apply (c : Dev nD) (t : Fin cfg0.N) (r : Fin 4096) (l : Fin 8) :
    iblk m c 3 t (ix2 r l) = coef (m ((c : Thread nD τ).loc main_arg1)) (m ((c : Thread nD τ).loc main_arg2)) 0 l r
      + coef (m ((c : Thread nD τ).loc main_arg1)) (m ((c : Thread nD τ).loc main_arg2)) 1 l r := by
  obtain ⟨-, -, -, -, -, -, -, -, -, h30, h31⟩ := pt_facts t
  unfold iblk
  rw [View.read_apply]
  show V m c main_v12 _ = _
  rw [V_cs, ← csTerm_apply]
  refine congrArg _ (funext fun a => Fin.ext ?_)
  match a with
  | ⟨0, _⟩ => show win0_3.index t 0 * 4096 + 1 * r.val = r.val; omega
  | ⟨1, _⟩ => show win0_3.index t 1 * 8 + 1 * l.val = l.val; omega

end Cert.KernelIdeal.Blocks

end
-- ==== Proof.KerValue.lean ====
import proofs.«158283_g1726576853152_cont_sun_c4_190_44_alg».proof.Proof.Accum
import proofs.«158283_g1726576853152_cont_sun_c4_190_44_alg».proof.Proof.Blocks

/-! The kernel's result array as a function of the five argument arrays.

    Grid point p is expert p / 2, half p % 2. Over the old contents it adds that half of the expert's output times the
    expert's lane of the coefficient array (the other seven lanes are selected away before the lane sum), which is the sum
    of the expert's two routing coefficients. So the block after the last point is the kernel's order of the specification. -/

noncomputable section

open Idealize.ShloMosaic Idealize.ShloMosaic.TcCoe Idealize.SL.Sem Idealize.ShloMosaic.ValueIdx

namespace Cert.KernelIdeal.KerValue

open Cert.KernelIdeal Cert.KernelIdeal.Gen Cert.KernelIdeal.Body Cert.KernelIdeal.Accum Cert.KernelIdeal.Blocks Cert.Spec

variable (m : (ℓ : Loc nD τ sig) → Buf (Elt Ideal) ℓ)

/-- The select on "lane l is expert e's lane" is the if on l = e. -/
theorem select_lane (l e : Fin 8) (A B : EReal) :
    Scalar.select (IntOp.cmpi .eq (BitVec.ofNat 32 l.val) (BitVec.ofNat 32 e.val)) A B = if l = e then A else B := by
  fin_cases l <;> fin_cases e <;> rfl

/-- So the lane sum after the select is expert e's lane. -/
theorem sum_lane (e : Fin 8) (g : Fin 8 → EReal) :
    ∑ l : Fin 8, Scalar.select (IntOp.cmpi .eq (BitVec.ofNat 32 l.val) (BitVec.ofNat 32 e.val)) (g l) 0 = g e := by
  simp only [select_lane]
  rw [Finset.sum_ite_eq', if_pos (Finset.mem_univ e)]

/-- What grid point t = (e, f) adds at row r and column d: half f of expert e's output times the sum of expert e's two coefficients. -/
theorem step_point (c : Dev nD) (t : Fin cfg0.N) (e : Fin 8) (f : Fin 2) (he : t.val / 2 = e.val) (hf : t.val % 2 = f.val)
    (xo : Vec Ideal S4096x768 .f32) (r : Fin 4096) (d : Fin 768) :
    stepAt (BitVec.ofNat 32 (grid0.coords t 0).val) (iblk m c 0 t) (iblk m c 1 t) (iblk m c 2 t) (iblk m c 3 t) xo r d
      = xo (ix2 r d) + halfOut (m ((c : Thread nD τ).loc main_arg0)) (m ((c : Thread nD τ).loc main_arg3)) (m ((c : Thread nD τ).loc main_arg4)) e f r d * (coef (m ((c : Thread nD τ).loc main_arg1)) (m ((c : Thread nD τ).loc main_arg2)) 0 e r + coef (m ((c : Thread nD τ).loc main_arg1)) (m ((c : Thread nD τ).loc main_arg2)) 1 e r) := by
  have hc : (grid0.coords t 0).val = e.val := (pt_facts t).1.trans he
  unfold stepAt halfOut hid
  rw [hc]
  refine congrArg₂ (· + ·) rfl (congrArg₂ (· * ·) (Finset.sum_congr rfl fun j _ => ?_) ?_)
  · refine congrArg₂ (· * ·) (congrArg₂ max (Finset.sum_congr rfl fun k _ => ?_) rfl) (iblk2_apply m c t e f he hf d j)
    exact congrArg₂ (· * ·) (iblk0_apply m c t r k) (iblk1_apply m c t e f he hf j k)
  · rw [← sum_lane e (fun l => coef (m ((c : Thread nD τ).loc main_arg1)) (m ((c : Thread nD τ).loc main_arg2)) 0 l r + coef (m ((c : Thread nD τ).loc main_arg1)) (m ((c : Thread nD τ).loc main_arg2)) 1 l r)]
    exact Finset.sum_congr rfl fun l _ => by rw [iblk3_apply]

/-- Grid point p's expert … -/
def eOf (p : ℕ) : Fin 8 := ⟨(p / 2) % 8, Nat.mod_lt _ (by norm_num)⟩
/-- … and half. -/
def fOf (p : ℕ) : Fin 2 := ⟨p % 2, Nat.mod_lt _ (by norm_num)⟩

variable (X : SX.Idx → EReal) (Sel : SSel.Idx → BitVec 32) (Rw : SRw.Idx → EReal) (Wi : SWi.Idx → EReal) (Wo : SWo.Idx → EReal)

/-- What grid point p adds at (r, d). -/
def term (r : Fin 4096) (d : Fin 768) (p : ℕ) : EReal :=
  halfOut X Wi Wo (eOf p) (fOf p) r d * (coef Sel Rw 0 (eOf p) r + coef Sel Rw 1 (eOf p) r)

/-- The points' terms added in order, from zero. -/
def kchain (r : Fin 4096) (d : Fin 768) : ℕ → EReal
  | 0 => 0 + term X Sel Rw Wi Wo r d 0
  | n + 1 => kchain r d n + term X Sel Rw Wi Wo r d (n + 1)

/-- The block after point n at (r, d) is that chain: by induction on the point. -/
theorem acc_apply (c : Dev nD) (r : Fin 4096) (d : Fin 768) : ∀ (n : ℕ) (h : n < cfg0.N),
    acc m c n h (ix2 r d) = kchain (m ((c : Thread nD τ).loc main_arg0)) (m ((c : Thread nD τ).loc main_arg1)) (m ((c : Thread nD τ).loc main_arg2)) (m ((c : Thread nD τ).loc main_arg3)) (m ((c : Thread nD τ).loc main_arg4)) r d n
  | 0, h => by
    show stepAt _ _ _ _ _ zeroBlock r d = _
    rw [step_point m c ⟨0, h⟩ (eOf 0) (fOf 0) (by show (0 : ℕ) / 2 = 0 / 2 % 8; decide) (by show (0 : ℕ) % 2 = 0 % 2; rfl)]
    show Ideal.ofBits .f32 0x00000000#32 + _ = 0 + _
    rw [Ideal.ofBits_zero_f32]
    rfl
  | n + 1, h => by
    have hN : cfg0.N = 16 := N_0
    show stepAt _ _ _ _ _ (acc m c n _) r d = _
    rw [step_point m c ⟨n + 1, h⟩ (eOf (n + 1)) (fOf (n + 1)) (by show (n + 1) / 2 = ((n + 1) / 2) % 8; omega) (by show (n + 1) % 2 = (n + 1) % 2; rfl),
      acc_apply c r d n]
    rfl

/-- The sixteen points' chain is the kernel's order of the specification: two points per expert. -/
theorem kchain_eq (r : Fin 4096) (d : Fin 768) : kchain X Sel Rw Wi Wo r d 15 = kerOut X Sel Rw Wi Wo r d := by
  simp only [kchain, kerOut, List.foldl, term]
  rfl

/-- The result array at (r, d). -/
theorem result_apply (c : Dev nD) (r : Fin 4096) (d : Fin 768) :
    result m c (ix2 r d) = kerOut (m ((c : Thread nD τ).loc main_arg0)) (m ((c : Thread nD τ).loc main_arg1)) (m ((c : Thread nD τ).loc main_arg2)) (m ((c : Thread nD τ).loc main_arg3)) (m ((c : Thread nD τ).loc main_arg4)) r d := by
  show acc m c 15 _ (ix2 r d) = _
  rw [acc_apply, kchain_eq]

end Cert.KernelIdeal.KerValue

end
-- ==== Proof.RefOps.lean ====
import proofs.«158283_g1726576853152_cont_sun_c4_190_44_alg».proof.Proof.Gen.ReferenceIdeal
import Idealize.ShloMosaic.Lib.StableHlo.Run

/-! The reference program as a list of host operations, cut into its prologue and its eight experts, and its run.

    The reference is a straight line of 251 host operations: three of prologue (the zero array the sum starts from and the
    transposed mask) and thirty-one for each of the eight experts. Every weakly fair execution of it ends with each buffer at
    the fold of the operations' results over the launch contents; the fold over the whole list is the fold over the
    prologue followed by the folds over the experts' lists, one after the other. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The prologue: the zero array and the transposed mask. -/
abbrev opsPre : List (HloOp τ sig (Elt F)) :=
  [ nullary main_cst (constant S_ .f32 0x00000000#32),
    unary main_cst main_v0 (broadcastInDim S4096x768 ![] bcast_S_S4096x768 : (⟨S_, .f32⟩ : BufTy).Contents (Elt F) → (⟨S4096x768, .f32⟩ : BufTy).Contents (Elt F)),
    unary main_arg1 main_v1 ((transpose S8x2x4096 [2, 1, 0] · transposes_S4096x2x8_S8x2x4096_2_1_0) : (⟨S4096x2x8, .i32⟩ : BufTy).Contents (Elt F) → (⟨S8x2x4096, .i32⟩ : BufTy).Contents (Elt F)) ]

/-- Expert 0's thirty-one operations. -/
abbrev opsE0 : List (HloOp τ sig (Elt F)) :=
  [ unary main_arg3 main_v2 ((extractStridedSlice S1x3072x768 ![0, 0, 0] · slices_S8x3072x768_S1x3072x768_0_0_0) : (⟨S8x3072x768, .f32⟩ : BufTy).Contents (Elt F) → (⟨S1x3072x768, .f32⟩ : BufTy).Contents (Elt F)),
    reshape main_v2 main_v3 rfl shapeCasts_S1x3072x768_S3072x768,
    unary main_v3 main_v4 ((transpose S768x3072 [1, 0] · transposes_S3072x768_S768x3072_1_0) : (⟨S3072x768, .f32⟩ : BufTy).Contents (Elt F) → (⟨S768x3072, .f32⟩ : BufTy).Contents (Elt F)),
    binary main_arg0 main_v4 main_v5 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x3072, .f32⟩) main_call0_v0) (broadcastInDim S4096x3072 ![] bcast_S_S4096x3072),
    TRef.binary (TRef.of (T := ⟨S4096x3072, .f32⟩) main_v5) (TRef.of (T := ⟨S4096x3072, .f32⟩) main_call0_v0) (TRef.of (T := ⟨S4096x3072, .f32⟩) main_v6) maximumf,
    unary main_arg4 main_v7 ((extractStridedSlice S1x768x3072 ![0, 0, 0] · slices_S8x768x3072_S1x768x3072_0_0_0) : (⟨S8x768x3072, .f32⟩ : BufTy).Contents (Elt F) → (⟨S1x768x3072, .f32⟩ : BufTy).Contents (Elt F)),
    reshape main_v7 main_v8 rfl shapeCasts_S1x768x3072_S768x3072,
    unary main_v8 main_v9 ((transpose S3072x768 [1, 0] · transposes_S768x3072_S3072x768_1_0) : (⟨S768x3072, .f32⟩ : BufTy).Contents (Elt F) → (⟨S3072x768, .f32⟩ : BufTy).Contents (Elt F)),
    binary main_v6 main_v9 main_v10 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v11 ((extractStridedSlice S1x1x4096 ![0, 0, 0] · slices_S8x2x4096_S1x1x4096_0_0_0) : (⟨S8x2x4096, .i32⟩ : BufTy).Contents (Elt F) → (⟨S1x1x4096, .i32⟩ : BufTy).Contents (Elt F)),
    reshape main_v11 main_v12 rfl shapeCasts_S1x1x4096_S4096,
    unary main_v12 main_v13 (sitofp .f32 : (⟨S4096, .i32⟩ : BufTy).Contents (Elt F) → (⟨S4096, .f32⟩ : BufTy).Contents (Elt F)),
    unary main_arg2 main_v14 ((extractStridedSlice S4096x1 ![0, 0] · slices_S4096x2_S4096x1_0_0) : (⟨S4096x2, .f32⟩ : BufTy).Contents (Elt F) → (⟨S4096x1, .f32⟩ : BufTy).Contents (Elt F)),
    reshape main_v14 main_v15 rfl shapeCasts_S4096x1_S4096,
    binary main_v13 main_v15 main_v16 (mulf : (⟨S4096, .f32⟩ : BufTy).Contents (Elt F) → (⟨S4096, .f32⟩ : BufTy).Contents (Elt F) → (⟨S4096, .f32⟩ : BufTy).Contents (Elt F)),
    unary main_v16 main_v17 (broadcastInDim S4096x1 ![0] bcast_S4096_S4096x1_0 : (⟨S4096, .f32⟩ : BufTy).Contents (Elt F) → (⟨S4096x1, .f32⟩ : BufTy).Contents (Elt F)),
    unary main_v17 main_v18 (broadcastInDim S4096x768 ![0, 1] bcast_S4096x1_S4096x768_0_1 : (⟨S4096x1, .f32⟩ : BufTy).Contents (Elt F) → (⟨S4096x768, .f32⟩ : BufTy).Contents (Elt F)),
    binary main_v10 main_v18 main_v19 (mulf : (⟨S4096x768, .f32⟩ : BufTy).Contents (Elt F) → (⟨S4096x768, .f32⟩ : BufTy).Contents (Elt F) → (⟨S4096x768, .f32⟩ : BufTy).Contents (Elt F)),
    binary main_v0 main_v19 main_v20 (addf : (⟨S4096x768, .f32⟩ : BufTy).Contents (Elt F) → (⟨S4096x768, .f32⟩ : BufTy).Contents (Elt F) → (⟨S4096x768, .f32⟩ : BufTy).Contents (Elt F)),
    unary main_v1 main_v21 ((extractStridedSlice S1x1x4096 ![0, 1, 0] · slices_S8x2x4096_S1x1x4096_0_1_0) : (⟨S8x2x4096, .i32⟩ : BufTy).Contents (Elt F) → (⟨S1x1x4096, .i32⟩ : BufTy).Contents (Elt F)),
    reshape main_v21 main_v22 rfl shapeCasts_S1x1x4096_S4096,
    unary main_v22 main_v23 (sitofp .f32 : (⟨S4096, .i32⟩ : BufTy).Contents (Elt F) → (⟨S4096, .f32⟩ : BufTy).Contents (Elt F)),
    unary main_arg2 main_v24 ((extractStridedSlice S4096x1 ![0, 1] · slices_S4096x2_S4096x1_0_1) : (⟨S4096x2, .f32⟩ : BufTy).Contents (Elt F) → (⟨S4096x1, .f32⟩ : BufTy).Contents (Elt F)),
    reshape main_v24 main_v25 rfl shapeCasts_S4096x1_S4096,
    binary main_v23 main_v25 main_v26 (mulf : (⟨S4096, .f32⟩ : BufTy).Contents (Elt F) → (⟨S4096, .f32⟩ : BufTy).Contents (Elt F) → (⟨S4096, .f32⟩ : BufTy).Contents (Elt F)),
    unary main_v26 main_v27 (broadcastInDim S4096x1 ![0] bcast_S4096_S4096x1_0 : (⟨S4096, .f32⟩ : BufTy).Contents (Elt F) → (⟨S4096x1, .f32⟩ : BufTy).Contents (Elt F)),
    unary main_v27 main_v28 (broadcastInDim S4096x768 ![0, 1] bcast_S4096x1_S4096x768_0_1 : (⟨S4096x1, .f32⟩ : BufTy).Contents (Elt F) → (⟨S4096x768, .f32⟩ : BufTy).Contents (Elt F)),
    binary main_v10 main_v28 main_v29 (mulf : (⟨S4096x768, .f32⟩ : BufTy).Contents (Elt F) → (⟨S4096x768, .f32⟩ : BufTy).Contents (Elt F) → (⟨S4096x768, .f32⟩ : BufTy).Contents (Elt F)),
    binary main_v20 main_v29 main_v30 (addf : (⟨S4096x768, .f32⟩ : BufTy).Contents (Elt F) → (⟨S4096x768, .f32⟩ : BufTy).Contents (Elt F) → (⟨S4096x768, .f32⟩ : BufTy).Contents (Elt F)) ]

/-- Expert 1's thirty-one operations. -/
abbrev opsE1 : List (HloOp τ sig (Elt F)) :=
  [ unary main_arg3 main_v31 ((extractStridedSlice S1x3072x768 ![1, 0, 0] · slices_S8x3072x768_S1x3072x768_1_0_0) : (⟨S8x3072x768, .f32⟩ : BufTy).Contents (Elt F) → (⟨S1x3072x768, .f32⟩ : BufTy).Contents (Elt F)),
    reshape main_v31 main_v32 rfl shapeCasts_S1x3072x768_S3072x768,
    unary main_v32 main_v33 ((transpose S768x3072 [1, 0] · transposes_S3072x768_S768x3072_1_0) : (⟨S3072x768, .f32⟩ : BufTy).Contents (Elt F) → (⟨S768x3072, .f32⟩ : BufTy).Contents (Elt F)),
    binary main_arg0 main_v33 main_v34 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x3072, .f32⟩) main_call1_v0) (broadcastInDim S4096x3072 ![] bcast_S_S4096x3072),
    TRef.binary (TRef.of (T := ⟨S4096x3072, .f32⟩) main_v34) (TRef.of (T := ⟨S4096x3072, .f32⟩) main_call1_v0) (TRef.of (T := ⟨S4096x3072, .f32⟩) main_v35) maximumf,
    unary main_arg4 main_v36 ((extractStridedSlice S1x768x3072 ![1, 0, 0] · slices_S8x768x3072_S1x768x3072_1_0_0) : (⟨S8x768x3072, .f32⟩ : BufTy).Contents (Elt F) → (⟨S1x768x3072, .f32⟩ : BufTy).Contents (Elt F)),
    reshape main_v36 main_v37 rfl shapeCasts_S1x768x3072_S768x3072,
    unary main_v37 main_v38 ((transpose S3072x768 [1, 0] · transposes_S768x3072_S3072x768_1_0) : (⟨S768x3072, .f32⟩ : BufTy).Contents (Elt F) → (⟨S3072x768, .f32⟩ : BufTy).Contents (Elt F)),
    binary main_v35 main_v38 main_v39 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v40 ((extractStridedSlice S1x1x4096 ![1, 0, 0] · slices_S8x2x4096_S1x1x4096_1_0_0) : (⟨S8x2x4096, .i32⟩ : BufTy).Contents (Elt F) → (⟨S1x1x4096, .i32⟩ : BufTy).Contents (Elt F)),
    reshape main_v40 main_v41 rfl shapeCasts_S1x1x4096_S4096,
    unary main_v41 main_v42 (sitofp .f32 : (⟨S4096, .i32⟩ : BufTy).Contents (Elt F) → (⟨S4096, .f32⟩ : BufTy).Contents (Elt F)),
    unary main_arg2 main_v43 ((extractStridedSlice S4096x1 ![0, 0] · slices_S4096x2_S4096x1_0_0) : (⟨S4096x2, .f32⟩ : BufTy).Contents (Elt F) → (⟨S4096x1, .f32⟩ : BufTy).Contents (Elt F)),
    reshape main_v43 main_v44 rfl shapeCasts_S4096x1_S4096,
    binary main_v42 main_v44 main_v45 (mulf : (⟨S4096, .f32⟩ : BufTy).Contents (Elt F) → (⟨S4096, .f32⟩ : BufTy).Contents (Elt F) → (⟨S4096, .f32⟩ : BufTy).Contents (Elt F)),
    unary main_v45 main_v46 (broadcastInDim S4096x1 ![0] bcast_S4096_S4096x1_0 : (⟨S4096, .f32⟩ : BufTy).Contents (Elt F) → (⟨S4096x1, .f32⟩ : BufTy).Contents (Elt F)),
    unary main_v46 main_v47 (broadcastInDim S4096x768 ![0, 1] bcast_S4096x1_S4096x768_0_1 : (⟨S4096x1, .f32⟩ : BufTy).Contents (Elt F) → (⟨S4096x768, .f32⟩ : BufTy).Contents (Elt F)),
    binary main_v39 main_v47 main_v48 (mulf : (⟨S4096x768, .f32⟩ : BufTy).Contents (Elt F) → (⟨S4096x768, .f32⟩ : BufTy).Contents (Elt F) → (⟨S4096x768, .f32⟩ : BufTy).Contents (Elt F)),
    binary main_v30 main_v48 main_v49 (addf : (⟨S4096x768, .f32⟩ : BufTy).Contents (Elt F) → (⟨S4096x768, .f32⟩ : BufTy).Contents (Elt F) → (⟨S4096x768, .f32⟩ : BufTy).Contents (Elt F)),
    unary main_v1 main_v50 ((extractStridedSlice S1x1x4096 ![1, 1, 0] · slices_S8x2x4096_S1x1x4096_1_1_0) : (⟨S8x2x4096, .i32⟩ : BufTy).Contents (Elt F) → (⟨S1x1x4096, .i32⟩ : BufTy).Contents (Elt F)),
    reshape main_v50 main_v51 rfl shapeCasts_S1x1x4096_S4096,
    unary main_v51 main_v52 (sitofp .f32 : (⟨S4096, .i32⟩ : BufTy).Contents (Elt F) → (⟨S4096, .f32⟩ : BufTy).Contents (Elt F)),
    unary main_arg2 main_v53 ((extractStridedSlice S4096x1 ![0, 1] · slices_S4096x2_S4096x1_0_1) : (⟨S4096x2, .f32⟩ : BufTy).Contents (Elt F) → (⟨S4096x1, .f32⟩ : BufTy).Contents (Elt F)),
    reshape main_v53 main_v54 rfl shapeCasts_S4096x1_S4096,
    binary main_v52 main_v54 main_v55 (mulf : (⟨S4096, .f32⟩ : BufTy).Contents (Elt F) → (⟨S4096, .f32⟩ : BufTy).Contents (Elt F) → (⟨S4096, .f32⟩ : BufTy).Contents (Elt F)),
    unary main_v55 main_v56 (broadcastInDim S4096x1 ![0] bcast_S4096_S4096x1_0 : (⟨S4096, .f32⟩ : BufTy).Contents (Elt F) → (⟨S4096x1, .f32⟩ : BufTy).Contents (Elt F)),
    unary main_v56 main_v57 (broadcastInDim S4096x768 ![0, 1] bcast_S4096x1_S4096x768_0_1 : (⟨S4096x1, .f32⟩ : BufTy).Contents (Elt F) → (⟨S4096x768, .f32⟩ : BufTy).Contents (Elt F)),
    binary main_v39 main_v57 main_v58 (mulf : (⟨S4096x768, .f32⟩ : BufTy).Contents (Elt F) → (⟨S4096x768, .f32⟩ : BufTy).Contents (Elt F) → (⟨S4096x768, .f32⟩ : BufTy).Contents (Elt F)),
    binary main_v49 main_v58 main_v59 (addf : (⟨S4096x768, .f32⟩ : BufTy).Contents (Elt F) → (⟨S4096x768, .f32⟩ : BufTy).Contents (Elt F) → (⟨S4096x768, .f32⟩ : BufTy).Contents (Elt F)) ]

/-- Expert 2's thirty-one operations. -/
abbrev opsE2 : List (HloOp τ sig (Elt F)) :=
  [ unary main_arg3 main_v60 ((extractStridedSlice S1x3072x768 ![2, 0, 0] · slices_S8x3072x768_S1x3072x768_2_0_0) : (⟨S8x3072x768, .f32⟩ : BufTy).Contents (Elt F) → (⟨S1x3072x768, .f32⟩ : BufTy).Contents (Elt F)),
    reshape main_v60 main_v61 rfl shapeCasts_S1x3072x768_S3072x768,
    unary main_v61 main_v62 ((transpose S768x3072 [1, 0] · transposes_S3072x768_S768x3072_1_0) : (⟨S3072x768, .f32⟩ : BufTy).Contents (Elt F) → (⟨S768x3072, .f32⟩ : BufTy).Contents (Elt F)),
    binary main_arg0 main_v62 main_v63 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x3072, .f32⟩) main_call2_v0) (broadcastInDim S4096x3072 ![] bcast_S_S4096x3072),
    TRef.binary (TRef.of (T := ⟨S4096x3072, .f32⟩) main_v63) (TRef.of (T := ⟨S4096x3072, .f32⟩) main_call2_v0) (TRef.of (T := ⟨S4096x3072, .f32⟩) main_v64) maximumf,
    unary main_arg4 main_v65 ((extractStridedSlice S1x768x3072 ![2, 0, 0] · slices_S8x768x3072_S1x768x3072_2_0_0) : (⟨S8x768x3072, .f32⟩ : BufTy).Contents (Elt F) → (⟨S1x768x3072, .f32⟩ : BufTy).Contents (Elt F)),
    reshape main_v65 main_v66 rfl shapeCasts_S1x768x3072_S768x3072,
    unary main_v66 main_v67 ((transpose S3072x768 [1, 0] · transposes_S768x3072_S3072x768_1_0) : (⟨S768x3072, .f32⟩ : BufTy).Contents (Elt F) → (⟨S3072x768, .f32⟩ : BufTy).Contents (Elt F)),
    binary main_v64 main_v67 main_v68 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v69 ((extractStridedSlice S1x1x4096 ![2, 0, 0] · slices_S8x2x4096_S1x1x4096_2_0_0) : (⟨S8x2x4096, .i32⟩ : BufTy).Contents (Elt F) → (⟨S1x1x4096, .i32⟩ : BufTy).Contents (Elt F)),
    reshape main_v69 main_v70 rfl shapeCasts_S1x1x4096_S4096,
    unary main_v70 main_v71 (sitofp .f32 : (⟨S4096, .i32⟩ : BufTy).Contents (Elt F) → (⟨S4096, .f32⟩ : BufTy).Contents (Elt F)),
    unary main_arg2 main_v72 ((extractStridedSlice S4096x1 ![0, 0] · slices_S4096x2_S4096x1_0_0) : (⟨S4096x2, .f32⟩ : BufTy).Contents (Elt F) → (⟨S4096x1, .f32⟩ : BufTy).Contents (Elt F)),
    reshape main_v72 main_v73 rfl shapeCasts_S4096x1_S4096,
    binary main_v71 main_v73 main_v74 (mulf : (⟨S4096, .f32⟩ : BufTy).Contents (Elt F) → (⟨S4096, .f32⟩ : BufTy).Contents (Elt F) → (⟨S4096, .f32⟩ : BufTy).Contents (Elt F)),
    unary main_v74 main_v75 (broadcastInDim S4096x1 ![0] bcast_S4096_S4096x1_0 : (⟨S4096, .f32⟩ : BufTy).Contents (Elt F) → (⟨S4096x1, .f32⟩ : BufTy).Contents (Elt F)),
    unary main_v75 main_v76 (broadcastInDim S4096x768 ![0, 1] bcast_S4096x1_S4096x768_0_1 : (⟨S4096x1, .f32⟩ : BufTy).Contents (Elt F) → (⟨S4096x768, .f32⟩ : BufTy).Contents (Elt F)),
    binary main_v68 main_v76 main_v77 (mulf : (⟨S4096x768, .f32⟩ : BufTy).Contents (Elt F) → (⟨S4096x768, .f32⟩ : BufTy).Contents (Elt F) → (⟨S4096x768, .f32⟩ : BufTy).Contents (Elt F)),
    binary main_v59 main_v77 main_v78 (addf : (⟨S4096x768, .f32⟩ : BufTy).Contents (Elt F) → (⟨S4096x768, .f32⟩ : BufTy).Contents (Elt F) → (⟨S4096x768, .f32⟩ : BufTy).Contents (Elt F)),
    unary main_v1 main_v79 ((extractStridedSlice S1x1x4096 ![2, 1, 0] · slices_S8x2x4096_S1x1x4096_2_1_0) : (⟨S8x2x4096, .i32⟩ : BufTy).Contents (Elt F) → (⟨S1x1x4096, .i32⟩ : BufTy).Contents (Elt F)),
    reshape main_v79 main_v80 rfl shapeCasts_S1x1x4096_S4096,
    unary main_v80 main_v81 (sitofp .f32 : (⟨S4096, .i32⟩ : BufTy).Contents (Elt F) → (⟨S4096, .f32⟩ : BufTy).Contents (Elt F)),
    unary main_arg2 main_v82 ((extractStridedSlice S4096x1 ![0, 1] · slices_S4096x2_S4096x1_0_1) : (⟨S4096x2, .f32⟩ : BufTy).Contents (Elt F) → (⟨S4096x1, .f32⟩ : BufTy).Contents (Elt F)),
    reshape main_v82 main_v83 rfl shapeCasts_S4096x1_S4096,
    binary main_v81 main_v83 main_v84 (mulf : (⟨S4096, .f32⟩ : BufTy).Contents (Elt F) → (⟨S4096, .f32⟩ : BufTy).Contents (Elt F) → (⟨S4096, .f32⟩ : BufTy).Contents (Elt F)),
    unary main_v84 main_v85 (broadcastInDim S4096x1 ![0] bcast_S4096_S4096x1_0 : (⟨S4096, .f32⟩ : BufTy).Contents (Elt F) → (⟨S4096x1, .f32⟩ : BufTy).Contents (Elt F)),
    unary main_v85 main_v86 (broadcastInDim S4096x768 ![0, 1] bcast_S4096x1_S4096x768_0_1 : (⟨S4096x1, .f32⟩ : BufTy).Contents (Elt F) → (⟨S4096x768, .f32⟩ : BufTy).Contents (Elt F)),
    binary main_v68 main_v86 main_v87 (mulf : (⟨S4096x768, .f32⟩ : BufTy).Contents (Elt F) → (⟨S4096x768, .f32⟩ : BufTy).Contents (Elt F) → (⟨S4096x768, .f32⟩ : BufTy).Contents (Elt F)),
    binary main_v78 main_v87 main_v88 (addf : (⟨S4096x768, .f32⟩ : BufTy).Contents (Elt F) → (⟨S4096x768, .f32⟩ : BufTy).Contents (Elt F) → (⟨S4096x768, .f32⟩ : BufTy).Contents (Elt F)) ]

/-- Expert 3's thirty-one operations. -/
abbrev opsE3 : List (HloOp τ sig (Elt F)) :=
  [ unary main_arg3 main_v89 ((extractStridedSlice S1x3072x768 ![3, 0, 0] · slices_S8x3072x768_S1x3072x768_3_0_0) : (⟨S8x3072x768, .f32⟩ : BufTy).Contents (Elt F) → (⟨S1x3072x768, .f32⟩ : BufTy).Contents (Elt F)),
    reshape main_v89 main_v90 rfl shapeCasts_S1x3072x768_S3072x768,
    unary main_v90 main_v91 ((transpose S768x3072 [1, 0] · transposes_S3072x768_S768x3072_1_0) : (⟨S3072x768, .f32⟩ : BufTy).Contents (Elt F) → (⟨S768x3072, .f32⟩ : BufTy).Contents (Elt F)),
    binary main_arg0 main_v91 main_v92 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x3072, .f32⟩) main_call3_v0) (broadcastInDim S4096x3072 ![] bcast_S_S4096x3072),
    TRef.binary (TRef.of (T := ⟨S4096x3072, .f32⟩) main_v92) (TRef.of (T := ⟨S4096x3072, .f32⟩) main_call3_v0) (TRef.of (T := ⟨S4096x3072, .f32⟩) main_v93) maximumf,
    unary main_arg4 main_v94 ((extractStridedSlice S1x768x3072 ![3, 0, 0] · slices_S8x768x3072_S1x768x3072_3_0_0) : (⟨S8x768x3072, .f32⟩ : BufTy).Contents (Elt F) → (⟨S1x768x3072, .f32⟩ : BufTy).Contents (Elt F)),
    reshape main_v94 main_v95 rfl shapeCasts_S1x768x3072_S768x3072,
    unary main_v95 main_v96 ((transpose S3072x768 [1, 0] · transposes_S768x3072_S3072x768_1_0) : (⟨S768x3072, .f32⟩ : BufTy).Contents (Elt F) → (⟨S3072x768, .f32⟩ : BufTy).Contents (Elt F)),
    binary main_v93 main_v96 main_v97 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v98 ((extractStridedSlice S1x1x4096 ![3, 0, 0] · slices_S8x2x4096_S1x1x4096_3_0_0) : (⟨S8x2x4096, .i32⟩ : BufTy).Contents (Elt F) → (⟨S1x1x4096, .i32⟩ : BufTy).Contents (Elt F)),
    reshape main_v98 main_v99 rfl shapeCasts_S1x1x4096_S4096,
    unary main_v99 main_v100 (sitofp .f32 : (⟨S4096, .i32⟩ : BufTy).Contents (Elt F) → (⟨S4096, .f32⟩ : BufTy).Contents (Elt F)),
    unary main_arg2 main_v101 ((extractStridedSlice S4096x1 ![0, 0] · slices_S4096x2_S4096x1_0_0) : (⟨S4096x2, .f32⟩ : BufTy).Contents (Elt F) → (⟨S4096x1, .f32⟩ : BufTy).Contents (Elt F)),
    reshape main_v101 main_v102 rfl shapeCasts_S4096x1_S4096,
    binary main_v100 main_v102 main_v103 (mulf : (⟨S4096, .f32⟩ : BufTy).Contents (Elt F) → (⟨S4096, .f32⟩ : BufTy).Contents (Elt F) → (⟨S4096, .f32⟩ : BufTy).Contents (Elt F)),
    unary main_v103 main_v104 (broadcastInDim S4096x1 ![0] bcast_S4096_S4096x1_0 : (⟨S4096, .f32⟩ : BufTy).Contents (Elt F) → (⟨S4096x1, .f32⟩ : BufTy).Contents (Elt F)),
    unary main_v104 main_v105 (broadcastInDim S4096x768 ![0, 1] bcast_S4096x1_S4096x768_0_1 : (⟨S4096x1, .f32⟩ : BufTy).Contents (Elt F) → (⟨S4096x768, .f32⟩ : BufTy).Contents (Elt F)),
    binary main_v97 main_v105 main_v106 (mulf : (⟨S4096x768, .f32⟩ : BufTy).Contents (Elt F) → (⟨S4096x768, .f32⟩ : BufTy).Contents (Elt F) → (⟨S4096x768, .f32⟩ : BufTy).Contents (Elt F)),
    binary main_v88 main_v106 main_v107 (addf : (⟨S4096x768, .f32⟩ : BufTy).Contents (Elt F) → (⟨S4096x768, .f32⟩ : BufTy).Contents (Elt F) → (⟨S4096x768, .f32⟩ : BufTy).Contents (Elt F)),
    unary main_v1 main_v108 ((extractStridedSlice S1x1x4096 ![3, 1, 0] · slices_S8x2x4096_S1x1x4096_3_1_0) : (⟨S8x2x4096, .i32⟩ : BufTy).Contents (Elt F) → (⟨S1x1x4096, .i32⟩ : BufTy).Contents (Elt F)),
    reshape main_v108 main_v109 rfl shapeCasts_S1x1x4096_S4096,
    unary main_v109 main_v110 (sitofp .f32 : (⟨S4096, .i32⟩ : BufTy).Contents (Elt F) → (⟨S4096, .f32⟩ : BufTy).Contents (Elt F)),
    unary main_arg2 main_v111 ((extractStridedSlice S4096x1 ![0, 1] · slices_S4096x2_S4096x1_0_1) : (⟨S4096x2, .f32⟩ : BufTy).Contents (Elt F) → (⟨S4096x1, .f32⟩ : BufTy).Contents (Elt F)),
    reshape main_v111 main_v112 rfl shapeCasts_S4096x1_S4096,
    binary main_v110 main_v112 main_v113 (mulf : (⟨S4096, .f32⟩ : BufTy).Contents (Elt F) → (⟨S4096, .f32⟩ : BufTy).Contents (Elt F) → (⟨S4096, .f32⟩ : BufTy).Contents (Elt F)),
    unary main_v113 main_v114 (broadcastInDim S4096x1 ![0] bcast_S4096_S4096x1_0 : (⟨S4096, .f32⟩ : BufTy).Contents (Elt F) → (⟨S4096x1, .f32⟩ : BufTy).Contents (Elt F)),
    unary main_v114 main_v115 (broadcastInDim S4096x768 ![0, 1] bcast_S4096x1_S4096x768_0_1 : (⟨S4096x1, .f32⟩ : BufTy).Contents (Elt F) → (⟨S4096x768, .f32⟩ : BufTy).Contents (Elt F)),
    binary main_v97 main_v115 main_v116 (mulf : (⟨S4096x768, .f32⟩ : BufTy).Contents (Elt F) → (⟨S4096x768, .f32⟩ : BufTy).Contents (Elt F) → (⟨S4096x768, .f32⟩ : BufTy).Contents (Elt F)),
    binary main_v107 main_v116 main_v117 (addf : (⟨S4096x768, .f32⟩ : BufTy).Contents (Elt F) → (⟨S4096x768, .f32⟩ : BufTy).Contents (Elt F) → (⟨S4096x768, .f32⟩ : BufTy).Contents (Elt F)) ]

/-- Expert 4's thirty-one operations. -/
abbrev opsE4 : List (HloOp τ sig (Elt F)) :=
  [ unary main_arg3 main_v118 ((extractStridedSlice S1x3072x768 ![4, 0, 0] · slices_S8x3072x768_S1x3072x768_4_0_0) : (⟨S8x3072x768, .f32⟩ : BufTy).Contents (Elt F) → (⟨S1x3072x768, .f32⟩ : BufTy).Contents (Elt F)),
    reshape main_v118 main_v119 rfl shapeCasts_S1x3072x768_S3072x768,
    unary main_v119 main_v120 ((transpose S768x3072 [1, 0] · transposes_S3072x768_S768x3072_1_0) : (⟨S3072x768, .f32⟩ : BufTy).Contents (Elt F) → (⟨S768x3072, .f32⟩ : BufTy).Contents (Elt F)),
    binary main_arg0 main_v120 main_v121 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x3072, .f32⟩) main_call4_v0) (broadcastInDim S4096x3072 ![] bcast_S_S4096x3072),
    TRef.binary (TRef.of (T := ⟨S4096x3072, .f32⟩) main_v121) (TRef.of (T := ⟨S4096x3072, .f32⟩) main_call4_v0) (TRef.of (T := ⟨S4096x3072, .f32⟩) main_v122) maximumf,
    unary main_arg4 main_v123 ((extractStridedSlice S1x768x3072 ![4, 0, 0] · slices_S8x768x3072_S1x768x3072_4_0_0) : (⟨S8x768x3072, .f32⟩ : BufTy).Contents (Elt F) → (⟨S1x768x3072, .f32⟩ : BufTy).Contents (Elt F)),
    reshape main_v123 main_v124 rfl shapeCasts_S1x768x3072_S768x3072,
    unary main_v124 main_v125 ((transpose S3072x768 [1, 0] · transposes_S768x3072_S3072x768_1_0) : (⟨S768x3072, .f32⟩ : BufTy).Contents (Elt F) → (⟨S3072x768, .f32⟩ : BufTy).Contents (Elt F)),
    binary main_v122 main_v125 main_v126 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v127 ((extractStridedSlice S1x1x4096 ![4, 0, 0] · slices_S8x2x4096_S1x1x4096_4_0_0) : (⟨S8x2x4096, .i32⟩ : BufTy).Contents (Elt F) → (⟨S1x1x4096, .i32⟩ : BufTy).Contents (Elt F)),
    reshape main_v127 main_v128 rfl shapeCasts_S1x1x4096_S4096,
    unary main_v128 main_v129 (sitofp .f32 : (⟨S4096, .i32⟩ : BufTy).Contents (Elt F) → (⟨S4096, .f32⟩ : BufTy).Contents (Elt F)),
    unary main_arg2 main_v130 ((extractStridedSlice S4096x1 ![0, 0] · slices_S4096x2_S4096x1_0_0) : (⟨S4096x2, .f32⟩ : BufTy).Contents (Elt F) → (⟨S4096x1, .f32⟩ : BufTy).Contents (Elt F)),
    reshape main_v130 main_v131 rfl shapeCasts_S4096x1_S4096,
    binary main_v129 main_v131 main_v132 (mulf : (⟨S4096, .f32⟩ : BufTy).Contents (Elt F) → (⟨S4096, .f32⟩ : BufTy).Contents (Elt F) → (⟨S4096, .f32⟩ : BufTy).Contents (Elt F)),
    unary main_v132 main_v133 (broadcastInDim S4096x1 ![0] bcast_S4096_S4096x1_0 : (⟨S4096, .f32⟩ : BufTy).Contents (Elt F) → (⟨S4096x1, .f32⟩ : BufTy).Contents (Elt F)),
    unary main_v133 main_v134 (broadcastInDim S4096x768 ![0, 1] bcast_S4096x1_S4096x768_0_1 : (⟨S4096x1, .f32⟩ : BufTy).Contents (Elt F) → (⟨S4096x768, .f32⟩ : BufTy).Contents (Elt F)),
    binary main_v126 main_v134 main_v135 (mulf : (⟨S4096x768, .f32⟩ : BufTy).Contents (Elt F) → (⟨S4096x768, .f32⟩ : BufTy).Contents (Elt F) → (⟨S4096x768, .f32⟩ : BufTy).Contents (Elt F)),
    binary main_v117 main_v135 main_v136 (addf : (⟨S4096x768, .f32⟩ : BufTy).Contents (Elt F) → (⟨S4096x768, .f32⟩ : BufTy).Contents (Elt F) → (⟨S4096x768, .f32⟩ : BufTy).Contents (Elt F)),
    unary main_v1 main_v137 ((extractStridedSlice S1x1x4096 ![4, 1, 0] · slices_S8x2x4096_S1x1x4096_4_1_0) : (⟨S8x2x4096, .i32⟩ : BufTy).Contents (Elt F) → (⟨S1x1x4096, .i32⟩ : BufTy).Contents (Elt F)),
    reshape main_v137 main_v138 rfl shapeCasts_S1x1x4096_S4096,
    unary main_v138 main_v139 (sitofp .f32 : (⟨S4096, .i32⟩ : BufTy).Contents (Elt F) → (⟨S4096, .f32⟩ : BufTy).Contents (Elt F)),
    unary main_arg2 main_v140 ((extractStridedSlice S4096x1 ![0, 1] · slices_S4096x2_S4096x1_0_1) : (⟨S4096x2, .f32⟩ : BufTy).Contents (Elt F) → (⟨S4096x1, .f32⟩ : BufTy).Contents (Elt F)),
    reshape main_v140 main_v141 rfl shapeCasts_S4096x1_S4096,
    binary main_v139 main_v141 main_v142 (mulf : (⟨S4096, .f32⟩ : BufTy).Contents (Elt F) → (⟨S4096, .f32⟩ : BufTy).Contents (Elt F) → (⟨S4096, .f32⟩ : BufTy).Contents (Elt F)),
    unary main_v142 main_v143 (broadcastInDim S4096x1 ![0] bcast_S4096_S4096x1_0 : (⟨S4096, .f32⟩ : BufTy).Contents (Elt F) → (⟨S4096x1, .f32⟩ : BufTy).Contents (Elt F)),
    unary main_v143 main_v144 (broadcastInDim S4096x768 ![0, 1] bcast_S4096x1_S4096x768_0_1 : (⟨S4096x1, .f32⟩ : BufTy).Contents (Elt F) → (⟨S4096x768, .f32⟩ : BufTy).Contents (Elt F)),
    binary main_v126 main_v144 main_v145 (mulf : (⟨S4096x768, .f32⟩ : BufTy).Contents (Elt F) → (⟨S4096x768, .f32⟩ : BufTy).Contents (Elt F) → (⟨S4096x768, .f32⟩ : BufTy).Contents (Elt F)),
    binary main_v136 main_v145 main_v146 (addf : (⟨S4096x768, .f32⟩ : BufTy).Contents (Elt F) → (⟨S4096x768, .f32⟩ : BufTy).Contents (Elt F) → (⟨S4096x768, .f32⟩ : BufTy).Contents (Elt F)) ]

/-- Expert 5's thirty-one operations. -/
abbrev opsE5 : List (HloOp τ sig (Elt F)) :=
  [ unary main_arg3 main_v147 ((extractStridedSlice S1x3072x768 ![5, 0, 0] · slices_S8x3072x768_S1x3072x768_5_0_0) : (⟨S8x3072x768, .f32⟩ : BufTy).Contents (Elt F) → (⟨S1x3072x768, .f32⟩ : BufTy).Contents (Elt F)),
    reshape main_v147 main_v148 rfl shapeCasts_S1x3072x768_S3072x768,
    unary main_v148 main_v149 ((transpose S768x3072 [1, 0] · transposes_S3072x768_S768x3072_1_0) : (⟨S3072x768, .f32⟩ : BufTy).Contents (Elt F) → (⟨S768x3072, .f32⟩ : BufTy).Contents (Elt F)),
    binary main_arg0 main_v149 main_v150 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4096x3072, .f32⟩) main_call5_v0) (broadcastInDim S4096x3072 ![] bcast_S_S4096x3072),
    TRef.binary (TRef.of (T := ⟨S4096x3072, .f32⟩) main_v150) (TRef.of (T := ⟨S4096x3072, .f32⟩) main_call5_v0) (TRef.of (T := ⟨S4096x3072, .f32⟩) main_v151) maximumf,
    unary main_arg4 main_v152 ((extractStridedSlice S1x768x3072 ![5, 0, 0] · slices_S8x768x3072_S1x768x3072_5_0_0) : (⟨S8x768x3072, .f32⟩ : BufTy).Contents (Elt F) → (⟨S1x768x3072, .f32⟩ : BufTy).Contents (Elt F)),
    reshape main_v152 main_v153 rfl shapeCasts_S1x768x3072_S768x3072,
    unary main_v153 main_v154 ((transpose S3072x768 [1, 0] · transposes_S768x3072_S3072x768_1_0) : (⟨S768x3072, .f32⟩ : BufTy).Contents (Elt F) → (⟨S3072x768, .f32⟩ : BufTy).Contents (Elt F)),
    binary main_v151 main_v154 main_v155 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v156 ((extractStridedSlice S1x1x4096 ![5, 0, 0] · slices_S8x2x4096_S1x1x4096_5_0_0) : (⟨S8x2x4096, .i32⟩ : BufTy).Contents (Elt F) → (⟨S1x1x4096, .i32⟩ : BufTy).Contents (Elt F)),
    reshape main_v156 main_v157 rfl shapeCasts_S1x1x4096_S4096,
    unary main_v157 main_v158 (sitofp .f32 : (⟨S4096, .i32⟩ : BufTy).Contents (Elt F) → (⟨S4096, .f32⟩ : BufTy).Contents (Elt F)),
    unary main_arg2 main_v159 ((extractStridedSlice S4096x1 ![0, 0] · slices_S4096x2_S4096x1_0_0) : (⟨S4096x2, .f32⟩ : BufTy).Contents (Elt F) → (⟨S4096x1, .f32⟩ : BufTy).Contents (Elt F)),
    reshape main_v159 main_v160 rfl shapeCasts_S4096x1_S4096,
    binary main_v158 main_v160 main_v161 (mulf : (⟨S4096, .f32⟩ : BufTy).Contents (Elt F) → (⟨S4096, .f32⟩ : BufTy).Contents (Elt F) → (⟨S4096, .f32⟩ : BufTy).Contents (Elt F)),
    unary main_v161 main_v162 (broadcastInDim S4096x1 ![0] bcast_S4096_S4096x1_0 : (⟨S4096, .f32⟩ : BufTy).Contents (Elt F) → (⟨S4096x1, .f32⟩ : BufTy).Contents (Elt F)),
    unary main_v162 main_v163 (broadcastInDim S4096x768 ![0, 1] bcast_S4096x1_S4096x768_0_1 : (⟨S4096x1, .f32⟩ : BufTy).Contents (Elt F) → (⟨S4096x768, .f32⟩ : BufTy).Contents (Elt F)),
    binary main_v155 main_v163 main_v164 (mulf : (⟨S4096x768, .f32⟩ : BufTy).Contents (Elt F) → (⟨S4096x768, .f32⟩ : BufTy).Contents (Elt F) → (⟨S4096x768, .f32⟩ : BufTy).Contents (Elt F)),
    binary main_v146 main_v164 main_v165 (addf : (⟨S4096x768, .f32⟩ : BufTy).Contents (Elt F) → (⟨S4096x768, .f32⟩ : BufTy).Contents (Elt F) → (⟨S4096x768, .f32⟩ : BufTy).Contents (Elt F)),
    unary main_v1 main_v166 ((extractStridedSlice S1x1x4096 ![5, 1, 0] · slices_S8x2x4096_S1x1x4096_5_1_0) : (⟨S8x2x4096, .i32⟩ : BufTy).Contents (Elt F) → (⟨S1x1x4096, .i32⟩ : BufTy).Contents (Elt F)),
    reshape main_v166 main_v167 rfl shapeCasts_S1x1x4096_S4096,
    unary main_v167 main_v168 (sitofp .f32 : (⟨S4096, .i32⟩ : BufTy).Contents (Elt F) → (⟨S4096, .f32⟩ : BufTy).Contents (Elt F)),
    unary main_arg2 main_v169 ((extractStridedSlice S4096x1 ![0, 1] · slices_S4096x2_S4096x1_0_1) : (⟨S4096x2, .f32⟩ : BufTy).Contents (Elt F) → (⟨S4096x1, .f32⟩ : BufTy).Contents (Elt F)),
    reshape main_v169 main_v170 rfl shapeCasts_S4096x1_S4096,
    binary main_v168 main_v170 main_v171 (mulf : (⟨S4096, .f32⟩ : BufTy).Contents (Elt F) → (⟨S4096, .f32⟩ : BufTy).Contents (Elt F) → (⟨S4096, .f32⟩ : BufTy).Contents (Elt F)),
    unary main_v171 main_v172 (broadcastInDim S4096x1 ![0] bcast_S4096_S4096x1_0 : (⟨S4096, .f32⟩ : BufTy).Contents (Elt F) → (⟨S4096x1, .f32⟩ : BufTy).Contents (Elt F)),
    unary main_v172 main_v173 (broadcastInDim S4096x768 ![0, 1] bcast_S4096x1_S4096x768_0_1 : (⟨S4096x1, .f32⟩ : BufTy).Contents (Elt F) → (⟨S4096x768, .f32⟩ : BufTy).Contents (Elt F)),
    binary main_v155 main_v173 main_v174 (mulf : (⟨S4096x768, .f32⟩ : BufTy).Contents (Elt F) → (⟨S4096x768, .f32⟩ : BufTy).Contents (Elt F) → (⟨S4096x768, .f32⟩ : BufTy).Contents (Elt F)),
    binary main_v165 main_v174 main_v175 (addf : (⟨S4096x768, .f32⟩ : BufTy).Contents (Elt F) → (⟨S4096x768, .f32⟩ : BufTy).Contents (Elt F) → (⟨S4096x768, .f32⟩ : BufTy).Contents (Elt F)) ]

/-- Expert 6's thirty-one operations. -/
abbrev opsE6 : List (HloOp τ sig (Elt F)) :=
  [ unary main_arg3 main_v176 ((extractStridedSlice S1x3072x768 ![6, 0, 0] · slices_S8x3072x768_S1x3072x768_6_0_0) : (⟨S8x3072x768, .f32⟩ : BufTy).Contents (Elt F) → (⟨S1x3072x768, .f32⟩ : BufTy).Contents (Elt F)),
    reshape main_v176 main_v177 rfl shapeCasts_S1x3072x768_S3072x768,
    unary main_v177 main_v178 ((transpose S768x3072 [1, 0] · transposes_S3072x768_S768x3072_1_0) : (⟨S3072x768, .f32⟩ : BufTy).Contents (Elt F) → (⟨S768x3072, .f32⟩ : BufTy).Contents (Elt F)),
    binary main_arg0 main_v178 main_v179 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S4096x3072, .f32⟩) main_call6_v0) (broadcastInDim S4096x3072 ![] bcast_S_S4096x3072),
    TRef.binary (TRef.of (T := ⟨S4096x3072, .f32⟩) main_v179) (TRef.of (T := ⟨S4096x3072, .f32⟩) main_call6_v0) (TRef.of (T := ⟨S4096x3072, .f32⟩) main_v180) maximumf,
    unary main_arg4 main_v181 ((extractStridedSlice S1x768x3072 ![6, 0, 0] · slices_S8x768x3072_S1x768x3072_6_0_0) : (⟨S8x768x3072, .f32⟩ : BufTy).Contents (Elt F) → (⟨S1x768x3072, .f32⟩ : BufTy).Contents (Elt F)),
    reshape main_v181 main_v182 rfl shapeCasts_S1x768x3072_S768x3072,
    unary main_v182 main_v183 ((transpose S3072x768 [1, 0] · transposes_S768x3072_S3072x768_1_0) : (⟨S768x3072, .f32⟩ : BufTy).Contents (Elt F) → (⟨S3072x768, .f32⟩ : BufTy).Contents (Elt F)),
    binary main_v180 main_v183 main_v184 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v185 ((extractStridedSlice S1x1x4096 ![6, 0, 0] · slices_S8x2x4096_S1x1x4096_6_0_0) : (⟨S8x2x4096, .i32⟩ : BufTy).Contents (Elt F) → (⟨S1x1x4096, .i32⟩ : BufTy).Contents (Elt F)),
    reshape main_v185 main_v186 rfl shapeCasts_S1x1x4096_S4096,
    unary main_v186 main_v187 (sitofp .f32 : (⟨S4096, .i32⟩ : BufTy).Contents (Elt F) → (⟨S4096, .f32⟩ : BufTy).Contents (Elt F)),
    unary main_arg2 main_v188 ((extractStridedSlice S4096x1 ![0, 0] · slices_S4096x2_S4096x1_0_0) : (⟨S4096x2, .f32⟩ : BufTy).Contents (Elt F) → (⟨S4096x1, .f32⟩ : BufTy).Contents (Elt F)),
    reshape main_v188 main_v189 rfl shapeCasts_S4096x1_S4096,
    binary main_v187 main_v189 main_v190 (mulf : (⟨S4096, .f32⟩ : BufTy).Contents (Elt F) → (⟨S4096, .f32⟩ : BufTy).Contents (Elt F) → (⟨S4096, .f32⟩ : BufTy).Contents (Elt F)),
    unary main_v190 main_v191 (broadcastInDim S4096x1 ![0] bcast_S4096_S4096x1_0 : (⟨S4096, .f32⟩ : BufTy).Contents (Elt F) → (⟨S4096x1, .f32⟩ : BufTy).Contents (Elt F)),
    unary main_v191 main_v192 (broadcastInDim S4096x768 ![0, 1] bcast_S4096x1_S4096x768_0_1 : (⟨S4096x1, .f32⟩ : BufTy).Contents (Elt F) → (⟨S4096x768, .f32⟩ : BufTy).Contents (Elt F)),
    binary main_v184 main_v192 main_v193 (mulf : (⟨S4096x768, .f32⟩ : BufTy).Contents (Elt F) → (⟨S4096x768, .f32⟩ : BufTy).Contents (Elt F) → (⟨S4096x768, .f32⟩ : BufTy).Contents (Elt F)),
    binary main_v175 main_v193 main_v194 (addf : (⟨S4096x768, .f32⟩ : BufTy).Contents (Elt F) → (⟨S4096x768, .f32⟩ : BufTy).Contents (Elt F) → (⟨S4096x768, .f32⟩ : BufTy).Contents (Elt F)),
    unary main_v1 main_v195 ((extractStridedSlice S1x1x4096 ![6, 1, 0] · slices_S8x2x4096_S1x1x4096_6_1_0) : (⟨S8x2x4096, .i32⟩ : BufTy).Contents (Elt F) → (⟨S1x1x4096, .i32⟩ : BufTy).Contents (Elt F)),
    reshape main_v195 main_v196 rfl shapeCasts_S1x1x4096_S4096,
    unary main_v196 main_v197 (sitofp .f32 : (⟨S4096, .i32⟩ : BufTy).Contents (Elt F) → (⟨S4096, .f32⟩ : BufTy).Contents (Elt F)),
    unary main_arg2 main_v198 ((extractStridedSlice S4096x1 ![0, 1] · slices_S4096x2_S4096x1_0_1) : (⟨S4096x2, .f32⟩ : BufTy).Contents (Elt F) → (⟨S4096x1, .f32⟩ : BufTy).Contents (Elt F)),
    reshape main_v198 main_v199 rfl shapeCasts_S4096x1_S4096,
    binary main_v197 main_v199 main_v200 (mulf : (⟨S4096, .f32⟩ : BufTy).Contents (Elt F) → (⟨S4096, .f32⟩ : BufTy).Contents (Elt F) → (⟨S4096, .f32⟩ : BufTy).Contents (Elt F)),
    unary main_v200 main_v201 (broadcastInDim S4096x1 ![0] bcast_S4096_S4096x1_0 : (⟨S4096, .f32⟩ : BufTy).Contents (Elt F) → (⟨S4096x1, .f32⟩ : BufTy).Contents (Elt F)),
    unary main_v201 main_v202 (broadcastInDim S4096x768 ![0, 1] bcast_S4096x1_S4096x768_0_1 : (⟨S4096x1, .f32⟩ : BufTy).Contents (Elt F) → (⟨S4096x768, .f32⟩ : BufTy).Contents (Elt F)),
    binary main_v184 main_v202 main_v203 (mulf : (⟨S4096x768, .f32⟩ : BufTy).Contents (Elt F) → (⟨S4096x768, .f32⟩ : BufTy).Contents (Elt F) → (⟨S4096x768, .f32⟩ : BufTy).Contents (Elt F)),
    binary main_v194 main_v203 main_v204 (addf : (⟨S4096x768, .f32⟩ : BufTy).Contents (Elt F) → (⟨S4096x768, .f32⟩ : BufTy).Contents (Elt F) → (⟨S4096x768, .f32⟩ : BufTy).Contents (Elt F)) ]

/-- Expert 7's thirty-one operations. -/
abbrev opsE7 : List (HloOp τ sig (Elt F)) :=
  [ unary main_arg3 main_v205 ((extractStridedSlice S1x3072x768 ![7, 0, 0] · slices_S8x3072x768_S1x3072x768_7_0_0) : (⟨S8x3072x768, .f32⟩ : BufTy).Contents (Elt F) → (⟨S1x3072x768, .f32⟩ : BufTy).Contents (Elt F)),
    reshape main_v205 main_v206 rfl shapeCasts_S1x3072x768_S3072x768,
    unary main_v206 main_v207 ((transpose S768x3072 [1, 0] · transposes_S3072x768_S768x3072_1_0) : (⟨S3072x768, .f32⟩ : BufTy).Contents (Elt F) → (⟨S768x3072, .f32⟩ : BufTy).Contents (Elt F)),
    binary main_arg0 main_v207 main_v208 ((fun l r => Host.dotGeneral dot_S4096x768_S768x3072_S4096x3072_1_0_0_1_n_n none l r) : (⟨S4096x768, .f32⟩ : BufTy).Contents (Elt F) → (⟨S768x3072, .f32⟩ : BufTy).Contents (Elt F) → (⟨S4096x3072, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4096x3072, .f32⟩) main_call7_v0) (broadcastInDim S4096x3072 ![] bcast_S_S4096x3072),
    TRef.binary (TRef.of (T := ⟨S4096x3072, .f32⟩) main_v208) (TRef.of (T := ⟨S4096x3072, .f32⟩) main_call7_v0) (TRef.of (T := ⟨S4096x3072, .f32⟩) main_v209) maximumf,
    unary main_arg4 main_v210 ((extractStridedSlice S1x768x3072 ![7, 0, 0] · slices_S8x768x3072_S1x768x3072_7_0_0) : (⟨S8x768x3072, .f32⟩ : BufTy).Contents (Elt F) → (⟨S1x768x3072, .f32⟩ : BufTy).Contents (Elt F)),
    reshape main_v210 main_v211 rfl shapeCasts_S1x768x3072_S768x3072,
    unary main_v211 main_v212 ((transpose S3072x768 [1, 0] · transposes_S768x3072_S3072x768_1_0) : (⟨S768x3072, .f32⟩ : BufTy).Contents (Elt F) → (⟨S3072x768, .f32⟩ : BufTy).Contents (Elt F)),
    binary main_v209 main_v212 main_v213 ((fun l r => Host.dotGeneral dot_S4096x3072_S3072x768_S4096x768_1_0_0_1_n_n none l r) : (⟨S4096x3072, .f32⟩ : BufTy).Contents (Elt F) → (⟨S3072x768, .f32⟩ : BufTy).Contents (Elt F) → (⟨S4096x768, .f32⟩ : BufTy).Contents (Elt F)),
    unary main_v1 main_v214 ((extractStridedSlice S1x1x4096 ![7, 0, 0] · slices_S8x2x4096_S1x1x4096_7_0_0) : (⟨S8x2x4096, .i32⟩ : BufTy).Contents (Elt F) → (⟨S1x1x4096, .i32⟩ : BufTy).Contents (Elt F)),
    reshape main_v214 main_v215 rfl shapeCasts_S1x1x4096_S4096,
    unary main_v215 main_v216 (sitofp .f32 : (⟨S4096, .i32⟩ : BufTy).Contents (Elt F) → (⟨S4096, .f32⟩ : BufTy).Contents (Elt F)),
    unary main_arg2 main_v217 ((extractStridedSlice S4096x1 ![0, 0] · slices_S4096x2_S4096x1_0_0) : (⟨S4096x2, .f32⟩ : BufTy).Contents (Elt F) → (⟨S4096x1, .f32⟩ : BufTy).Contents (Elt F)),
    reshape main_v217 main_v218 rfl shapeCasts_S4096x1_S4096,
    binary main_v216 main_v218 main_v219 (mulf : (⟨S4096, .f32⟩ : BufTy).Contents (Elt F) → (⟨S4096, .f32⟩ : BufTy).Contents (Elt F) → (⟨S4096, .f32⟩ : BufTy).Contents (Elt F)),
    unary main_v219 main_v220 (broadcastInDim S4096x1 ![0] bcast_S4096_S4096x1_0 : (⟨S4096, .f32⟩ : BufTy).Contents (Elt F) → (⟨S4096x1, .f32⟩ : BufTy).Contents (Elt F)),
    unary main_v220 main_v221 (broadcastInDim S4096x768 ![0, 1] bcast_S4096x1_S4096x768_0_1 : (⟨S4096x1, .f32⟩ : BufTy).Contents (Elt F) → (⟨S4096x768, .f32⟩ : BufTy).Contents (Elt F)),
    binary main_v213 main_v221 main_v222 (mulf : (⟨S4096x768, .f32⟩ : BufTy).Contents (Elt F) → (⟨S4096x768, .f32⟩ : BufTy).Contents (Elt F) → (⟨S4096x768, .f32⟩ : BufTy).Contents (Elt F)),
    binary main_v204 main_v222 main_v223 (addf : (⟨S4096x768, .f32⟩ : BufTy).Contents (Elt F) → (⟨S4096x768, .f32⟩ : BufTy).Contents (Elt F) → (⟨S4096x768, .f32⟩ : BufTy).Contents (Elt F)),
    unary main_v1 main_v224 ((extractStridedSlice S1x1x4096 ![7, 1, 0] · slices_S8x2x4096_S1x1x4096_7_1_0) : (⟨S8x2x4096, .i32⟩ : BufTy).Contents (Elt F) → (⟨S1x1x4096, .i32⟩ : BufTy).Contents (Elt F)),
    reshape main_v224 main_v225 rfl shapeCasts_S1x1x4096_S4096,
    unary main_v225 main_v226 (sitofp .f32 : (⟨S4096, .i32⟩ : BufTy).Contents (Elt F) → (⟨S4096, .f32⟩ : BufTy).Contents (Elt F)),
    unary main_arg2 main_v227 ((extractStridedSlice S4096x1 ![0, 1] · slices_S4096x2_S4096x1_0_1) : (⟨S4096x2, .f32⟩ : BufTy).Contents (Elt F) → (⟨S4096x1, .f32⟩ : BufTy).Contents (Elt F)),
    reshape main_v227 main_v228 rfl shapeCasts_S4096x1_S4096,
    binary main_v226 main_v228 main_v229 (mulf : (⟨S4096, .f32⟩ : BufTy).Contents (Elt F) → (⟨S4096, .f32⟩ : BufTy).Contents (Elt F) → (⟨S4096, .f32⟩ : BufTy).Contents (Elt F)),
    unary main_v229 main_v230 (broadcastInDim S4096x1 ![0] bcast_S4096_S4096x1_0 : (⟨S4096, .f32⟩ : BufTy).Contents (Elt F) → (⟨S4096x1, .f32⟩ : BufTy).Contents (Elt F)),
    unary main_v230 main_v231 (broadcastInDim S4096x768 ![0, 1] bcast_S4096x1_S4096x768_0_1 : (⟨S4096x1, .f32⟩ : BufTy).Contents (Elt F) → (⟨S4096x768, .f32⟩ : BufTy).Contents (Elt F)),
    binary main_v213 main_v231 main_v232 (mulf : (⟨S4096x768, .f32⟩ : BufTy).Contents (Elt F) → (⟨S4096x768, .f32⟩ : BufTy).Contents (Elt F) → (⟨S4096x768, .f32⟩ : BufTy).Contents (Elt F)),
    binary main_v223 main_v232 main_v233 (addf : (⟨S4096x768, .f32⟩ : BufTy).Contents (Elt F) → (⟨S4096x768, .f32⟩ : BufTy).Contents (Elt F) → (⟨S4096x768, .f32⟩ : BufTy).Contents (Elt F)) ]

/-- The whole program's operations, in order: the prologue, then the experts' lists. -/
abbrev ops : List (HloOp τ sig (Elt F)) := opsPre ++ (opsE0 ++ (opsE1 ++ (opsE2 ++ (opsE3 ++ (opsE4 ++ (opsE5 ++ (opsE6 ++ opsE7)))))))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! Each list's operations touch TensorCore references only, and determine their results. -/
theorem subPre : (opsPre : List (HloOp τ sig (Elt F))).Forall fun op => op.bufs ⊆ tcRefs τ sig :=
  ⟨nullary_bufs_sub .., unary_bufs_sub .., unary_bufs_sub ..⟩
theorem subE0 : (opsE0 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem subE1 : (opsE1 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem subE2 : (opsE2 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem subE3 : (opsE3 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem subE4 : (opsE4 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem subE5 : (opsE5 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem subE6 : (opsE6 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem subE7 : (opsE7 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub .., unary_bufs_sub .., reshape_bufs_sub .., unary_bufs_sub .., unary_bufs_sub .., reshape_bufs_sub .., binary_bufs_sub .., unary_bufs_sub .., unary_bufs_sub .., binary_bufs_sub .., binary_bufs_sub ..⟩
theorem freshPre : ∀ op ∈ (opsPre : List (HloOp τ sig (Elt F))), op.fresh = ∅ := by intro _ h; (repeat (cases h with | head => rfl | tail _ h => ?_)); exact nomatch h
theorem freshE0 : ∀ op ∈ (opsE0 : List (HloOp τ sig (Elt F))), op.fresh = ∅ := by intro _ h; (repeat (cases h with | head => rfl | tail _ h => ?_)); exact nomatch h
theorem freshE1 : ∀ op ∈ (opsE1 : List (HloOp τ sig (Elt F))), op.fresh = ∅ := by intro _ h; (repeat (cases h with | head => rfl | tail _ h => ?_)); exact nomatch h
theorem freshE2 : ∀ op ∈ (opsE2 : List (HloOp τ sig (Elt F))), op.fresh = ∅ := by intro _ h; (repeat (cases h with | head => rfl | tail _ h => ?_)); exact nomatch h
theorem freshE3 : ∀ op ∈ (opsE3 : List (HloOp τ sig (Elt F))), op.fresh = ∅ := by intro _ h; (repeat (cases h with | head => rfl | tail _ h => ?_)); exact nomatch h
theorem freshE4 : ∀ op ∈ (opsE4 : List (HloOp τ sig (Elt F))), op.fresh = ∅ := by intro _ h; (repeat (cases h with | head => rfl | tail _ h => ?_)); exact nomatch h
theorem freshE5 : ∀ op ∈ (opsE5 : List (HloOp τ sig (Elt F))), op.fresh = ∅ := by intro _ h; (repeat (cases h with | head => rfl | tail _ h => ?_)); exact nomatch h
theorem freshE6 : ∀ op ∈ (opsE6 : List (HloOp τ sig (Elt F))), op.fresh = ∅ := by intro _ h; (repeat (cases h with | head => rfl | tail _ h => ?_)); exact nomatch h
theorem freshE7 : ∀ op ∈ (opsE7 : List (HloOp τ sig (Elt F))), op.fresh = ∅ := by intro _ h; (repeat (cases h with | head => rfl | tail _ h => ?_)); exact nomatch h

/-- A fact about every operation of each of the nine lists is a fact about every operation of the program. -/
theorem forall_ops (P : HloOp τ sig (Elt F) → Prop) (hPre : ∀ op ∈ (opsPre : List (HloOp τ sig (Elt F))), P op)
    (h0 : ∀ op ∈ (opsE0 : List (HloOp τ sig (Elt F))), P op)
    (h1 : ∀ op ∈ (opsE1 : List (HloOp τ sig (Elt F))), P op)
    (h2 : ∀ op ∈ (opsE2 : List (HloOp τ sig (Elt F))), P op)
    (h3 : ∀ op ∈ (opsE3 : List (HloOp τ sig (Elt F))), P op)
    (h4 : ∀ op ∈ (opsE4 : List (HloOp τ sig (Elt F))), P op)
    (h5 : ∀ op ∈ (opsE5 : List (HloOp τ sig (Elt F))), P op)
    (h6 : ∀ op ∈ (opsE6 : List (HloOp τ sig (Elt F))), P op)
    (h7 : ∀ op ∈ (opsE7 : List (HloOp τ sig (Elt F))), P op) :
    ∀ op ∈ (ops : List (HloOp τ sig (Elt F))), P op := by
  intro op h
  simp only [List.mem_append] at h
  rcases h with h | h | h | h | h | h | h | h | h
  · exact hPre op h
  · exact h0 op h
  · exact h1 op h
  · exact h2 op h
  · exact h3 op h
  · exact h4 op h
  · exact h5 op h
  · exact h6 op h
  · exact h7 op h

theorem ops_sub : (ops : List (HloOp τ sig (Elt F))).Forall fun op => op.bufs ⊆ tcRefs τ sig :=
  List.forall_iff_forall_mem.mpr (forall_ops _ (List.forall_iff_forall_mem.mp subPre)
    (List.forall_iff_forall_mem.mp subE0)
    (List.forall_iff_forall_mem.mp subE1)
    (List.forall_iff_forall_mem.mp subE2)
    (List.forall_iff_forall_mem.mp subE3)
    (List.forall_iff_forall_mem.mp subE4)
    (List.forall_iff_forall_mem.mp subE5)
    (List.forall_iff_forall_mem.mp subE6)
    (List.forall_iff_forall_mem.mp subE7))

theorem ops_fresh : ∀ op ∈ (ops : List (HloOp τ sig (Elt F))), op.fresh = ∅ :=
  forall_ops _ freshPre freshE0 freshE1 freshE2 freshE3 freshE4 freshE5 freshE6 freshE7

/-- The fold over two lists one after the other is the fold over the second, from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Every weakly fair execution of the reference terminates with every buffer at the fold of the operations' results. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefTerms.lean ====
import proofs.«158283_g1726576853152_cont_sun_c4_190_44_alg».proof.Proof.Gen.ReferenceIdeal
import proofs.«158283_g1726576853152_cont_sun_c4_190_44_alg».proof.Proof.Spec
import Idealize.ShloMosaic.Lib.Pipeline.Value
import Idealize.ShloMosaic.Lib.ValueIdx
import Idealize.ShloMosaic.PureOps.Ideal.Laws

/-! The reference's per-expert terms, and what they are at an index of the argument arrays.

    For expert e the reference slices the expert's two weight matrices out of the stacked arrays, transposes them, and
    multiplies: the activations by the first, a relu, the result by the second (expertTerm). For each of the two slots it takes
    the expert's row of the transposed mask, reads it as a float, multiplies it by the slot's column of the routing weights
    and broadcasts the product along each row (coefTerm). It adds the expert's output times slot 0's coefficient and then
    times slot 1's to what it had (blockTerm). Read at (r, d), through the slices, reshapes, transposes and broadcasts, these
    are expertOut and coef of the specification. -/

noncomputable section

open Idealize.ShloMosaic Idealize.ShloMosaic.ValueIdx

namespace Cert.ReferenceIdeal.RefRun

open Cert.ReferenceIdeal Cert.ReferenceIdeal.Gen Cert.Spec

/-- Expert e's output: two products with a relu between them. -/
def expertTerm (e : ℕ) (hs3 : S8x3072x768.Slices ![e, 0, 0] S1x3072x768) (hs4 : S8x768x3072.Slices ![e, 0, 0] S1x768x3072)
    (x0 : FVec Ideal S4096x768 .f32) (x3 : FVec Ideal S8x3072x768 .f32) (x4 : FVec Ideal S8x768x3072 .f32) : FVec Ideal S4096x768 .f32 :=
  Host.dotGeneral (F := Ideal) dot_S4096x3072_S3072x768_S4096x768_1_0_0_1_n_n none
    (maximumf (Host.dotGeneral (F := Ideal) dot_S4096x768_S768x3072_S4096x3072_1_0_0_1_n_n none x0
        (transpose S768x3072 [1, 0] (shapeCast S3072x768 (extractStridedSlice S1x3072x768 ![e, 0, 0] x3 hs3) shapeCasts_S1x3072x768_S3072x768) transposes_S3072x768_S768x3072_1_0))
      (broadcastInDim S4096x3072 ![] bcast_S_S4096x3072 (constant (F := Ideal) S_ .f32 0x00000000#32)))
    (transpose S3072x768 [1, 0] (shapeCast S768x3072 (extractStridedSlice S1x768x3072 ![e, 0, 0] x4 hs4) shapeCasts_S1x768x3072_S768x3072) transposes_S768x3072_S3072x768_1_0)

/-- Expert e's coefficient of slot k, broadcast along each row, from the transposed mask v1 and the routing weights. -/
def coefTerm (e k : ℕ) (hm : S8x2x4096.Slices ![e, k, 0] S1x1x4096) (hr : S4096x2.Slices ![0, k] S4096x1)
    (v1 : IVec S8x2x4096 32) (x2 : FVec Ideal S4096x2 .f32) : FVec Ideal S4096x768 .f32 :=
  broadcastInDim S4096x768 ![0, 1] bcast_S4096x1_S4096x768_0_1 (broadcastInDim S4096x1 ![0] bcast_S4096_S4096x1_0
    (mulf (F := Ideal) (sitofp .f32 (shapeCast S4096 (extractStridedSlice S1x1x4096 ![e, k, 0] v1 hm) shapeCasts_S1x1x4096_S4096))
      (shapeCast S4096 (extractStridedSlice S4096x1 ![0, k] x2 hr) shapeCasts_S4096x1_S4096)))

/-- What expert e's thirty-one operations leave: the running sum plus the expert's output times each of its two coefficients. -/
def blockTerm (e : ℕ) (hs3 : S8x3072x768.Slices ![e, 0, 0] S1x3072x768) (hs4 : S8x768x3072.Slices ![e, 0, 0] S1x768x3072)
    (hm0 : S8x2x4096.Slices ![e, 0, 0] S1x1x4096) (hm1 : S8x2x4096.Slices ![e, 1, 0] S1x1x4096)
    (prev x0 : FVec Ideal S4096x768 .f32) (v1 : IVec S8x2x4096 32) (x2 : FVec Ideal S4096x2 .f32)
    (x3 : FVec Ideal S8x3072x768 .f32) (x4 : FVec Ideal S8x768x3072 .f32) : FVec Ideal S4096x768 .f32 :=
  addf (F := Ideal) (addf prev (mulf (expertTerm e hs3 hs4 x0 x3 x4) (coefTerm e 0 hm0 slices_S4096x2_S4096x1_0_0 v1 x2)))
    (mulf (expertTerm e hs3 hs4 x0 x3 x4) (coefTerm e 1 hm1 slices_S4096x2_S4096x1_0_1 v1 x2))

/-! The operand indices of the reference's two products. -/

theorem r1_lhs0 (i : S4096x3072.Idx) (q : dot_S4096x768_S768x3072_S4096x3072_1_0_0_1_n_n.contr.Idx) : (dot_S4096x768_S768x3072_S4096x3072_1_0_0_1_n_n.lhsIdx i q 0).val = (i 0).val := by
  unfold DotDims.lhsIdx
  rw [dif_neg (show ¬(0 : Fin S4096x768.rank) ∈ dot_S4096x768_S768x3072_S4096x3072_1_0_0_1_n_n.lhsBatch by decide), dif_pos (show (0 : Fin S4096x768.rank) ∈ dot_S4096x768_S768x3072_S4096x3072_1_0_0_1_n_n.lhsNonContracting by decide)]
  rfl
theorem r1_lhs1 (i : S4096x3072.Idx) (q : dot_S4096x768_S768x3072_S4096x3072_1_0_0_1_n_n.contr.Idx) : (dot_S4096x768_S768x3072_S4096x3072_1_0_0_1_n_n.lhsIdx i q 1).val = (q ⟨0, by decide⟩).val :=
  dot_S4096x768_S768x3072_S4096x3072_1_0_0_1_n_n.lhsIdx_val_of_single rfl i q
theorem r1_rhs0 (i : S4096x3072.Idx) (q : dot_S4096x768_S768x3072_S4096x3072_1_0_0_1_n_n.contr.Idx) : (dot_S4096x768_S768x3072_S4096x3072_1_0_0_1_n_n.rhsIdx i q 0).val = (q ⟨0, by decide⟩).val :=
  dot_S4096x768_S768x3072_S4096x3072_1_0_0_1_n_n.rhsIdx_val_of_single rfl i q
theorem r1_rhs1 (i : S4096x3072.Idx) (q : dot_S4096x768_S768x3072_S4096x3072_1_0_0_1_n_n.contr.Idx) : (dot_S4096x768_S768x3072_S4096x3072_1_0_0_1_n_n.rhsIdx i q 1).val = (i 1).val := by
  unfold DotDims.rhsIdx
  rw [dif_neg (show ¬(1 : Fin S768x3072.rank) ∈ dot_S4096x768_S768x3072_S4096x3072_1_0_0_1_n_n.rhsBatch by decide), dif_pos (show (1 : Fin S768x3072.rank) ∈ dot_S4096x768_S768x3072_S4096x3072_1_0_0_1_n_n.rhsNonContracting by decide)]
  rfl

theorem r2_lhs0 (i : S4096x768.Idx) (q : dot_S4096x3072_S3072x768_S4096x768_1_0_0_1_n_n.contr.Idx) : (dot_S4096x3072_S3072x768_S4096x768_1_0_0_1_n_n.lhsIdx i q 0).val = (i 0).val := by
  unfold DotDims.lhsIdx
  rw [dif_neg (show ¬(0 : Fin S4096x3072.rank) ∈ dot_S4096x3072_S3072x768_S4096x768_1_0_0_1_n_n.lhsBatch by decide), dif_pos (show (0 : Fin S4096x3072.rank) ∈ dot_S4096x3072_S3072x768_S4096x768_1_0_0_1_n_n.lhsNonContracting by decide)]
  rfl
theorem r2_lhs1 (i : S4096x768.Idx) (q : dot_S4096x3072_S3072x768_S4096x768_1_0_0_1_n_n.contr.Idx) : (dot_S4096x3072_S3072x768_S4096x768_1_0_0_1_n_n.lhsIdx i q 1).val = (q ⟨0, by decide⟩).val :=
  dot_S4096x3072_S3072x768_S4096x768_1_0_0_1_n_n.lhsIdx_val_of_single rfl i q
theorem r2_rhs0 (i : S4096x768.Idx) (q : dot_S4096x3072_S3072x768_S4096x768_1_0_0_1_n_n.contr.Idx) : (dot_S4096x3072_S3072x768_S4096x768_1_0_0_1_n_n.rhsIdx i q 0).val = (q ⟨0, by decide⟩).val :=
  dot_S4096x3072_S3072x768_S4096x768_1_0_0_1_n_n.rhsIdx_val_of_single rfl i q
theorem r2_rhs1 (i : S4096x768.Idx) (q : dot_S4096x3072_S3072x768_S4096x768_1_0_0_1_n_n.contr.Idx) : (dot_S4096x3072_S3072x768_S4096x768_1_0_0_1_n_n.rhsIdx i q 1).val = (i 1).val := by
  unfold DotDims.rhsIdx
  rw [dif_neg (show ¬(1 : Fin S3072x768.rank) ∈ dot_S4096x3072_S3072x768_S4096x768_1_0_0_1_n_n.rhsBatch by decide), dif_pos (show (1 : Fin S3072x768.rank) ∈ dot_S4096x3072_S3072x768_S4096x768_1_0_0_1_n_n.rhsNonContracting by decide)]
  rfl

/-- The first product at (r, j): row r of the activations against column j of the transposed weights. -/
theorem rdot1_apply (a : FVec Ideal S4096x768 .f32) (b : FVec Ideal S768x3072 .f32) (r : Fin 4096) (j : Fin 3072) :
    Host.dotGeneral dot_S4096x768_S768x3072_S4096x3072_1_0_0_1_n_n none a b (ix2 r j) = ∑ k : Fin 768, a (ix2 r k) * b (ix2 k j) := by
  simp only [Host.dotGeneral]
  rw [Ideal.dotGeneral_apply, ← Equiv.sum_comp (contrEquiv1 dot_S4096x768_S768x3072_S4096x3072_1_0_0_1_n_n 768 rfl rfl).symm]
  refine Finset.sum_congr rfl fun k _ => ?_
  have hk := contrEquiv1_symm_val dot_S4096x768_S768x3072_S4096x3072_1_0_0_1_n_n 768 rfl rfl k
  have el : dot_S4096x768_S768x3072_S4096x3072_1_0_0_1_n_n.lhsIdx (ix2 r j) ((contrEquiv1 dot_S4096x768_S768x3072_S4096x3072_1_0_0_1_n_n 768 rfl rfl).symm k) = ix2 r k := funext fun ax => Fin.ext (by
    match ax with
    | ⟨0, _⟩ => exact r1_lhs0 _ _
    | ⟨1, _⟩ => exact (r1_lhs1 _ _).trans hk)
  have er : dot_S4096x768_S768x3072_S4096x3072_1_0_0_1_n_n.rhsIdx (ix2 r j) ((contrEquiv1 dot_S4096x768_S768x3072_S4096x3072_1_0_0_1_n_n 768 rfl rfl).symm k) = ix2 k j := funext fun ax => Fin.ext (by
    match ax with
    | ⟨0, _⟩ => exact (r1_rhs0 _ _).trans hk
    | ⟨1, _⟩ => exact r1_rhs1 _ _)
  rw [el, er]

/-- The second product at (r, d). -/
theorem rdot2_apply (a : FVec Ideal S4096x3072 .f32) (b : FVec Ideal S3072x768 .f32) (r : Fin 4096) (d : Fin 768) :
    Host.dotGeneral dot_S4096x3072_S3072x768_S4096x768_1_0_0_1_n_n none a b (ix2 r d) = ∑ k : Fin 3072, a (ix2 r k) * b (ix2 k d) := by
  simp only [Host.dotGeneral]
  rw [Ideal.dotGeneral_apply, ← Equiv.sum_comp (contrEquiv1 dot_S4096x3072_S3072x768_S4096x768_1_0_0_1_n_n 3072 rfl rfl).symm]
  refine Finset.sum_congr rfl fun k _ => ?_
  have hk := contrEquiv1_symm_val dot_S4096x3072_S3072x768_S4096x768_1_0_0_1_n_n 3072 rfl rfl k
  have el : dot_S4096x3072_S3072x768_S4096x768_1_0_0_1_n_n.lhsIdx (ix2 r d) ((contrEquiv1 dot_S4096x3072_S3072x768_S4096x768_1_0_0_1_n_n 3072 rfl rfl).symm k) = ix2 r k := funext fun ax => Fin.ext (by
    match ax with
    | ⟨0, _⟩ => exact r2_lhs0 _ _
    | ⟨1, _⟩ => exact (r2_lhs1 _ _).trans hk)
  have er : dot_S4096x3072_S3072x768_S4096x768_1_0_0_1_n_n.rhsIdx (ix2 r d) ((contrEquiv1 dot_S4096x3072_S3072x768_S4096x768_1_0_0_1_n_n 3072 rfl rfl).symm k) = ix2 k d := funext fun ax => Fin.ext (by
    match ax with
    | ⟨0, _⟩ => exact (r2_rhs0 _ _).trans hk
    | ⟨1, _⟩ => exact r2_rhs1 _ _)
  rw [el, er]

section Layout

variable {α : Type}

/-- Expert e's first weight matrix, sliced, reshaped and transposed, reads (k, j) at (e, j, k) of the stacked array. -/
theorem wi_apply (e : ℕ) (he : e < 8) (hs3 : S8x3072x768.Slices ![e, 0, 0] S1x3072x768) (x3 : S8x3072x768.Idx → α) (k : Fin 768) (j : Fin 3072) :
    transpose S768x3072 [1, 0] (shapeCast S3072x768 (extractStridedSlice S1x3072x768 ![e, 0, 0] x3 hs3) shapeCasts_S1x3072x768_S3072x768) transposes_S3072x768_S768x3072_1_0 (ix2 k j)
      = x3 (ix3 (⟨e, he⟩ : Fin 8) j k) := by
  refine (transpose_apply [1, 0] _ transposes_S3072x768_S768x3072_1_0 (ix2 k j) (ix2 j k) (fun b => by
    match b with
    | ⟨0, _⟩ => rfl
    | ⟨1, _⟩ => rfl)).trans ?_
  refine (shapeCast_apply _ shapeCasts_S1x3072x768_S3072x768 (ix2 j k) (ix3 (0 : Fin 1) j k) (by
    rw [Shape.rowMajor_val_three, Shape.rowMajor_val_two]
    show (0 * 3072 + j.val) * 768 + k.val = j.val * 768 + k.val
    omega)).trans ?_
  exact extractStridedSlice_apply _ x3 hs3 _ _ (fun a => by
    match a with
    | ⟨0, _⟩ => show e = e + 0; omega
    | ⟨1, _⟩ => show j.val = 0 + j.val; omega
    | ⟨2, _⟩ => show k.val = 0 + k.val; omega)

/-- Expert e's second weight matrix, sliced, reshaped and transposed, reads (j, d) at (e, d, j) of the stacked array. -/
theorem wo_apply (e : ℕ) (he : e < 8) (hs4 : S8x768x3072.Slices ![e, 0, 0] S1x768x3072) (x4 : S8x768x3072.Idx → α) (j : Fin 3072) (d : Fin 768) :
    transpose S3072x768 [1, 0] (shapeCast S768x3072 (extractStridedSlice S1x768x3072 ![e, 0, 0] x4 hs4) shapeCasts_S1x768x3072_S768x3072) transposes_S768x3072_S3072x768_1_0 (ix2 j d)
      = x4 (ix3 (⟨e, he⟩ : Fin 8) d j) := by
  refine (transpose_apply [1, 0] _ transposes_S768x3072_S3072x768_1_0 (ix2 j d) (ix2 d j) (fun b => by
    match b with
    | ⟨0, _⟩ => rfl
    | ⟨1, _⟩ => rfl)).trans ?_
  refine (shapeCast_apply _ shapeCasts_S1x768x3072_S768x3072 (ix2 d j) (ix3 (0 : Fin 1) d j) (by
    rw [Shape.rowMajor_val_three, Shape.rowMajor_val_two]
    show (0 * 768 + d.val) * 3072 + j.val = d.val * 3072 + j.val
    omega)).trans ?_
  exact extractStridedSlice_apply _ x4 hs4 _ _ (fun a => by
    match a with
    | ⟨0, _⟩ => show e = e + 0; omega
    | ⟨1, _⟩ => show d.val = 0 + d.val; omega
    | ⟨2, _⟩ => show j.val = 0 + j.val; omega)

/-- Row (e, k) of the transposed mask, as a [4096] array, reads r at (r, k, e) of the mask. -/
theorem mask_apply (e k : ℕ) (he : e < 8) (hk : k < 2) (hm : S8x2x4096.Slices ![e, k, 0] S1x1x4096) (x1 : S4096x2x8.Idx → α) (r : Fin 4096) :
    shapeCast S4096 (extractStridedSlice S1x1x4096 ![e, k, 0] (transpose S8x2x4096 [2, 1, 0] x1 transposes_S4096x2x8_S8x2x4096_2_1_0) hm) shapeCasts_S1x1x4096_S4096 (ix1 r)
      = x1 (ix3 r (⟨k, hk⟩ : Fin 2) (⟨e, he⟩ : Fin 8)) := by
  refine (shapeCast_apply _ shapeCasts_S1x1x4096_S4096 (ix1 r) (ix3 (0 : Fin 1) (0 : Fin 1) r) (by
    rw [Shape.rowMajor_val_three, Shape.rowMajor_val_one]
    show (0 * 1 + 0) * 4096 + r.val = r.val
    omega)).trans ?_
  refine (extractStridedSlice_apply _ _ hm _ (ix3 (⟨e, he⟩ : Fin 8) (⟨k, hk⟩ : Fin 2) r) (fun a => by
    match a with
    | ⟨0, _⟩ => show e = e + 0; omega
    | ⟨1, _⟩ => show k = k + 0; omega
    | ⟨2, _⟩ => show r.val = 0 + r.val; omega)).trans ?_
  exact transpose_apply [2, 1, 0] x1 transposes_S4096x2x8_S8x2x4096_2_1_0 _ (ix3 r (⟨k, hk⟩ : Fin 2) (⟨e, he⟩ : Fin 8)) (fun b => by
    match b with
    | ⟨0, _⟩ => rfl
    | ⟨1, _⟩ => rfl
    | ⟨2, _⟩ => rfl)

/-- Column k of the routing weights, as a [4096] array, reads r at (r, k). -/
theorem rw_apply (k : ℕ) (hk : k < 2) (hr : S4096x2.Slices ![0, k] S4096x1) (x2 : S4096x2.Idx → α) (r : Fin 4096) :
    shapeCast S4096 (extractStridedSlice S4096x1 ![0, k] x2 hr) shapeCasts_S4096x1_S4096 (ix1 r) = x2 (ix2 r (⟨k, hk⟩ : Fin 2)) := by
  refine (shapeCast_apply _ shapeCasts_S4096x1_S4096 (ix1 r) (ix2 r (0 : Fin 1)) (by
    rw [Shape.rowMajor_val_two, Shape.rowMajor_val_one]
    show r.val * 1 + 0 = r.val
    omega)).trans ?_
  exact extractStridedSlice_apply _ x2 hr _ _ (fun a => by
    match a with
    | ⟨0, _⟩ => show r.val = 0 + r.val; omega
    | ⟨1, _⟩ => show k = k + 0; omega)

/-- A [4096] array broadcast to a column and then along each row reads (r, d) at r. -/
theorem bcast_row_apply (w : S4096.Idx → α) (r : Fin 4096) (d : Fin 768) :
    broadcastInDim S4096x768 ![0, 1] bcast_S4096x1_S4096x768_0_1 (broadcastInDim S4096x1 ![0] bcast_S4096_S4096x1_0 w) (ix2 r d) = w (ix1 r) := by
  refine (broadcastInDim_apply _ bcast_S4096x1_S4096x768_0_1 _ (ix2 r d) (ix2 r (0 : Fin 1)) (fun a => by
    match a with
    | ⟨0, _⟩ => show r.val = if (4096 : ℕ) = 1 then 0 else r.val; rw [if_neg (by norm_num)]
    | ⟨1, _⟩ => rfl)).trans ?_
  exact broadcastInDim_apply _ bcast_S4096_S4096x1_0 w (ix2 r (0 : Fin 1)) (ix1 r) (fun a => by
    match a with
    | ⟨0, _⟩ => show r.val = if (4096 : ℕ) = 1 then 0 else r.val; rw [if_neg (by norm_num)])

end Layout

/-- Expert e's output term at (r, d) is the specification's. -/
theorem expertTerm_apply (e : ℕ) (he : e < 8) (hs3 : S8x3072x768.Slices ![e, 0, 0] S1x3072x768) (hs4 : S8x768x3072.Slices ![e, 0, 0] S1x768x3072)
    (x0 : FVec Ideal S4096x768 .f32) (x3 : FVec Ideal S8x3072x768 .f32) (x4 : FVec Ideal S8x768x3072 .f32) (r : Fin 4096) (d : Fin 768) :
    expertTerm e hs3 hs4 x0 x3 x4 (ix2 r d) = expertOut x0 x3 x4 ⟨e, he⟩ r d := by
  unfold expertTerm expertOut
  rw [rdot2_apply]
  refine Finset.sum_congr rfl fun j _ => congrArg₂ (· * ·) ?_ (wo_apply e he hs4 x4 j d)
  rw [maximumf_apply, rdot1_apply]
  unfold hid
  refine congrArg₂ max (Finset.sum_congr rfl fun k _ => congrArg₂ (· * ·) rfl (wi_apply e he hs3 x3 k j)) ?_
  show Ideal.ofBits .f32 0x00000000#32 = 0
  exact Ideal.ofBits_zero_f32

/-- Expert e's coefficient term of slot k at (r, d) is the specification's. -/
theorem coefTerm_apply (e k : ℕ) (he : e < 8) (hk : k < 2) (hm : S8x2x4096.Slices ![e, k, 0] S1x1x4096) (hr : S4096x2.Slices ![0, k] S4096x1)
    (x1 : IVec S4096x2x8 32) (x2 : FVec Ideal S4096x2 .f32) (r : Fin 4096) (d : Fin 768) :
    coefTerm e k hm hr (transpose S8x2x4096 [2, 1, 0] x1 transposes_S4096x2x8_S8x2x4096_2_1_0) x2 (ix2 r d)
      = coef x1 x2 ⟨k, hk⟩ ⟨e, he⟩ r := by
  unfold coefTerm coef
  rw [bcast_row_apply, mulf_apply, sitofp_apply, mask_apply e k he hk, rw_apply k hk]

end Cert.ReferenceIdeal.RefRun

end
-- ==== Proof.RefBlocksA.lean ====
import proofs.«158283_g1726576853152_cont_sun_c4_190_44_alg».proof.Proof.RefOps
import proofs.«158283_g1726576853152_cont_sun_c4_190_44_alg».proof.Proof.RefTerms

/-! The experts' lists of operations, one by one: what each leaves in its last buffer — the running sum plus the expert's
    output times each of its two coefficients, of the contents it starts from — and that it leaves the arguments and the
    transposed mask as they were. (the prologue and experts 0 to 3) -/

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The prologue leaves the zero array in its first buffer … -/
theorem pre_zero (W : Valuation τ sig (Elt Ideal)) :
    after (opsPre (F := Ideal)) W (Proc.devRef .tc main_v0) = broadcastInDim S4096x768 ![] bcast_S_S4096x768 (constant (F := Ideal) S_ .f32 0x00000000#32) := by
  after_results_simp <;> rfl
/-- … the transposed mask in its second … -/
theorem pre_mask (W : Valuation τ sig (Elt Ideal)) :
    after (opsPre (F := Ideal)) W (Proc.devRef .tc main_v1)
      = transpose S8x2x4096 [2, 1, 0] (W (Proc.devRef .tc main_arg1)) transposes_S4096x2x8_S8x2x4096_2_1_0 := by
  after_results_simp <;> rfl
/-- … and the arguments as they were. -/
theorem pre_keep_main_arg0 (W : Valuation τ sig (Elt Ideal)) :
    after (opsPre (F := Ideal)) W (Proc.devRef .tc main_arg0) = W (Proc.devRef .tc main_arg0) := by
  after_results_simp <;> rfl
theorem pre_keep_main_arg1 (W : Valuation τ sig (Elt Ideal)) :
    after (opsPre (F := Ideal)) W (Proc.devRef .tc main_arg1) = W (Proc.devRef .tc main_arg1) := by
  after_results_simp <;> rfl
theorem pre_keep_main_arg2 (W : Valuation τ sig (Elt Ideal)) :
    after (opsPre (F := Ideal)) W (Proc.devRef .tc main_arg2) = W (Proc.devRef .tc main_arg2) := by
  after_results_simp <;> rfl
theorem pre_keep_main_arg3 (W : Valuation τ sig (Elt Ideal)) :
    after (opsPre (F := Ideal)) W (Proc.devRef .tc main_arg3) = W (Proc.devRef .tc main_arg3) := by
  after_results_simp <;> rfl
theorem pre_keep_main_arg4 (W : Valuation τ sig (Elt Ideal)) :
    after (opsPre (F := Ideal)) W (Proc.devRef .tc main_arg4) = W (Proc.devRef .tc main_arg4) := by
  after_results_simp <;> rfl

/-- What expert 0's operations leave in their last buffer, from any contents W. -/
theorem blk0_res (W : Valuation τ sig (Elt Ideal)) :
    after (opsE0 (F := Ideal)) W (Proc.devRef .tc main_v30)
      = blockTerm 0 slices_S8x3072x768_S1x3072x768_0_0_0 slices_S8x768x3072_S1x768x3072_0_0_0 slices_S8x2x4096_S1x1x4096_0_0_0 slices_S8x2x4096_S1x1x4096_0_1_0
          (W (Proc.devRef .tc main_v0)) (W (Proc.devRef .tc main_arg0)) (W (Proc.devRef .tc main_v1)) (W (Proc.devRef .tc main_arg2))
          (W (Proc.devRef .tc main_arg3)) (W (Proc.devRef .tc main_arg4)) := by
  after_results_simp <;> rfl
theorem blk0_keep_main_arg0 (W : Valuation τ sig (Elt Ideal)) :
    after (opsE0 (F := Ideal)) W (Proc.devRef .tc main_arg0) = W (Proc.devRef .tc main_arg0) := by
  after_results_simp <;> rfl
theorem blk0_keep_main_arg1 (W : Valuation τ sig (Elt Ideal)) :
    after (opsE0 (F := Ideal)) W (Proc.devRef .tc main_arg1) = W (Proc.devRef .tc main_arg1) := by
  after_results_simp <;> rfl
theorem blk0_keep_main_arg2 (W : Valuation τ sig (Elt Ideal)) :
    after (opsE0 (F := Ideal)) W (Proc.devRef .tc main_arg2) = W (Proc.devRef .tc main_arg2) := by
  after_results_simp <;> rfl
theorem blk0_keep_main_arg3 (W : Valuation τ sig (Elt Ideal)) :
    after (opsE0 (F := Ideal)) W (Proc.devRef .tc main_arg3) = W (Proc.devRef .tc main_arg3) := by
  after_results_simp <;> rfl
theorem blk0_keep_main_arg4 (W : Valuation τ sig (Elt Ideal)) :
    after (opsE0 (F := Ideal)) W (Proc.devRef .tc main_arg4) = W (Proc.devRef .tc main_arg4) := by
  after_results_simp <;> rfl
theorem blk0_keep_main_v1 (W : Valuation τ sig (Elt Ideal)) :
    after (opsE0 (F := Ideal)) W (Proc.devRef .tc main_v1) = W (Proc.devRef .tc main_v1) := by
  after_results_simp <;> rfl

/-- What expert 1's operations leave in their last buffer, from any contents W. -/
theorem blk1_res (W : Valuation τ sig (Elt Ideal)) :
    after (opsE1 (F := Ideal)) W (Proc.devRef .tc main_v59)
      = blockTerm 1 slices_S8x3072x768_S1x3072x768_1_0_0 slices_S8x768x3072_S1x768x3072_1_0_0 slices_S8x2x4096_S1x1x4096_1_0_0 slices_S8x2x4096_S1x1x4096_1_1_0
          (W (Proc.devRef .tc main_v30)) (W (Proc.devRef .tc main_arg0)) (W (Proc.devRef .tc main_v1)) (W (Proc.devRef .tc main_arg2))
          (W (Proc.devRef .tc main_arg3)) (W (Proc.devRef .tc main_arg4)) := by
  after_results_simp <;> rfl
theorem blk1_keep_main_arg0 (W : Valuation τ sig (Elt Ideal)) :
    after (opsE1 (F := Ideal)) W (Proc.devRef .tc main_arg0) = W (Proc.devRef .tc main_arg0) := by
  after_results_simp <;> rfl
theorem blk1_keep_main_arg1 (W : Valuation τ sig (Elt Ideal)) :
    after (opsE1 (F := Ideal)) W (Proc.devRef .tc main_arg1) = W (Proc.devRef .tc main_arg1) := by
  after_results_simp <;> rfl
theorem blk1_keep_main_arg2 (W : Valuation τ sig (Elt Ideal)) :
    after (opsE1 (F := Ideal)) W (Proc.devRef .tc main_arg2) = W (Proc.devRef .tc main_arg2) := by
  after_results_simp <;> rfl
theorem blk1_keep_main_arg3 (W : Valuation τ sig (Elt Ideal)) :
    after (opsE1 (F := Ideal)) W (Proc.devRef .tc main_arg3) = W (Proc.devRef .tc main_arg3) := by
  after_results_simp <;> rfl
theorem blk1_keep_main_arg4 (W : Valuation τ sig (Elt Ideal)) :
    after (opsE1 (F := Ideal)) W (Proc.devRef .tc main_arg4) = W (Proc.devRef .tc main_arg4) := by
  after_results_simp <;> rfl
theorem blk1_keep_main_v1 (W : Valuation τ sig (Elt Ideal)) :
    after (opsE1 (F := Ideal)) W (Proc.devRef .tc main_v1) = W (Proc.devRef .tc main_v1) := by
  after_results_simp <;> rfl

/-- What expert 2's operations leave in their last buffer, from any contents W. -/
theorem blk2_res (W : Valuation τ sig (Elt Ideal)) :
    after (opsE2 (F := Ideal)) W (Proc.devRef .tc main_v88)
      = blockTerm 2 slices_S8x3072x768_S1x3072x768_2_0_0 slices_S8x768x3072_S1x768x3072_2_0_0 slices_S8x2x4096_S1x1x4096_2_0_0 slices_S8x2x4096_S1x1x4096_2_1_0
          (W (Proc.devRef .tc main_v59)) (W (Proc.devRef .tc main_arg0)) (W (Proc.devRef .tc main_v1)) (W (Proc.devRef .tc main_arg2))
          (W (Proc.devRef .tc main_arg3)) (W (Proc.devRef .tc main_arg4)) := by
  after_results_simp <;> rfl
theorem blk2_keep_main_arg0 (W : Valuation τ sig (Elt Ideal)) :
    after (opsE2 (F := Ideal)) W (Proc.devRef .tc main_arg0) = W (Proc.devRef .tc main_arg0) := by
  after_results_simp <;> rfl
theorem blk2_keep_main_arg1 (W : Valuation τ sig (Elt Ideal)) :
    after (opsE2 (F := Ideal)) W (Proc.devRef .tc main_arg1) = W (Proc.devRef .tc main_arg1) := by
  after_results_simp <;> rfl
theorem blk2_keep_main_arg2 (W : Valuation τ sig (Elt Ideal)) :
    after (opsE2 (F := Ideal)) W (Proc.devRef .tc main_arg2) = W (Proc.devRef .tc main_arg2) := by
  after_results_simp <;> rfl
theorem blk2_keep_main_arg3 (W : Valuation τ sig (Elt Ideal)) :
    after (opsE2 (F := Ideal)) W (Proc.devRef .tc main_arg3) = W (Proc.devRef .tc main_arg3) := by
  after_results_simp <;> rfl
theorem blk2_keep_main_arg4 (W : Valuation τ sig (Elt Ideal)) :
    after (opsE2 (F := Ideal)) W (Proc.devRef .tc main_arg4) = W (Proc.devRef .tc main_arg4) := by
  after_results_simp <;> rfl
theorem blk2_keep_main_v1 (W : Valuation τ sig (Elt Ideal)) :
    after (opsE2 (F := Ideal)) W (Proc.devRef .tc main_v1) = W (Proc.devRef .tc main_v1) := by
  after_results_simp <;> rfl

/-- What expert 3's operations leave in their last buffer, from any contents W. -/
theorem blk3_res (W : Valuation τ sig (Elt Ideal)) :
    after (opsE3 (F := Ideal)) W (Proc.devRef .tc main_v117)
      = blockTerm 3 slices_S8x3072x768_S1x3072x768_3_0_0 slices_S8x768x3072_S1x768x3072_3_0_0 slices_S8x2x4096_S1x1x4096_3_0_0 slices_S8x2x4096_S1x1x4096_3_1_0
          (W (Proc.devRef .tc main_v88)) (W (Proc.devRef .tc main_arg0)) (W (Proc.devRef .tc main_v1)) (W (Proc.devRef .tc main_arg2))
          (W (Proc.devRef .tc main_arg3)) (W (Proc.devRef .tc main_arg4)) := by
  after_results_simp <;> rfl
theorem blk3_keep_main_arg0 (W : Valuation τ sig (Elt Ideal)) :
    after (opsE3 (F := Ideal)) W (Proc.devRef .tc main_arg0) = W (Proc.devRef .tc main_arg0) := by
  after_results_simp <;> rfl
theorem blk3_keep_main_arg1 (W : Valuation τ sig (Elt Ideal)) :
    after (opsE3 (F := Ideal)) W (Proc.devRef .tc main_arg1) = W (Proc.devRef .tc main_arg1) := by
  after_results_simp <;> rfl
theorem blk3_keep_main_arg2 (W : Valuation τ sig (Elt Ideal)) :
    after (opsE3 (F := Ideal)) W (Proc.devRef .tc main_arg2) = W (Proc.devRef .tc main_arg2) := by
  after_results_simp <;> rfl
theorem blk3_keep_main_arg3 (W : Valuation τ sig (Elt Ideal)) :
    after (opsE3 (F := Ideal)) W (Proc.devRef .tc main_arg3) = W (Proc.devRef .tc main_arg3) := by
  after_results_simp <;> rfl
theorem blk3_keep_main_arg4 (W : Valuation τ sig (Elt Ideal)) :
    after (opsE3 (F := Ideal)) W (Proc.devRef .tc main_arg4) = W (Proc.devRef .tc main_arg4) := by
  after_results_simp <;> rfl
theorem blk3_keep_main_v1 (W : Valuation τ sig (Elt Ideal)) :
    after (opsE3 (F := Ideal)) W (Proc.devRef .tc main_v1) = W (Proc.devRef .tc main_v1) := by
  after_results_simp <;> rfl

end Cert.ReferenceIdeal.RefRun

end
-- ==== Proof.RefBlocksB.lean ====
import proofs.«158283_g1726576853152_cont_sun_c4_190_44_alg».proof.Proof.RefOps
import proofs.«158283_g1726576853152_cont_sun_c4_190_44_alg».proof.Proof.RefTerms

/-! The experts' lists of operations, one by one: what each leaves in its last buffer — the running sum plus the expert's
    output times each of its two coefficients, of the contents it starts from — and that it leaves the arguments and the
    transposed mask as they were. (experts 4 to 7) -/

noncomputable section

namespace Cert.ReferenceIdeal.RefRun

open Cert.ReferenceIdeal Cert.ReferenceIdeal.Gen Idealize.ShloMosaic Idealize.ShloMosaic.TcCoe Idealize.SL.Sem Idealize.ShloMosaic.StableHlo

/-- What expert 4's operations leave in their last buffer, from any contents W. -/
theorem blk4_res (W : Valuation τ sig (Elt Ideal)) :
    after (opsE4 (F := Ideal)) W (Proc.devRef .tc main_v146)
      = blockTerm 4 slices_S8x3072x768_S1x3072x768_4_0_0 slices_S8x768x3072_S1x768x3072_4_0_0 slices_S8x2x4096_S1x1x4096_4_0_0 slices_S8x2x4096_S1x1x4096_4_1_0
          (W (Proc.devRef .tc main_v117)) (W (Proc.devRef .tc main_arg0)) (W (Proc.devRef .tc main_v1)) (W (Proc.devRef .tc main_arg2))
          (W (Proc.devRef .tc main_arg3)) (W (Proc.devRef .tc main_arg4)) := by
  after_results_simp <;> rfl
theorem blk4_keep_main_arg0 (W : Valuation τ sig (Elt Ideal)) :
    after (opsE4 (F := Ideal)) W (Proc.devRef .tc main_arg0) = W (Proc.devRef .tc main_arg0) := by
  after_results_simp <;> rfl
theorem blk4_keep_main_arg1 (W : Valuation τ sig (Elt Ideal)) :
    after (opsE4 (F := Ideal)) W (Proc.devRef .tc main_arg1) = W (Proc.devRef .tc main_arg1) := by
  after_results_simp <;> rfl
theorem blk4_keep_main_arg2 (W : Valuation τ sig (Elt Ideal)) :
    after (opsE4 (F := Ideal)) W (Proc.devRef .tc main_arg2) = W (Proc.devRef .tc main_arg2) := by
  after_results_simp <;> rfl
theorem blk4_keep_main_arg3 (W : Valuation τ sig (Elt Ideal)) :
    after (opsE4 (F := Ideal)) W (Proc.devRef .tc main_arg3) = W (Proc.devRef .tc main_arg3) := by
  after_results_simp <;> rfl
theorem blk4_keep_main_arg4 (W : Valuation τ sig (Elt Ideal)) :
    after (opsE4 (F := Ideal)) W (Proc.devRef .tc main_arg4) = W (Proc.devRef .tc main_arg4) := by
  after_results_simp <;> rfl
theorem blk4_keep_main_v1 (W : Valuation τ sig (Elt Ideal)) :
    after (opsE4 (F := Ideal)) W (Proc.devRef .tc main_v1) = W (Proc.devRef .tc main_v1) := by
  after_results_simp <;> rfl

/-- What expert 5's operations leave in their last buffer, from any contents W. -/
theorem blk5_res (W : Valuation τ sig (Elt Ideal)) :
    after (opsE5 (F := Ideal)) W (Proc.devRef .tc main_v175)
      = blockTerm 5 slices_S8x3072x768_S1x3072x768_5_0_0 slices_S8x768x3072_S1x768x3072_5_0_0 slices_S8x2x4096_S1x1x4096_5_0_0 slices_S8x2x4096_S1x1x4096_5_1_0
          (W (Proc.devRef .tc main_v146)) (W (Proc.devRef .tc main_arg0)) (W (Proc.devRef .tc main_v1)) (W (Proc.devRef .tc main_arg2))
          (W (Proc.devRef .tc main_arg3)) (W (Proc.devRef .tc main_arg4)) := by
  after_results_simp <;> rfl
theorem blk5_keep_main_arg0 (W : Valuation τ sig (Elt Ideal)) :
    after (opsE5 (F := Ideal)) W (Proc.devRef .tc main_arg0) = W (Proc.devRef .tc main_arg0) := by
  after_results_simp <;> rfl
theorem blk5_keep_main_arg1 (W : Valuation τ sig (Elt Ideal)) :
    after (opsE5 (F := Ideal)) W (Proc.devRef .tc main_arg1) = W (Proc.devRef .tc main_arg1) := by
  after_results_simp <;> rfl
theorem blk5_keep_main_arg2 (W : Valuation τ sig (Elt Ideal)) :
    after (opsE5 (F := Ideal)) W (Proc.devRef .tc main_arg2) = W (Proc.devRef .tc main_arg2) := by
  after_results_simp <;> rfl
theorem blk5_keep_main_arg3 (W : Valuation τ sig (Elt Ideal)) :
    after (opsE5 (F := Ideal)) W (Proc.devRef .tc main_arg3) = W (Proc.devRef .tc main_arg3) := by
  after_results_simp <;> rfl
theorem blk5_keep_main_arg4 (W : Valuation τ sig (Elt Ideal)) :
    after (opsE5 (F := Ideal)) W (Proc.devRef .tc main_arg4) = W (Proc.devRef .tc main_arg4) := by
  after_results_simp <;> rfl
theorem blk5_keep_main_v1 (W : Valuation τ sig (Elt Ideal)) :
    after (opsE5 (F := Ideal)) W (Proc.devRef .tc main_v1) = W (Proc.devRef .tc main_v1) := by
  after_results_simp <;> rfl

/-- What expert 6's operations leave in their last buffer, from any contents W. -/
theorem blk6_res (W : Valuation τ sig (Elt Ideal)) :
    after (opsE6 (F := Ideal)) W (Proc.devRef .tc main_v204)
      = blockTerm 6 slices_S8x3072x768_S1x3072x768_6_0_0 slices_S8x768x3072_S1x768x3072_6_0_0 slices_S8x2x4096_S1x1x4096_6_0_0 slices_S8x2x4096_S1x1x4096_6_1_0
          (W (Proc.devRef .tc main_v175)) (W (Proc.devRef .tc main_arg0)) (W (Proc.devRef .tc main_v1)) (W (Proc.devRef .tc main_arg2))
          (W (Proc.devRef .tc main_arg3)) (W (Proc.devRef .tc main_arg4)) := by
  after_results_simp <;> rfl
theorem blk6_keep_main_arg0 (W : Valuation τ sig (Elt Ideal)) :
    after (opsE6 (F := Ideal)) W (Proc.devRef .tc main_arg0) = W (Proc.devRef .tc main_arg0) := by
  after_results_simp <;> rfl
theorem blk6_keep_main_arg1 (W : Valuation τ sig (Elt Ideal)) :
    after (opsE6 (F := Ideal)) W (Proc.devRef .tc main_arg1) = W (Proc.devRef .tc main_arg1) := by
  after_results_simp <;> rfl
theorem blk6_keep_main_arg2 (W : Valuation τ sig (Elt Ideal)) :
    after (opsE6 (F := Ideal)) W (Proc.devRef .tc main_arg2) = W (Proc.devRef .tc main_arg2) := by
  after_results_simp <;> rfl
theorem blk6_keep_main_arg3 (W : Valuation τ sig (Elt Ideal)) :
    after (opsE6 (F := Ideal)) W (Proc.devRef .tc main_arg3) = W (Proc.devRef .tc main_arg3) := by
  after_results_simp <;> rfl
theorem blk6_keep_main_arg4 (W : Valuation τ sig (Elt Ideal)) :
    after (opsE6 (F := Ideal)) W (Proc.devRef .tc main_arg4) = W (Proc.devRef .tc main_arg4) := by
  after_results_simp <;> rfl
theorem blk6_keep_main_v1 (W : Valuation τ sig (Elt Ideal)) :
    after (opsE6 (F := Ideal)) W (Proc.devRef .tc main_v1) = W (Proc.devRef .tc main_v1) := by
  after_results_simp <;> rfl

/-- What expert 7's operations leave in their last buffer, from any contents W. -/
theorem blk7_res (W : Valuation τ sig (Elt Ideal)) :
    after (opsE7 (F := Ideal)) W (Proc.devRef .tc main_v233)
      = blockTerm 7 slices_S8x3072x768_S1x3072x768_7_0_0 slices_S8x768x3072_S1x768x3072_7_0_0 slices_S8x2x4096_S1x1x4096_7_0_0 slices_S8x2x4096_S1x1x4096_7_1_0
          (W (Proc.devRef .tc main_v204)) (W (Proc.devRef .tc main_arg0)) (W (Proc.devRef .tc main_v1)) (W (Proc.devRef .tc main_arg2))
          (W (Proc.devRef .tc main_arg3)) (W (Proc.devRef .tc main_arg4)) := by
  after_results_simp <;> rfl
theorem blk7_keep_main_arg0 (W : Valuation τ sig (Elt Ideal)) :
    after (opsE7 (F := Ideal)) W (Proc.devRef .tc main_arg0) = W (Proc.devRef .tc main_arg0) := by
  after_results_simp <;> rfl
theorem blk7_keep_main_arg1 (W : Valuation τ sig (Elt Ideal)) :
    after (opsE7 (F := Ideal)) W (Proc.devRef .tc main_arg1) = W (Proc.devRef .tc main_arg1) := by
  after_results_simp <;> rfl
theorem blk7_keep_main_arg2 (W : Valuation τ sig (Elt Ideal)) :
    after (opsE7 (F := Ideal)) W (Proc.devRef .tc main_arg2) = W (Proc.devRef .tc main_arg2) := by
  after_results_simp <;> rfl
theorem blk7_keep_main_arg3 (W : Valuation τ sig (Elt Ideal)) :
    after (opsE7 (F := Ideal)) W (Proc.devRef .tc main_arg3) = W (Proc.devRef .tc main_arg3) := by
  after_results_simp <;> rfl
theorem blk7_keep_main_arg4 (W : Valuation τ sig (Elt Ideal)) :
    after (opsE7 (F := Ideal)) W (Proc.devRef .tc main_arg4) = W (Proc.devRef .tc main_arg4) := by
  after_results_simp <;> rfl
theorem blk7_keep_main_v1 (W : Valuation τ sig (Elt Ideal)) :
    after (opsE7 (F := Ideal)) W (Proc.devRef .tc main_v1) = W (Proc.devRef .tc main_v1) := by
  after_results_simp <;> rfl

end Cert.ReferenceIdeal.RefRun

end
-- ==== Proof.RefRun.lean ====
import proofs.«158283_g1726576853152_cont_sun_c4_190_44_alg».proof.Proof.RefBlocksA
import proofs.«158283_g1726576853152_cont_sun_c4_190_44_alg».proof.Proof.RefBlocksB

/-! The reference's run, read: its result array as one term of the argument arrays, and that term at an index.

    The fold of the whole program's operations is the folds of the prologue and of the eight experts' lists one after the
    other; each expert's list adds to the running sum and leaves the arguments and the transposed mask alone. So the last
    buffer ends at the eight blockTerms nested from the zero array (refTerm), which at (r, d) is the specification in the
    reference's order. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.Spec

/-- The reference's result as a term of its five arguments: the experts' blocks nested from the zero array. -/
def refTerm (x0 : FVec Ideal S4096x768 .f32) (x1 : IVec S4096x2x8 32) (x2 : FVec Ideal S4096x2 .f32) (x3 : FVec Ideal S8x3072x768 .f32)
    (x4 : FVec Ideal S8x768x3072 .f32) : FVec Ideal S4096x768 .f32 :=
  (blockTerm 7 slices_S8x3072x768_S1x3072x768_7_0_0 slices_S8x768x3072_S1x768x3072_7_0_0 slices_S8x2x4096_S1x1x4096_7_0_0 slices_S8x2x4096_S1x1x4096_7_1_0
    (blockTerm 6 slices_S8x3072x768_S1x3072x768_6_0_0 slices_S8x768x3072_S1x768x3072_6_0_0 slices_S8x2x4096_S1x1x4096_6_0_0 slices_S8x2x4096_S1x1x4096_6_1_0
    (blockTerm 5 slices_S8x3072x768_S1x3072x768_5_0_0 slices_S8x768x3072_S1x768x3072_5_0_0 slices_S8x2x4096_S1x1x4096_5_0_0 slices_S8x2x4096_S1x1x4096_5_1_0
    (blockTerm 4 slices_S8x3072x768_S1x3072x768_4_0_0 slices_S8x768x3072_S1x768x3072_4_0_0 slices_S8x2x4096_S1x1x4096_4_0_0 slices_S8x2x4096_S1x1x4096_4_1_0
    (blockTerm 3 slices_S8x3072x768_S1x3072x768_3_0_0 slices_S8x768x3072_S1x768x3072_3_0_0 slices_S8x2x4096_S1x1x4096_3_0_0 slices_S8x2x4096_S1x1x4096_3_1_0
    (blockTerm 2 slices_S8x3072x768_S1x3072x768_2_0_0 slices_S8x768x3072_S1x768x3072_2_0_0 slices_S8x2x4096_S1x1x4096_2_0_0 slices_S8x2x4096_S1x1x4096_2_1_0
    (blockTerm 1 slices_S8x3072x768_S1x3072x768_1_0_0 slices_S8x768x3072_S1x768x3072_1_0_0 slices_S8x2x4096_S1x1x4096_1_0_0 slices_S8x2x4096_S1x1x4096_1_1_0
    (blockTerm 0 slices_S8x3072x768_S1x3072x768_0_0_0 slices_S8x768x3072_S1x768x3072_0_0_0 slices_S8x2x4096_S1x1x4096_0_0_0 slices_S8x2x4096_S1x1x4096_0_1_0
    (broadcastInDim S4096x768 ![] bcast_S_S4096x768 (constant (F := Ideal) S_ .f32 0x00000000#32))
    x0 (transpose S8x2x4096 [2, 1, 0] x1 transposes_S4096x2x8_S8x2x4096_2_1_0) x2 x3 x4)
    x0 (transpose S8x2x4096 [2, 1, 0] x1 transposes_S4096x2x8_S8x2x4096_2_1_0) x2 x3 x4)
    x0 (transpose S8x2x4096 [2, 1, 0] x1 transposes_S4096x2x8_S8x2x4096_2_1_0) x2 x3 x4)
    x0 (transpose S8x2x4096 [2, 1, 0] x1 transposes_S4096x2x8_S8x2x4096_2_1_0) x2 x3 x4)
    x0 (transpose S8x2x4096 [2, 1, 0] x1 transposes_S4096x2x8_S8x2x4096_2_1_0) x2 x3 x4)
    x0 (transpose S8x2x4096 [2, 1, 0] x1 transposes_S4096x2x8_S8x2x4096_2_1_0) x2 x3 x4)
    x0 (transpose S8x2x4096 [2, 1, 0] x1 transposes_S4096x2x8_S8x2x4096_2_1_0) x2 x3 x4)
    x0 (transpose S8x2x4096 [2, 1, 0] x1 transposes_S4096x2x8_S8x2x4096_2_1_0) x2 x3 x4)

/-- The fold of the program's operations at the result buffer. -/
theorem after_res (V : Valuation τ sig (Elt Ideal)) :
    after (ops (F := Ideal)) V (Proc.devRef .tc main_v233)
      = refTerm (V (Proc.devRef .tc main_arg0)) (V (Proc.devRef .tc main_arg1)) (V (Proc.devRef .tc main_arg2)) (V (Proc.devRef .tc main_arg3)) (V (Proc.devRef .tc main_arg4)) := by
  show after (opsPre ++ (opsE0 ++ (opsE1 ++ (opsE2 ++ (opsE3 ++ (opsE4 ++ (opsE5 ++ (opsE6 ++ opsE7)))))))) V _ = _
  rw [after_append, after_append, after_append, after_append, after_append, after_append, after_append, after_append]
  rw [blk7_res]
  rw [blk6_res, blk6_keep_main_arg0, blk6_keep_main_v1, blk6_keep_main_arg2, blk6_keep_main_arg3, blk6_keep_main_arg4]
  rw [blk5_res, blk5_keep_main_arg0, blk5_keep_main_v1, blk5_keep_main_arg2, blk5_keep_main_arg3, blk5_keep_main_arg4]
  rw [blk4_res, blk4_keep_main_arg0, blk4_keep_main_v1, blk4_keep_main_arg2, blk4_keep_main_arg3, blk4_keep_main_arg4]
  rw [blk3_res, blk3_keep_main_arg0, blk3_keep_main_v1, blk3_keep_main_arg2, blk3_keep_main_arg3, blk3_keep_main_arg4]
  rw [blk2_res, blk2_keep_main_arg0, blk2_keep_main_v1, blk2_keep_main_arg2, blk2_keep_main_arg3, blk2_keep_main_arg4]
  rw [blk1_res, blk1_keep_main_arg0, blk1_keep_main_v1, blk1_keep_main_arg2, blk1_keep_main_arg3, blk1_keep_main_arg4]
  rw [blk0_res, blk0_keep_main_arg0, blk0_keep_main_v1, blk0_keep_main_arg2, blk0_keep_main_arg3, blk0_keep_main_arg4]
  rw [pre_zero, pre_mask, pre_keep_main_arg0, pre_keep_main_arg2, pre_keep_main_arg3, pre_keep_main_arg4]
  rfl

/-- The fold of the program's operations leaves main_arg0 as it was. -/
theorem after_keep_main_arg0 (V : Valuation τ sig (Elt Ideal)) :
    after (ops (F := Ideal)) V (Proc.devRef .tc main_arg0) = V (Proc.devRef .tc main_arg0) := by
  show after (opsPre ++ (opsE0 ++ (opsE1 ++ (opsE2 ++ (opsE3 ++ (opsE4 ++ (opsE5 ++ (opsE6 ++ opsE7)))))))) V _ = _
  rw [after_append, after_append, after_append, after_append, after_append, after_append, after_append, after_append,
    blk7_keep_main_arg0, blk6_keep_main_arg0, blk5_keep_main_arg0, blk4_keep_main_arg0, blk3_keep_main_arg0, blk2_keep_main_arg0, blk1_keep_main_arg0, blk0_keep_main_arg0, pre_keep_main_arg0]

/-- The fold of the program's operations leaves main_arg1 as it was. -/
theorem after_keep_main_arg1 (V : Valuation τ sig (Elt Ideal)) :
    after (ops (F := Ideal)) V (Proc.devRef .tc main_arg1) = V (Proc.devRef .tc main_arg1) := by
  show after (opsPre ++ (opsE0 ++ (opsE1 ++ (opsE2 ++ (opsE3 ++ (opsE4 ++ (opsE5 ++ (opsE6 ++ opsE7)))))))) V _ = _
  rw [after_append, after_append, after_append, after_append, after_append, after_append, after_append, after_append,
    blk7_keep_main_arg1, blk6_keep_main_arg1, blk5_keep_main_arg1, blk4_keep_main_arg1, blk3_keep_main_arg1, blk2_keep_main_arg1, blk1_keep_main_arg1, blk0_keep_main_arg1, pre_keep_main_arg1]

/-- The fold of the program's operations leaves main_arg2 as it was. -/
theorem after_keep_main_arg2 (V : Valuation τ sig (Elt Ideal)) :
    after (ops (F := Ideal)) V (Proc.devRef .tc main_arg2) = V (Proc.devRef .tc main_arg2) := by
  show after (opsPre ++ (opsE0 ++ (opsE1 ++ (opsE2 ++ (opsE3 ++ (opsE4 ++ (opsE5 ++ (opsE6 ++ opsE7)))))))) V _ = _
  rw [after_append, after_append, after_append, after_append, after_append, after_append, after_append, after_append,
    blk7_keep_main_arg2, blk6_keep_main_arg2, blk5_keep_main_arg2, blk4_keep_main_arg2, blk3_keep_main_arg2, blk2_keep_main_arg2, blk1_keep_main_arg2, blk0_keep_main_arg2, pre_keep_main_arg2]

/-- The fold of the program's operations leaves main_arg3 as it was. -/
theorem after_keep_main_arg3 (V : Valuation τ sig (Elt Ideal)) :
    after (ops (F := Ideal)) V (Proc.devRef .tc main_arg3) = V (Proc.devRef .tc main_arg3) := by
  show after (opsPre ++ (opsE0 ++ (opsE1 ++ (opsE2 ++ (opsE3 ++ (opsE4 ++ (opsE5 ++ (opsE6 ++ opsE7)))))))) V _ = _
  rw [after_append, after_append, after_append, after_append, after_append, after_append, after_append, after_append,
    blk7_keep_main_arg3, blk6_keep_main_arg3, blk5_keep_main_arg3, blk4_keep_main_arg3, blk3_keep_main_arg3, blk2_keep_main_arg3, blk1_keep_main_arg3, blk0_keep_main_arg3, pre_keep_main_arg3]

/-- The fold of the program's operations leaves main_arg4 as it was. -/
theorem after_keep_main_arg4 (V : Valuation τ sig (Elt Ideal)) :
    after (ops (F := Ideal)) V (Proc.devRef .tc main_arg4) = V (Proc.devRef .tc main_arg4) := by
  show after (opsPre ++ (opsE0 ++ (opsE1 ++ (opsE2 ++ (opsE3 ++ (opsE4 ++ (opsE5 ++ (opsE6 ++ opsE7)))))))) V _ = _
  rw [after_append, after_append, after_append, after_append, after_append, after_append, after_append, after_append,
    blk7_keep_main_arg4, blk6_keep_main_arg4, blk5_keep_main_arg4, blk4_keep_main_arg4, blk3_keep_main_arg4, blk2_keep_main_arg4, blk1_keep_main_arg4, blk0_keep_main_arg4, pre_keep_main_arg4]

/-- The reference's run, read: the result array at refTerm of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v233) = refTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v233).trans (after_res _),
      (h c main_arg0).trans (after_keep_main_arg0 _), (h c main_arg1).trans (after_keep_main_arg1 _),
      (h c main_arg2).trans (after_keep_main_arg2 _), (h c main_arg3).trans (after_keep_main_arg3 _),
      (h c main_arg4).trans (after_keep_main_arg4 _)⟩)
    (run_all m ρ)

/-- One expert's block at (r, d): the running sum there plus the expert's output times each of its two coefficients. -/
theorem blockTerm_apply (e : ℕ) (he : e < 8) (hs3 : S8x3072x768.Slices ![e, 0, 0] S1x3072x768) (hs4 : S8x768x3072.Slices ![e, 0, 0] S1x768x3072)
    (hm0 : S8x2x4096.Slices ![e, 0, 0] S1x1x4096) (hm1 : S8x2x4096.Slices ![e, 1, 0] S1x1x4096)
    (prev x0 : FVec Ideal S4096x768 .f32) (x1 : IVec S4096x2x8 32) (x2 : FVec Ideal S4096x2 .f32) (x3 : FVec Ideal S8x3072x768 .f32)
    (x4 : FVec Ideal S8x768x3072 .f32) (r : Fin 4096) (d : Fin 768) :
    blockTerm e hs3 hs4 hm0 hm1 prev x0 (transpose S8x2x4096 [2, 1, 0] x1 transposes_S4096x2x8_S8x2x4096_2_1_0) x2 x3 x4 (ix2 r d)
      = (prev (ix2 r d) + expertOut x0 x3 x4 ⟨e, he⟩ r d * coef x1 x2 0 ⟨e, he⟩ r) + expertOut x0 x3 x4 ⟨e, he⟩ r d * coef x1 x2 1 ⟨e, he⟩ r := by
  unfold blockTerm
  rw [addf_apply, addf_apply, mulf_apply, mulf_apply, expertTerm_apply e he, coefTerm_apply e 0 he (by norm_num), coefTerm_apply e 1 he (by norm_num)]
  rfl

/-- The reference's term at (r, d) is the specification in the reference's order. -/
theorem refTerm_apply (x0 : FVec Ideal S4096x768 .f32) (x1 : IVec S4096x2x8 32) (x2 : FVec Ideal S4096x2 .f32) (x3 : FVec Ideal S8x3072x768 .f32)
    (x4 : FVec Ideal S8x768x3072 .f32) (r : Fin 4096) (d : Fin 768) :
    refTerm x0 x1 x2 x3 x4 (ix2 r d) = refOut x0 x1 x2 x3 x4 r d := by
  unfold refTerm
  rw [blockTerm_apply 7 (by norm_num), blockTerm_apply 6 (by norm_num), blockTerm_apply 5 (by norm_num), blockTerm_apply 4 (by norm_num), blockTerm_apply 3 (by norm_num), blockTerm_apply 2 (by norm_num), blockTerm_apply 1 (by norm_num), blockTerm_apply 0 (by norm_num)]
  show _ = refOut x0 x1 x2 x3 x4 r d
  unfold refOut
  simp only [List.foldl]
  have hz : broadcastInDim S4096x768 ![] bcast_S_S4096x768 (constant (F := Ideal) S_ .f32 0x00000000#32) (ix2 r d) = 0 :=
    Ideal.ofBits_zero_f32
  rw [hz]
  rfl

end Cert.ReferenceIdeal.RefRun

end
-- ==== Proof.Finite.lean ====
import proofs.«158283_g1726576853152_cont_sun_c4_190_44_alg».proof.Pre_finite_inputs
import proofs.«158283_g1726576853152_cont_sun_c4_190_44_alg».proof.Proof.Reals
import Idealize.ShloMosaic.Lib.ReduceAll
import Idealize.ShloMosaic.Lib.ValueIdx
import Idealize.ShloMosaic.PureOps.Ideal.Laws

/-! The precondition, read back: every entry of the four float arguments is a real number.

    The precondition is the conjunction, over the four float arrays, of "every entry's absolute value is below +infinity".
    An extended real whose absolute value max x (-x) is below +infinity is neither infinity, so it is a real number. -/

noncomputable section

open Idealize.ShloMosaic Idealize.ShloMosaic.ValueIdx

namespace Cert.Finite

open Cert.Pre_finite_inputs Cert.Reals

instance : Subsingleton S_.Idx := ⟨fun a b => funext fun d => d.elim0⟩

/-- The f32 word of +infinity is the top extended real. -/
theorem ofBits_inf : Ideal.ofBits .f32 0x7F800000#32 = ⊤ := by simp [Ideal.ofBits, Ideal.ieee]

/-- An extended real whose absolute value compares below +infinity is a real number. -/
theorem real_of_abs_lt (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

variable [Cert.Pre_finite_inputs.Facts]

/-- Under the precondition every entry of the four float arguments is a real number. -/
theorem real_of_pre (x0 : FVec Ideal S4096x768 .f32) (x1 : IVec S4096x2x8 32) (x2 : FVec Ideal S4096x2 .f32)
    (x3 : FVec Ideal S8x3072x768 .f32) (x4 : FVec Ideal S8x768x3072 .f32)
    (h : fn (F := Ideal) x0 x1 x2 x3 x4 = fun _ => 1#1) :
    (∀ i, IsReal (x0 i)) ∧ (∀ i, IsReal (x2 i)) ∧ (∀ i, IsReal (x3 i)) ∧ (∀ i, IsReal (x4 i)) := by
  have h0 := congrFun h ix0
  dsimp only [fn, fn_part1] at h0
  obtain ⟨h023, h4⟩ := IntOp.andi_eq_one.mp h0
  obtain ⟨h02, h3⟩ := IntOp.andi_eq_one.mp h023
  obtain ⟨h0', h2⟩ := IntOp.andi_eq_one.mp h02
  exact ⟨fun i => real_of_abs_lt _ (Host.reduce_andi_all _ _ _ _ ix0 h0' i),
    fun i => real_of_abs_lt _ (Host.reduce_andi_all _ _ _ _ ix0 h2 i),
    fun i => real_of_abs_lt _ (Host.reduce_andi_all _ _ _ _ ix0 h3 i),
    fun i => real_of_abs_lt _ (Host.reduce_andi_all _ _ _ _ ix0 h4 i)⟩

end Cert.Finite

end
-- ==== Proof.lean ====
/- The claim of this certificate: the five conjuncts of Cert.Claim.

   The kernel is a mixture-of-experts layer: for each of eight experts, relu (X · Wi[e]ᵀ) · Wo[e]ᵀ, weighted token by token by
   the expert's routing coefficient and summed over the experts. The kernel visits (expert, half of the hidden layer) in
   sixteen grid points and accumulates into one resident output block; the reference computes each expert's whole output and
   adds it twice, once per routing slot.

   Frames: the kernel's two programs have generated frames; the reference's frame is its run (RefRun) with the result
   dropped. preserves: the idealization rewrote nothing. algebraic: the kernel's result array is kerOut of the argument arrays
   (KerValue), the reference's is refOut (RefRun), and on finite inputs (the precondition, Finite) the two agree (Spec):
   the halves of a hidden-layer sum add up to the whole, and multiplication distributes over the sum of the two
   coefficients because every number involved is real. -/
import proofs.«158283_g1726576853152_cont_sun_c4_190_44_alg».proof.Defs
import proofs.«158283_g1726576853152_cont_sun_c4_190_44_alg».proof.Proof.Gen.Kernel
import proofs.«158283_g1726576853152_cont_sun_c4_190_44_alg».proof.Proof.Gen.Kernel.Frame
import proofs.«158283_g1726576853152_cont_sun_c4_190_44_alg».proof.Proof.Gen.KernelIdeal
import proofs.«158283_g1726576853152_cont_sun_c4_190_44_alg».proof.Proof.Gen.KernelIdeal.Frame
import proofs.«158283_g1726576853152_cont_sun_c4_190_44_alg».proof.Proof.Gen.KernelIdeal.Value
import proofs.«158283_g1726576853152_cont_sun_c4_190_44_alg».proof.Proof.Gen.ReferenceIdeal
import proofs.«158283_g1726576853152_cont_sun_c4_190_44_alg».proof.Proof.Gen.Pre_finite_inputs
import proofs.«158283_g1726576853152_cont_sun_c4_190_44_alg».proof.Proof.KerValue
import proofs.«158283_g1726576853152_cont_sun_c4_190_44_alg».proof.Proof.RefRun
import proofs.«158283_g1726576853152_cont_sun_c4_190_44_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- At the ideal values the kernel's result array is the specification in the kernel's order and the reference's is the
    specification in the reference's order, of argument arrays that agree and are finite: equal, index by index. -/
theorem algebraic : Cert.algebraic_KernelIdeal_ReferenceIdeal := by
  intro m ρ m' ρ' hpre hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.RefRun.run m' ρ')
  obtain ⟨h0, h2, h3, h4⟩ := Cert.Finite.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (hpre c)
  rw [(hagree c).1, (hagree c).2.1, (hagree c).2.2.1, (hagree c).2.2.2.1, (hagree c).2.2.2.2]
  funext y
  obtain ⟨r, d, rfl⟩ : ∃ (r : Fin 4096) (d : Fin 768), y = ix2 r d := ⟨y 0, y 1, eq_ix2 y⟩
  rw [Cert.ReferenceIdeal.RefRun.refTerm_apply, Cert.Spec.refOut_eq_kerOut h0 h2 h3 h4 r d]
  exact (Cert.KernelIdeal.KerValue.result_apply m c r d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
